-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S256x128 : Shape := ⟨2, ![256, 128]⟩
abbrev S50000 : Shape := ⟨1, ![50000]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128x256 .f32) (main_arg10 : FVec F S128 .f32) (main_arg11 : FVec F S128 .f32) (main_arg12 : FVec F S128 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128 .f32) (main_arg8 : FVec F S128 .f32) (main_arg9 : FVec F S128x256 .f32) (main_arg10 : FVec F S128 .f32) (main_arg11 : FVec F S128 .f32) (main_arg12 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : FVec F S800000x128 .f32) (main_arg3 : FVec F S256x128 .f32) (main_arg4 : IVec S50000 32) (main_arg5 : FVec F S128x256 .f32) (main_arg6 : FVec F S128 .f32) (main_arg7 : FVec F S128 .f32) (main_arg8 : FVec F S128 .f32) (main_arg9 : FVec F S128x256 .f32) (main_arg10 : FVec F S128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S256x128 : Shape := ⟨2, ![256, 128]⟩
abbrev S50000 : Shape := ⟨1, ![50000]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S128x128 : Shape := ⟨2, ![128, 128]⟩
abbrev S1x128 : Shape := ⟨2, ![1, 128]⟩
abbrev S6400x128 : Shape := ⟨2, ![6400, 128]⟩
abbrev S50000x1 : Shape := ⟨2, ![50000, 1]⟩
abbrev S5000x128 : Shape := ⟨2, ![5000, 128]⟩

abbrev nBuf : Space → Nat
  | .hbm => 78
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S256x128, .f32⟩
  | .hbm, ⟨4, _⟩ => ⟨S50000, .i32⟩
  | .hbm, ⟨5, _⟩ => ⟨S128x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S256x128, .f32⟩
  | .hbm, ⟨27, _⟩ => ⟨S128x128, .f32⟩
  | .hbm, ⟨28, _⟩ => ⟨S128x128, .f32⟩
  | .hbm, ⟨29, _⟩ => ⟨S1x128, .f32⟩
  | .hbm, ⟨30, _⟩ => ⟨S800000x128, .bf16⟩
  | .hbm, ⟨31, _⟩ => ⟨S1x128, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S_, .f32⟩
  | .hbm, ⟨49, _⟩ => ⟨S800000, .f32⟩
  | .hbm, ⟨50, _⟩ => ⟨S_, .f32⟩
  | .hbm, ⟨51, _⟩ => ⟨S50000, .f32⟩
  | .hbm, ⟨52, _⟩ => ⟨S800000x1, .i32⟩
  | .hbm, ⟨53, _⟩ => ⟨S50000, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S256x128, .f32⟩
  | .hbm, ⟨61, _⟩ => ⟨S128x128, .f32⟩
  | .hbm, ⟨62, _⟩ => ⟨S128x128, .f32⟩
  | .hbm, ⟨63, _⟩ => ⟨S1x128, .f32⟩
  | .hbm, ⟨64, _⟩ => ⟨S50000x128, .f32⟩
  | .hbm, ⟨65, _⟩ => ⟨S1x128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S50000x128, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S6400x128, .bf16⟩
  | .local _ .vmem, ⟨8, _⟩ => ⟨S6400x128, .bf16⟩
  | .local _ .vmem, ⟨9, _⟩ => ⟨S1x128, .f32⟩
  | .local _ .vmem, ⟨10, _⟩ => ⟨S1x128, .f32⟩
  | .local _ .vmem, ⟨11, _⟩ => ⟨S6400x128, .bf16⟩
  | .local _ .vmem, ⟨12, _⟩ => ⟨S6400x128, .bf16⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S6400x128, .f32⟩
  | .local _ .vmem, ⟨18, _⟩ => ⟨S6400x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41_0 : Ref sig .tc := ⟨.hbm, 64, rfl⟩
abbrev main_v41_1 : Ref sig .tc := ⟨.hbm, 65, rfl⟩
abbrev main_v41_2 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  transposes_S128x256_S256x128_1_0 : S128x256.Transposes [1, 0] S256x128
  slices_S256x128_S128x128_0_0 : S256x128.Slices ![0, 0] S128x128
  slices_S256x128_S128x128_128_0 : S256x128.Slices ![128, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S6400x128 : S1x128.Broadcasts S6400x128
  packedbf16_S6400x128_S6400x128_0_0 : (Rect.unit (s := S6400x128) ![0, 0] S6400x128.size inb_S6400x128_S6400x128_0_0).PackedRows (EltTy.packing .bf16)
  reduces_S6400x128_S128 : S6400x128.Reduces [0] S128
  bcast_S_S1x128 : S_.BroadcastsInDim S1x128 (![] : Fin 0 → Fin S1x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S128 : S5000x128.Reduces [0] S128
  gather_S50000x128_S800000x1_S800000x128_1_0_n_n_0_1_1128_wf : GatherDims.WF S50000x128 S800000x1 S800000x128 [1] [0] [] [0] [] 1 ![1, 128]
  dot_S6400x128_S128x128_S6400x128_1_0_0_1_n_n_wf : DotDims.WF S6400x128 S128x128 S6400x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .f32 = 32 ∨ (Rect.block (s := S800000x128) S6400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x128.size a ≤ S800000x128.size a
  hwx0_5 : ∀ i : grid0.Coords, EltTy.bits .bf16 = 32 ∨ (Rect.block (s := S800000x128) S6400x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S800000x128.size a
  hwx1_0 : ∀ i : grid1.Coords, EltTy.bits .bf16 = 32 ∨ (Rect.block (s := S800000x128) S6400x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6400x128.size a ≤ S800000x128.size a
  hwx1_5 : ∀ i : grid1.Coords, EltTy.bits .f32 = 32 ∨ (Rect.block (s := S800000x128) S6400x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S6400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v15_0) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S6400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v41_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v41_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v41_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S256x128 : Shape := ⟨2, ![256, 128]⟩
abbrev S50000 : Shape := ⟨1, ![50000]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x128 : Shape := ⟨2, ![1, 128]⟩
abbrev S50000x1 : Shape := ⟨2, ![50000, 1]⟩
abbrev S50000x256 : Shape := ⟨2, ![50000, 256]⟩

abbrev nBuf : Space → Nat
  | .hbm => 144
  | .vmem => 0
  | .smem => 0
  | _ => 0

abbrev hbmTy0_0 (i : Nat) : BufTy := match i % 128 with
  | 0 => ⟨S50000x128, .f32⟩
  | 1 => ⟨S2x800000, .i32⟩
  | 2 => ⟨S800000x128, .f32⟩
  | 3 => ⟨S256x128, .f32⟩
  | 4 => ⟨S50000, .i32⟩
  | 5 => ⟨S128x256, .f32⟩
  | 6 => ⟨S128, .f32⟩
  | 7 => ⟨S128, .f32⟩
  | 8 => ⟨S128, .f32⟩
  | 9 => ⟨S128x256, .f32⟩
  | 10 => ⟨S128, .f32⟩
  | 11 => ⟨S128, .f32⟩
  | 12 => ⟨S128, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S800000x256, .f32⟩
  | 27 => ⟨S256x128, .f32⟩
  | 28 => ⟨S800000x128, .f32⟩
  | 29 => ⟨S1x128, .f32⟩
  | 30 => ⟨S800000x128, .f32⟩
  | 31 => ⟨S800000x128, .f32⟩
  | 32 => ⟨S_, .f32⟩
  | 33 => ⟨S128, .f32⟩
  | 34 => ⟨S_, .f32⟩
  | 35 => ⟨S128, .f32⟩
  | 36 => ⟨S128, .f32⟩
  | 37 => ⟨S1x128, .f32⟩
  | 38 => ⟨S800000x128, .f32⟩
  | 39 => ⟨S800000x128, .f32⟩
  | 40 => ⟨S800000x128, .f32⟩
  | 41 => ⟨S_, .f32⟩
  | 42 => ⟨S128, .f32⟩
  | 43 => ⟨S_, .f32⟩
  | 44 => ⟨S128, .f32⟩
  | 45 => ⟨S128, .f32⟩
  | 46 => ⟨S1x128, .f32⟩
  | 47 => ⟨S800000x128, .f32⟩
  | 48 => ⟨S800000x128, .f32⟩
  | 49 => ⟨S_, .f32⟩
  | 50 => ⟨S128, .f32⟩
  | 51 => ⟨S128, .f32⟩
  | 52 => ⟨S128, .f32⟩
  | 53 => ⟨S1x128, .f32⟩
  | 54 => ⟨S800000x128, .f32⟩
  | 55 => ⟨S800000x128, .f32⟩
  | 56 => ⟨S1x128, .f32⟩
  | 57 => ⟨S800000x128, .f32⟩
  | 58 => ⟨S800000x128, .f32⟩
  | 59 => ⟨S1x128, .f32⟩
  | 60 => ⟨S800000x128, .f32⟩
  | 61 => ⟨S800000x128, .f32⟩
  | 62 => ⟨S_, .f32⟩
  | 63 => ⟨S800000x128, .f32⟩
  | 64 => ⟨S800000x128, .i1⟩
  | 65 => ⟨S_, .f32⟩
  | 66 => ⟨S800000x128, .f32⟩
  | 67 => ⟨S800000x128, .i1⟩
  | 68 => ⟨S_, .f32⟩
  | 69 => ⟨S_, .f32⟩
  | 70 => ⟨S800000x128, .f32⟩
  | 71 => ⟨S800000x128, .f32⟩
  | 72 => ⟨S800000x128, .f32⟩
  | 73 => ⟨S_, .f32⟩
  | 74 => ⟨S800000x128, .f32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S_, .f32⟩
  | 82 => ⟨S800000, .f32⟩
  | 83 => ⟨S_, .f32⟩
  | 84 => ⟨S50000, .f32⟩
  | 85 => ⟨S800000x1, .i32⟩
  | 86 => ⟨S50000, .f32⟩
  | 87 => ⟨S_, .f32⟩
  | 88 => ⟨S50000, .f32⟩
  | 89 => ⟨S50000, .f32⟩
  | 90 => ⟨S50000x1, .f32⟩
  | 91 => ⟨S50000x128, .f32⟩
  | 92 => ⟨S50000x128, .f32⟩
  | 93 => ⟨S50000x256, .f32⟩
  | 94 => ⟨S256x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S128, .f32⟩
  | 101 => ⟨S_, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S50000x128, .f32⟩
  | 108 => ⟨S_, .f32⟩
  | 109 => ⟨S128, .f32⟩
  | 110 => ⟨S_, .f32⟩
  | 111 => ⟨S128, .f32⟩
  | 112 => ⟨S128, .f32⟩
  | 113 => ⟨S1x128, .f32⟩
  | 114 => ⟨S50000x128, .f32⟩
  | 115 => ⟨S50000x128, .f32⟩
  | 116 => ⟨S_, .f32⟩
  | 117 => ⟨S128, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .i1⟩
  | 4 => ⟨S_, .f32⟩
  | 5 => ⟨S50000x128, .f32⟩
  | 6 => ⟨S50000x128, .i1⟩
  | 7 => ⟨S_, .f32⟩
  | 8 => ⟨S_, .f32⟩
  | 9 => ⟨S50000x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_cst_0 : Ref sig .tc := ⟨.hbm, 65, rfl⟩
abbrev main_call0_v2 : Ref sig .tc := ⟨.hbm, 66, rfl⟩
abbrev main_call0_v3 : Ref sig .tc := ⟨.hbm, 67, rfl⟩
abbrev main_call0_cst_1 : Ref sig .tc := ⟨.hbm, 68, rfl⟩
abbrev main_call0_call0_v0 : Ref sig .tc := ⟨.hbm, 69, rfl⟩
abbrev main_call0_call0_v1 : Ref sig .tc := ⟨.hbm, 70, rfl⟩
abbrev main_call0_v4 : Ref sig .tc := ⟨.hbm, 71, rfl⟩
abbrev main_call0_v5 : Ref sig .tc := ⟨.hbm, 72, rfl⟩
abbrev main_call0_cst_2 : Ref sig .tc := ⟨.hbm, 73, rfl⟩
abbrev main_call0_v6 : Ref sig .tc := ⟨.hbm, 74, rfl⟩
abbrev main_call0_v7 : Ref sig .tc := ⟨.hbm, 75, rfl⟩
abbrev main_v42 : Ref sig .tc := ⟨.hbm, 76, rfl⟩
abbrev main_cst_5 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_6 : Ref sig .tc := ⟨.hbm, 81, rfl⟩
abbrev main_v46 : Ref sig .tc := ⟨.hbm, 82, rfl⟩
abbrev main_cst_7 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_8 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_9 : Ref sig .tc := ⟨.hbm, 99, rfl⟩
abbrev main_v61 : Ref sig .tc := ⟨.hbm, 100, rfl⟩
abbrev main_cst_10 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_11 : Ref sig .tc := ⟨.hbm, 108, rfl⟩
abbrev main_v68 : Ref sig .tc := ⟨.hbm, 109, rfl⟩
abbrev main_cst_12 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_13 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_call1_cst : Ref sig .tc := ⟨.hbm, 129, rfl⟩
abbrev main_call1_v0 : Ref sig .tc := ⟨.hbm, 130, rfl⟩
abbrev main_call1_v1 : Ref sig .tc := ⟨.hbm, 131, rfl⟩
abbrev main_call1_cst_0 : Ref sig .tc := ⟨.hbm, 132, rfl⟩
abbrev main_call1_v2 : Ref sig .tc := ⟨.hbm, 133, rfl⟩
abbrev main_call1_v3 : Ref sig .tc := ⟨.hbm, 134, rfl⟩
abbrev main_call1_cst_1 : Ref sig .tc := ⟨.hbm, 135, rfl⟩
abbrev main_call1_call0_v0 : Ref sig .tc := ⟨.hbm, 136, rfl⟩
abbrev main_call1_call0_v1 : Ref sig .tc := ⟨.hbm, 137, rfl⟩
abbrev main_call1_v4 : Ref sig .tc := ⟨.hbm, 138, rfl⟩
abbrev main_call1_v5 : Ref sig .tc := ⟨.hbm, 139, rfl⟩
abbrev main_call1_cst_2 : Ref sig .tc := ⟨.hbm, 140, rfl⟩
abbrev main_call1_v6 : Ref sig .tc := ⟨.hbm, 141, rfl⟩
abbrev main_call1_v7 : Ref sig .tc := ⟨.hbm, 142, rfl⟩
abbrev main_v86 : Ref sig .tc := ⟨.hbm, 143, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  transposes_S128x256_S256x128_1_0 : S128x256.Transposes [1, 0] S256x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S128_d0 : S800000x128.ReducesTo [0] S128
  h_S_ : 0 < S_.numel
  bcast_S_S128 : S_.BroadcastsInDim S128 (![] : Fin 0 → Fin S128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S128_d0 : S50000x128.ReducesTo [0] S128
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KRun.lean ====
/-
  THE KERNEL'S RUN WITH ITS RESULT KEPT. The frame certificate of the idealized kernel launches @main's eight segments
  (four stretches of host operations, four pipelined regions) and ends with every unscoped buffer at the last boundary's
  contents `W8`; its statement then keeps only the thirteen argument arrays. Here the same launch is read once more with
  the result array kept as well: after the run the result holds `W8` at its own reference, which the region modules
  then read back through the four regions.
-/
import proofs.«127109_j5042291605552_1_alg».proof.Proof.KernelIdealFrameP

set_option maxRecDepth 16384

noncomputable section

namespace Cert.KernelIdeal.Hand

open Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of the idealized kernel's @main terminates without a fault; the result array then
    holds the last boundary's contents at its reference, and the argument arrays are as launched. -/
theorem run_result : θ_run defs (onTc (τ := τ) (main (F := F))) ⟨m, fun _ => 0, ρ⟩ (fun r => ∀ c : Dev nD,
      r.2.mem ((c.tc : Thread nD τ).loc main_v50) = W8 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v50 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Hand

end
-- ==== Proof.KHost.lean ====
/-
  The idealized kernel's host operations between its four regions, read back. @main runs four stretches of host
  operations (before region 0, between the regions, before region 3). For each stretch: the references it writes
  (every other reference keeps its contents across it) and, for each value a region then reads, that value as a
  named function of the contents the stretch found:

    rowIxK, colVecK   the edge index's two rows: the gather's index column, the destination vector
    xrK               the source rows gathered
    wA, wB            the two halves of a transposed weight
    rowOf             a length-128 vector as a 1 x 128 row
    meanRow1, varRow1 column sums and sums of squares over the 800000 edges turned into mean and biased variance
    meanRow2, varRow2 the same over the 50000 nodes
    aggK              per-destination sums over max(count, 1)
-/
import proofs.«127109_j5042291605552_1_alg».proof.Proof.KernelIdealLaunchP
import Idealize.ShloMosaic.Lib.StableHlo.Run

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-! ## The values the regions read -/

/-- Row 0 of the edge index as a vector: the source node of each edge. -/
def rowVecK (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- Row 1 of the edge index as a vector: the destination node of each edge. -/
def colVecK (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The gather's index table: the source nodes, a negative one moved up by the node count, as a column. -/
def rowIxK (ei : (⟨S2x800000, .i32⟩ : BufTy).Contents (Elt F)) : (⟨S800000x1, .i32⟩ : BufTy).Contents (Elt F) :=
  broadcastInDim S800000x1 ![0] bcast_S800000_S800000x1_0
    (select
      (cmpi .slt (rowVecK (F := F) ei) (broadcastInDim S800000 ![] bcast_S_S800000 (constantI S_ 32 0#32)))
      (addi (rowVecK (F := F) ei) (broadcastInDim S800000 ![] bcast_S_S800000 (constantI S_ 32 50000#32)))
      (rowVecK (F := F) ei))

/-- The source rows of the node features, one per edge. -/
def xrK (x : (⟨S50000x128, .f32⟩ : BufTy).Contents (Elt F)) (ei : (⟨S2x800000, .i32⟩ : BufTy).Contents (Elt F)) : (⟨S800000x128, .f32⟩ : BufTy).Contents (Elt F) :=
  Host.gather gather_S50000x128_S800000x1_S800000x128_1_0_n_n_0_1_1128 x (rowIxK (F := F) ei)

/-- Rows 0 … 127 of the transposed weight: the half that meets the first 128 input columns. -/
def wA (w : (⟨S128x256, .f32⟩ : BufTy).Contents (Elt F)) : (⟨S128x128, .f32⟩ : BufTy).Contents (Elt F) :=
  extractStridedSlice S128x128 ![0, 0] (transpose S256x128 [1, 0] w transposes_S128x256_S256x128_1_0) slices_S256x128_S128x128_0_0

/-- Rows 128 … 255 of the transposed weight: the half that meets the last 128 input columns. -/
def wB (w : (⟨S128x256, .f32⟩ : BufTy).Contents (Elt F)) : (⟨S128x128, .f32⟩ : BufTy).Contents (Elt F) :=
  extractStridedSlice S128x128 ![128, 0] (transpose S256x128 [1, 0] w transposes_S128x256_S256x128_1_0) slices_S256x128_S128x128_128_0

/-- A vector of 128 as a 1 x 128 row. -/
def rowOf (b : (⟨S128, .f32⟩ : BufTy).Contents (Elt F)) : (⟨S1x128, .f32⟩ : BufTy).Contents (Elt F) :=
  shapeCast S1x128 b shapeCasts_S128_S1x128

/-- The column means over the edges, from the column sums. -/
def meanRow1 (s : (⟨S1x128, .f32⟩ : BufTy).Contents (Elt F)) : (⟨S1x128, .f32⟩ : BufTy).Contents (Elt F) :=
  Host.divf (F := F) (φ := .f32) s (broadcastInDim S1x128 ![] bcast_S_S1x128 (constant (F := F) S_ .f32 0x49435000#32))

/-- The biased column variances over the edges, from the column sums and sums of squares: E[h²] - E[h]². -/
def varRow1 (s sq : (⟨S1x128, .f32⟩ : BufTy).Contents (Elt F)) : (⟨S1x128, .f32⟩ : BufTy).Contents (Elt F) :=
  subf (F := F) (φ := .f32)
    (Host.divf (F := F) (φ := .f32) sq (broadcastInDim S1x128 ![] bcast_S_S1x128 (constant (F := F) S_ .f32 0x49435000#32)))
    (mulf (F := F) (φ := .f32) (meanRow1 s) (meanRow1 s))

/-- The column means over the nodes, from the column sums. -/
def meanRow2 (s : (⟨S1x128, .f32⟩ : BufTy).Contents (Elt F)) : (⟨S1x128, .f32⟩ : BufTy).Contents (Elt F) :=
  Host.divf (F := F) (φ := .f32) s (broadcastInDim S1x128 ![] bcast_S_S1x128 (constant (F := F) S_ .f32 0x47435000#32))

/-- The biased column variances over the nodes, from the column sums and sums of squares. -/
def varRow2 (s sq : (⟨S1x128, .f32⟩ : BufTy).Contents (Elt F)) : (⟨S1x128, .f32⟩ : BufTy).Contents (Elt F) :=
  subf (F := F) (φ := .f32)
    (Host.divf (F := F) (φ := .f32) sq (broadcastInDim S1x128 ![] bcast_S_S1x128 (constant (F := F) S_ .f32 0x47435000#32)))
    (mulf (F := F) (φ := .f32) (meanRow2 s) (meanRow2 s))

/-- Scatter-mean: the per-destination sums of the edge features over max(per-destination count, 1). -/
def aggK (hf : (⟨S800000x128, .f32⟩ : BufTy).Contents (Elt F)) (colv : (⟨S800000, .i32⟩ : BufTy).Contents (Elt F)) : (⟨S50000x128, .f32⟩ : BufTy).Contents (Elt F) :=
  Host.divf (F := F) (φ := .f32)
    (Host.scatterAdd (F := F) (φ := .f32) scatter_S50000x128_S800000x1_S800000x128_1_0_0_1
      (broadcastInDim S50000x128 ![] bcast_S_S50000x128 (constant (F := F) S_ .f32 0x00000000#32))
      (broadcastInDim S800000x1 ![0] bcast_S800000_S800000x1_0 colv) hf)
    (broadcastInDim S50000x128 ![0, 1] bcast_S50000x1_S50000x128_0_1
      (broadcastInDim S50000x1 ![0] bcast_S50000_S50000x1_0
        (maximumf (F := F) (φ := .f32)
          (Host.scatterAdd (F := F) (φ := .f32) scatter_S50000_S800000x1_S800000_n_0_0_1
            (broadcastInDim S50000 ![] bcast_S_S50000 (constant (F := F) S_ .f32 0x00000000#32))
            (broadcastInDim S800000x1 ![0] bcast_S800000_S800000x1_0 colv)
            (broadcastInDim S800000 ![] bcast_S_S800000 (constant (F := F) S_ .f32 0x3F800000#32)))
          (broadcastInDim S50000 ![] bcast_S_S50000 (constant (F := F) S_ .f32 0x3F800000#32)))))

/-! ## What each stretch writes -/

/-- An operation writing the one reference y writes inside any list of references holding y. -/
theorem writes_sub_of_mem {op : HloOp τ sig (Elt F)} {y : Ref sig .tc} {Wl : List (Ref sig .tc)}
    (hw : op.writes = {Proc.devRef .tc y}) (hy : y ∈ Wl) :
    op.writes ⊆ (Wl.map (Proc.devRef (τ := τ) .tc)).toFinset := by
  rw [hw, Finset.singleton_subset_iff, List.mem_toFinset]
  exact List.mem_map.mpr ⟨y, hy, rfl⟩

/-- The references stretch 0 writes. -/
abbrev wH0 : List (Ref sig .tc) :=
  [main_v0, main_v1, main_v2, main_v3, main_c, main_v4, main_v5, main_c_0, main_v6, main_v7, main_v8, main_v9, main_v10, main_v11, main_v12, main_v13, main_v14]

theorem hostOps0_writes : (hostOps0 (F := F)).Forall fun op => op.writes ⊆ ((wH0).map (Proc.devRef (τ := τ) .tc)).toFinset :=
  ⟨writes_sub_of_mem (y := main_v0) rfl (by decide),
   writes_sub_of_mem (y := main_v1) rfl (by decide),
   writes_sub_of_mem (y := main_v2) rfl (by decide),
   writes_sub_of_mem (y := main_v3) rfl (by decide),
   writes_sub_of_mem (y := main_c) rfl (by decide),
   writes_sub_of_mem (y := main_v4) rfl (by decide),
   writes_sub_of_mem (y := main_v5) rfl (by decide),
   writes_sub_of_mem (y := main_c_0) rfl (by decide),
   writes_sub_of_mem (y := main_v6) rfl (by decide),
   writes_sub_of_mem (y := main_v7) rfl (by decide),
   writes_sub_of_mem (y := main_v8) rfl (by decide),
   writes_sub_of_mem (y := main_v9) rfl (by decide),
   writes_sub_of_mem (y := main_v10) rfl (by decide),
   writes_sub_of_mem (y := main_v11) rfl (by decide),
   writes_sub_of_mem (y := main_v12) rfl (by decide),
   writes_sub_of_mem (y := main_v13) rfl (by decide),
   writes_sub_of_mem (y := main_v14) rfl (by decide)⟩

/-- A reference stretch 0 does not write keeps its contents across it. -/
theorem keepH0 (W : Valuation τ sig (Elt F)) {r : Ref sig .tc} (hr : r ∉ wH0) :
    after (hostOps0 (F := F)) W (Proc.devRef .tc r) = W (Proc.devRef .tc r) :=
  after_of_writes_sub _ W hostOps0_writes hr

/-- The references stretch 1 writes. -/
abbrev wH1 : List (Ref sig .tc) :=
  [main_cst, main_v16, main_v17, main_cst_1, main_v18, main_v19, main_v20, main_v21, main_v22, main_v23]

theorem hostOps1_writes : (hostOps1 (F := F)).Forall fun op => op.writes ⊆ ((wH1).map (Proc.devRef (τ := τ) .tc)).toFinset :=
  ⟨writes_sub_of_mem (y := main_cst) rfl (by decide),
   writes_sub_of_mem (y := main_v16) rfl (by decide),
   writes_sub_of_mem (y := main_v17) rfl (by decide),
   writes_sub_of_mem (y := main_cst_1) rfl (by decide),
   writes_sub_of_mem (y := main_v18) rfl (by decide),
   writes_sub_of_mem (y := main_v19) rfl (by decide),
   writes_sub_of_mem (y := main_v20) rfl (by decide),
   writes_sub_of_mem (y := main_v21) rfl (by decide),
   writes_sub_of_mem (y := main_v22) rfl (by decide),
   writes_sub_of_mem (y := main_v23) rfl (by decide)⟩

/-- A reference stretch 1 does not write keeps its contents across it. -/
theorem keepH1 (W : Valuation τ sig (Elt F)) {r : Ref sig .tc} (hr : r ∉ wH1) :
    after (hostOps1 (F := F)) W (Proc.devRef .tc r) = W (Proc.devRef .tc r) :=
  after_of_writes_sub _ W hostOps1_writes hr

/-- The references stretch 2 writes. -/
abbrev wH2 : List (Ref sig .tc) :=
  [main_cst_2, main_v25, main_v26, main_v27, main_cst_3, main_v28, main_cst_4, main_v29, main_v30, main_v31, main_cst_5, main_v32, main_v33, main_v34, main_v35, main_v36, main_v37, main_v38, main_v39, main_v40]

theorem hostOps2_writes : (hostOps2 (F := F)).Forall fun op => op.writes ⊆ ((wH2).map (Proc.devRef (τ := τ) .tc)).toFinset :=
  ⟨writes_sub_of_mem (y := main_cst_2) rfl (by decide),
   writes_sub_of_mem (y := main_v25) rfl (by decide),
   writes_sub_of_mem (y := main_v26) rfl (by decide),
   writes_sub_of_mem (y := main_v27) rfl (by decide),
   writes_sub_of_mem (y := main_cst_3) rfl (by decide),
   writes_sub_of_mem (y := main_v28) rfl (by decide),
   writes_sub_of_mem (y := main_cst_4) rfl (by decide),
   writes_sub_of_mem (y := main_v29) rfl (by decide),
   writes_sub_of_mem (y := main_v30) rfl (by decide),
   writes_sub_of_mem (y := main_v31) rfl (by decide),
   writes_sub_of_mem (y := main_cst_5) rfl (by decide),
   writes_sub_of_mem (y := main_v32) rfl (by decide),
   writes_sub_of_mem (y := main_v33) rfl (by decide),
   writes_sub_of_mem (y := main_v34) rfl (by decide),
   writes_sub_of_mem (y := main_v35) rfl (by decide),
   writes_sub_of_mem (y := main_v36) rfl (by decide),
   writes_sub_of_mem (y := main_v37) rfl (by decide),
   writes_sub_of_mem (y := main_v38) rfl (by decide),
   writes_sub_of_mem (y := main_v39) rfl (by decide),
   writes_sub_of_mem (y := main_v40) rfl (by decide)⟩

/-- A reference stretch 2 does not write keeps its contents across it. -/
theorem keepH2 (W : Valuation τ sig (Elt F)) {r : Ref sig .tc} (hr : r ∉ wH2) :
    after (hostOps2 (F := F)) W (Proc.devRef .tc r) = W (Proc.devRef .tc r) :=
  after_of_writes_sub _ W hostOps2_writes hr

/-- The references stretch 3 writes. -/
abbrev wH3 : List (Ref sig .tc) :=
  [main_cst_6, main_v42, main_v43, main_cst_7, main_v44, main_v45, main_v46, main_v47, main_v48, main_v49]

theorem hostOps3_writes : (hostOps3 (F := F)).Forall fun op => op.writes ⊆ ((wH3).map (Proc.devRef (τ := τ) .tc)).toFinset :=
  ⟨writes_sub_of_mem (y := main_cst_6) rfl (by decide),
   writes_sub_of_mem (y := main_v42) rfl (by decide),
   writes_sub_of_mem (y := main_v43) rfl (by decide),
   writes_sub_of_mem (y := main_cst_7) rfl (by decide),
   writes_sub_of_mem (y := main_v44) rfl (by decide),
   writes_sub_of_mem (y := main_v45) rfl (by decide),
   writes_sub_of_mem (y := main_v46) rfl (by decide),
   writes_sub_of_mem (y := main_v47) rfl (by decide),
   writes_sub_of_mem (y := main_v48) rfl (by decide),
   writes_sub_of_mem (y := main_v49) rfl (by decide)⟩

/-- A reference stretch 3 does not write keeps its contents across it. -/
theorem keepH3 (W : Valuation τ sig (Elt F)) {r : Ref sig .tc} (hr : r ∉ wH3) :
    after (hostOps3 (F := F)) W (Proc.devRef .tc r) = W (Proc.devRef .tc r) :=
  after_of_writes_sub _ W hostOps3_writes hr

/-! ## What each stretch computes -/

/-- Stretch 0 leaves the gathered source rows at %10. -/
theorem out0_v10 (W : Valuation τ sig (Elt F)) :
    after (hostOps0 (F := F)) W (Proc.devRef .tc main_v10) = xrK (W (Proc.devRef .tc main_arg0)) (W (Proc.devRef .tc main_arg1)) := by
  after_results_simp
  rfl

/-- Stretch 0 leaves the gather's index column at %9. -/
theorem out0_v9 (W : Valuation τ sig (Elt F)) :
    after (hostOps0 (F := F)) W (Proc.devRef .tc main_v9) = rowIxK (F := F) (W (Proc.devRef .tc main_arg1)) := by
  after_results_simp
  rfl

/-- Stretch 0 leaves the destination vector at %3. -/
theorem out0_v3 (W : Valuation τ sig (Elt F)) :
    after (hostOps0 (F := F)) W (Proc.devRef .tc main_v3) = colVecK (F := F) (W (Proc.devRef .tc main_arg1)) := by
  after_results_simp
  rfl

/-- Stretch 0 leaves the first weight's upper half at %12. -/
theorem out0_v12 (W : Valuation τ sig (Elt F)) :
    after (hostOps0 (F := F)) W (Proc.devRef .tc main_v12) = wA (W (Proc.devRef .tc main_arg5)) := by
  after_results_simp
  rfl

/-- Stretch 0 leaves the first weight's lower half at %13. -/
theorem out0_v13 (W : Valuation τ sig (Elt F)) :
    after (hostOps0 (F := F)) W (Proc.devRef .tc main_v13) = wB (W (Proc.devRef .tc main_arg5)) := by
  after_results_simp
  rfl

/-- Stretch 0 leaves the first bias as a row at %14. -/
theorem out0_v14 (W : Valuation τ sig (Elt F)) :
    after (hostOps0 (F := F)) W (Proc.devRef .tc main_v14) = rowOf (W (Proc.devRef .tc main_arg6)) := by
  after_results_simp
  rfl

/-- Stretch 1 leaves the edge means at %17. -/
theorem out1_v17 (W : Valuation τ sig (Elt F)) :
    after (hostOps1 (F := F)) W (Proc.devRef .tc main_v17) = meanRow1 (W (Proc.devRef .tc main_v15_1)) := by
  after_results_simp
  rfl

/-- Stretch 1 leaves the edge variances at %21. -/
theorem out1_v21 (W : Valuation τ sig (Elt F)) :
    after (hostOps1 (F := F)) W (Proc.devRef .tc main_v21) = varRow1 (W (Proc.devRef .tc main_v15_1)) (W (Proc.devRef .tc main_v15_2)) := by
  after_results_simp
  rfl

/-- Stretch 1 leaves the first scale as a row at %22. -/
theorem out1_v22 (W : Valuation τ sig (Elt F)) :
    after (hostOps1 (F := F)) W (Proc.devRef .tc main_v22) = rowOf (W (Proc.devRef .tc main_arg7)) := by
  after_results_simp
  rfl

/-- Stretch 1 leaves the first shift as a row at %23. -/
theorem out1_v23 (W : Valuation τ sig (Elt F)) :
    after (hostOps1 (F := F)) W (Proc.devRef .tc main_v23) = rowOf (W (Proc.devRef .tc main_arg8)) := by
  after_results_simp
  rfl

/-- Stretch 2 leaves the scatter-mean at %36. -/
theorem out2_v36 (W : Valuation τ sig (Elt F)) :
    after (hostOps2 (F := F)) W (Proc.devRef .tc main_v36) = aggK (W (Proc.devRef .tc main_v24)) (W (Proc.devRef .tc main_v3)) := by
  after_results_simp
  rfl

/-- Stretch 2 leaves the second weight's upper half at %38. -/
theorem out2_v38 (W : Valuation τ sig (Elt F)) :
    after (hostOps2 (F := F)) W (Proc.devRef .tc main_v38) = wA (W (Proc.devRef .tc main_arg9)) := by
  after_results_simp
  rfl

/-- Stretch 2 leaves the second weight's lower half at %39. -/
theorem out2_v39 (W : Valuation τ sig (Elt F)) :
    after (hostOps2 (F := F)) W (Proc.devRef .tc main_v39) = wB (W (Proc.devRef .tc main_arg9)) := by
  after_results_simp
  rfl

/-- Stretch 2 leaves the second bias as a row at %40. -/
theorem out2_v40 (W : Valuation τ sig (Elt F)) :
    after (hostOps2 (F := F)) W (Proc.devRef .tc main_v40) = rowOf (W (Proc.devRef .tc main_arg10)) := by
  after_results_simp
  rfl

/-- Stretch 3 leaves the node means at %43. -/
theorem out3_v43 (W : Valuation τ sig (Elt F)) :
    after (hostOps3 (F := F)) W (Proc.devRef .tc main_v43) = meanRow2 (W (Proc.devRef .tc main_v41_1)) := by
  after_results_simp
  rfl

/-- Stretch 3 leaves the node variances at %47. -/
theorem out3_v47 (W : Valuation τ sig (Elt F)) :
    after (hostOps3 (F := F)) W (Proc.devRef .tc main_v47) = varRow2 (W (Proc.devRef .tc main_v41_1)) (W (Proc.devRef .tc main_v41_2)) := by
  after_results_simp
  rfl

/-- Stretch 3 leaves the second scale as a row at %48. -/
theorem out3_v48 (W : Valuation τ sig (Elt F)) :
    after (hostOps3 (F := F)) W (Proc.devRef .tc main_v48) = rowOf (W (Proc.devRef .tc main_arg11)) := by
  after_results_simp
  rfl

/-- Stretch 3 leaves the second shift as a row at %49. -/
theorem out3_v49 (W : Valuation τ sig (Elt F)) :
    after (hostOps3 (F := F)) W (Proc.devRef .tc main_v49) = rowOf (W (Proc.devRef .tc main_arg12)) := by
  after_results_simp
  rfl

end Cert.KernelIdeal.Hand

end
-- ==== Proof.KChain.lean ====
/-
  The idealized kernel's boundary contents, read back along @main: what each of the four regions finds at the
  references it reads, in terms of the arguments' launch contents and of what the earlier regions left in their
  output arrays, and what the last region leaves at the result.

  The contents at the boundaries are a fold through @main (launch, stretch 0, region 0, stretch 1, …, region 3).
  A reference no stretch writes and no region holds as one of its arrays is read back to the launch memory; a
  region's output array is read at what the region's pipeline leaves there; a value a stretch computes is its
  named function (KHost) of those.
-/
import proofs.«127109_j5042291605552_1_alg».proof.Proof.KernelIdealFrameP
import proofs.«127109_j5042291605552_1_alg».proof.Proof.KHost

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## References nothing has written yet hold their launch contents -/

/-- After stretch 0. -/
theorem W1_keep (c : Dev nD) {r : Ref sig .tc} (h0 : r ∉ wH0) :
    W1 m ρ c (Proc.devRef .tc r) = m ((c : Thread nD τ).loc r) :=
  (keepH0 (W0 m ρ c) h0).trans rfl

/-- After region 0. -/
theorem W2_keep (c : Dev nD) {r : Ref sig .tc} (h0 : r ∉ wH0) (s0 : ∀ w, Pipeline.arrRef spec0 w ≠ r) :
    W2 m ρ c (Proc.devRef .tc r) = m ((c : Thread nD τ).loc r) :=
  (W2_of_ne m ρ c r s0).trans (W1_keep m ρ c h0)

/-- After stretch 1. -/
theorem W3_keep (c : Dev nD) {r : Ref sig .tc} (h0 : r ∉ wH0) (s0 : ∀ w, Pipeline.arrRef spec0 w ≠ r) (h1 : r ∉ wH1) :
    W3 m ρ c (Proc.devRef .tc r) = m ((c : Thread nD τ).loc r) :=
  (keepH1 (W2 m ρ c) h1).trans (W2_keep m ρ c h0 s0)

/-- After region 1. -/
theorem W4_keep (c : Dev nD) {r : Ref sig .tc} (h0 : r ∉ wH0) (s0 : ∀ w, Pipeline.arrRef spec0 w ≠ r) (h1 : r ∉ wH1)
    (s1 : ∀ w, Pipeline.arrRef spec1 w ≠ r) :
    W4 m ρ c (Proc.devRef .tc r) = m ((c : Thread nD τ).loc r) :=
  (W4_of_ne m ρ c r s1).trans (W3_keep m ρ c h0 s0 h1)

/-- After stretch 2. -/
theorem W5_keep (c : Dev nD) {r : Ref sig .tc} (h0 : r ∉ wH0) (s0 : ∀ w, Pipeline.arrRef spec0 w ≠ r) (h1 : r ∉ wH1)
    (s1 : ∀ w, Pipeline.arrRef spec1 w ≠ r) (h2 : r ∉ wH2) :
    W5 m ρ c (Proc.devRef .tc r) = m ((c : Thread nD τ).loc r) :=
  (keepH2 (W4 m ρ c) h2).trans (W4_keep m ρ c h0 s0 h1 s1)

/-- After region 2. -/
theorem W6_keep (c : Dev nD) {r : Ref sig .tc} (h0 : r ∉ wH0) (s0 : ∀ w, Pipeline.arrRef spec0 w ≠ r) (h1 : r ∉ wH1)
    (s1 : ∀ w, Pipeline.arrRef spec1 w ≠ r) (h2 : r ∉ wH2) (s2 : ∀ w, Pipeline.arrRef spec2 w ≠ r) :
    W6 m ρ c (Proc.devRef .tc r) = m ((c : Thread nD τ).loc r) :=
  (W6_of_ne m ρ c r s2).trans (W5_keep m ρ c h0 s0 h1 s1 h2)

/-! ## The regions' output arrays -/

/-- Region 0 leaves its three outputs at what its pipeline writes back. -/
theorem W2_v15_0 (c : Dev nD) : W2 m ρ c (Proc.devRef .tc main_v15_0) = (dat0 (V1 m ρ) c).arrAt 5 cfg0.N := W2_arr m ρ c 5
theorem W2_v15_1 (c : Dev nD) : W2 m ρ c (Proc.devRef .tc main_v15_1) = (dat0 (V1 m ρ) c).arrAt 6 cfg0.N := W2_arr m ρ c 6
theorem W2_v15_2 (c : Dev nD) : W2 m ρ c (Proc.devRef .tc main_v15_2) = (dat0 (V1 m ρ) c).arrAt 7 cfg0.N := W2_arr m ρ c 7
/-- Region 1 its one. -/
theorem W4_v24 (c : Dev nD) : W4 m ρ c (Proc.devRef .tc main_v24) = (dat1 (V3 m ρ) c).arrAt 5 cfg1.N := W4_arr m ρ c 5
/-- Region 2 its three. -/
theorem W6_v41_0 (c : Dev nD) : W6 m ρ c (Proc.devRef .tc main_v41_0) = (dat2 (V5 m ρ) c).arrAt 5 cfg2.N := W6_arr m ρ c 5
theorem W6_v41_1 (c : Dev nD) : W6 m ρ c (Proc.devRef .tc main_v41_1) = (dat2 (V5 m ρ) c).arrAt 6 cfg2.N := W6_arr m ρ c 6
theorem W6_v41_2 (c : Dev nD) : W6 m ρ c (Proc.devRef .tc main_v41_2) = (dat2 (V5 m ρ) c).arrAt 7 cfg2.N := W6_arr m ρ c 7
/-- Region 3 leaves the result at what its pipeline writes back. -/
theorem res_v50 (c : Dev nD) : W8 m ρ c (Proc.devRef .tc main_v50) = (dat3 (V7 m ρ) c).arrAt 5 cfg3.N := W8_arr m ρ c 5

/-! ## What region 0 reads -/

theorem r0_v10 (c : Dev nD) : V1 m ρ c main_v10 = xrK (m ((c : Thread nD τ).loc main_arg0)) (m ((c : Thread nD τ).loc main_arg1)) :=
  (out0_v10 (W0 m ρ c)).trans rfl
theorem r0_arg2 (c : Dev nD) : V1 m ρ c main_arg2 = (m ((c : Thread nD τ).loc main_arg2)) :=
  W1_keep m ρ c (by decide)
theorem r0_v12 (c : Dev nD) : V1 m ρ c main_v12 = wA (m ((c : Thread nD τ).loc main_arg5)) :=
  (out0_v12 (W0 m ρ c)).trans rfl
theorem r0_v13 (c : Dev nD) : V1 m ρ c main_v13 = wB (m ((c : Thread nD τ).loc main_arg5)) :=
  (out0_v13 (W0 m ρ c)).trans rfl
theorem r0_v14 (c : Dev nD) : V1 m ρ c main_v14 = rowOf (m ((c : Thread nD τ).loc main_arg6)) :=
  (out0_v14 (W0 m ρ c)).trans rfl

/-! ## What region 1 reads -/

theorem r1_v15_0 (c : Dev nD) : V3 m ρ c main_v15_0 = (dat0 (V1 m ρ) c).arrAt 5 cfg0.N :=
  (keepH1 (W2 m ρ c) (by decide)).trans (W2_v15_0 m ρ c)
theorem r1_v17 (c : Dev nD) : V3 m ρ c main_v17 = meanRow1 ((dat0 (V1 m ρ) c).arrAt 6 cfg0.N) :=
  (out1_v17 (W2 m ρ c)).trans (congrArg meanRow1 (W2_v15_1 m ρ c))
theorem r1_v21 (c : Dev nD) : V3 m ρ c main_v21 = varRow1 ((dat0 (V1 m ρ) c).arrAt 6 cfg0.N) ((dat0 (V1 m ρ) c).arrAt 7 cfg0.N) :=
  (out1_v21 (W2 m ρ c)).trans (congrArg₂ varRow1 (W2_v15_1 m ρ c) (W2_v15_2 m ρ c))
theorem r1_v22 (c : Dev nD) : V3 m ρ c main_v22 = rowOf (m ((c : Thread nD τ).loc main_arg7)) :=
  (out1_v22 (W2 m ρ c)).trans (congrArg rowOf (W2_keep m ρ c (by decide) (by decide)))
theorem r1_v23 (c : Dev nD) : V3 m ρ c main_v23 = rowOf (m ((c : Thread nD τ).loc main_arg8)) :=
  (out1_v23 (W2 m ρ c)).trans (congrArg rowOf (W2_keep m ρ c (by decide) (by decide)))

/-! ## What region 2 reads -/

/-- The destination vector, computed by stretch 0, is still there when stretch 2 reads it. -/
theorem W4_v3 (c : Dev nD) : W4 m ρ c (Proc.devRef .tc main_v3) = colVecK (F := F) (m ((c : Thread nD τ).loc main_arg1)) :=
  (W4_of_ne m ρ c main_v3 (by decide)).trans ((keepH1 (W2 m ρ c) (by decide)).trans
    ((W2_of_ne m ρ c main_v3 (by decide)).trans ((out0_v3 (W0 m ρ c)).trans rfl)))

theorem r2_arg0 (c : Dev nD) : V5 m ρ c main_arg0 = (m ((c : Thread nD τ).loc main_arg0)) :=
  W5_keep m ρ c (by decide) (by decide) (by decide) (by decide) (by decide)
theorem r2_v36 (c : Dev nD) : V5 m ρ c main_v36 = aggK ((dat1 (V3 m ρ) c).arrAt 5 cfg1.N) (colVecK (F := F) (m ((c : Thread nD τ).loc main_arg1))) :=
  (out2_v36 (W4 m ρ c)).trans (congrArg₂ aggK (W4_v24 m ρ c) (W4_v3 m ρ c))
theorem r2_v38 (c : Dev nD) : V5 m ρ c main_v38 = wA (m ((c : Thread nD τ).loc main_arg9)) :=
  (out2_v38 (W4 m ρ c)).trans (congrArg wA (W4_keep m ρ c (by decide) (by decide) (by decide) (by decide)))
theorem r2_v39 (c : Dev nD) : V5 m ρ c main_v39 = wB (m ((c : Thread nD τ).loc main_arg9)) :=
  (out2_v39 (W4 m ρ c)).trans (congrArg wB (W4_keep m ρ c (by decide) (by decide) (by decide) (by decide)))
theorem r2_v40 (c : Dev nD) : V5 m ρ c main_v40 = rowOf (m ((c : Thread nD τ).loc main_arg10)) :=
  (out2_v40 (W4 m ρ c)).trans (congrArg rowOf (W4_keep m ρ c (by decide) (by decide) (by decide) (by decide)))

/-! ## What region 3 reads -/

theorem r3_v41_0 (c : Dev nD) : V7 m ρ c main_v41_0 = (dat2 (V5 m ρ) c).arrAt 5 cfg2.N :=
  (keepH3 (W6 m ρ c) (by decide)).trans (W6_v41_0 m ρ c)
theorem r3_v43 (c : Dev nD) : V7 m ρ c main_v43 = meanRow2 ((dat2 (V5 m ρ) c).arrAt 6 cfg2.N) :=
  (out3_v43 (W6 m ρ c)).trans (congrArg meanRow2 (W6_v41_1 m ρ c))
theorem r3_v47 (c : Dev nD) : V7 m ρ c main_v47 = varRow2 ((dat2 (V5 m ρ) c).arrAt 6 cfg2.N) ((dat2 (V5 m ρ) c).arrAt 7 cfg2.N) :=
  (out3_v47 (W6 m ρ c)).trans (congrArg₂ varRow2 (W6_v41_1 m ρ c) (W6_v41_2 m ρ c))
theorem r3_v48 (c : Dev nD) : V7 m ρ c main_v48 = rowOf (m ((c : Thread nD τ).loc main_arg11)) :=
  (out3_v48 (W6 m ρ c)).trans (congrArg rowOf (W6_keep m ρ c (by decide) (by decide) (by decide) (by decide) (by decide) (by decide)))
theorem r3_v49 (c : Dev nD) : V7 m ρ c main_v49 = rowOf (m ((c : Thread nD τ).loc main_arg12)) :=
  (out3_v49 (W6 m ρ c)).trans (congrArg rowOf (W6_keep m ρ c (by decide) (by decide) (by decide) (by decide) (by decide) (by decide)))

end Cert.KernelIdeal.Hand

end
-- ==== Proof.Region0Cases.lean ====
/-
  REGION 0 (the affine layer with its running column statistics), CASE BY CASE. The body runs in two cases: at the first
  grid point it first clears the two one-row accumulators, at every later point it finds them as the point before left
  them. In both cases it leaves, in the block of the layer's output, the affine map of the point's rows, and in the
  accumulators their previous contents (the cleared row at the first point) plus the column sums, resp. the column sums
  of squares, of that block. So what the three output buffers hold after point `n` is a RUNNING form: the block of the
  point, and two rows defined by recursion on the point. No arithmetic is opened here: the payloads stay named.
-/
import proofs.«127109_j5042291605552_1_alg».proof.Proof.KernelIdealFrameP
import Idealize.ShloMosaic.Lib.Pipeline.Value
import Idealize.ShloMosaic.Lib.ValueIdx

set_option maxRecDepth 16384

noncomputable section

namespace Cert.KernelIdeal.Hand.R0

open Cert.KernelIdeal.Gen Cert.KernelIdeal.GenP

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

/-! ## What each case leaves in each output buffer -/

/-- First point, the layer's output block: the affine map of the point's rows. -/
theorem outA5 (c : Dev nD) (i : grid0.Coords) (a1 : Memref sig .tc .vmem S6400x128 .f32) (h1 : a1.IsWhole) (a2 : Memref sig .tc .vmem S6400x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S6400x128 .bf16) (h6 : a6.IsWhole) (a7 : Memref sig .tc .vmem S1x128 .f32) (h7 : a7.IsWhole) (a8 : Memref sig .tc .vmem S1x128 .f32) (h8 : a8.IsWhole) (hc : cond0_0 i) (x0 : Vec F S6400x128 .f32) (x1 : Vec F S6400x128 .f32) (x2 : Vec F S128x128 .f32) (x3 : Vec F S128x128 .f32) (x4 : Vec F S1x128 .f32) :
    out0_A_5 c i a1 h1 a2 h2 a3 h3 a4 h4 a5 h5 a6 h6 a7 h7 a8 h8 hc x0 x1 x2 x3 x4 = k0_pay5 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S6400x128) hz, View.ld_unit_zero (S := S128x128) hz, View.ld_unit_zero (S := S1x128) hz]

/-- Later points, the layer's output block: the same. -/
theorem outB5 (c : Dev nD) (i : grid0.Coords) (a1 : Memref sig .tc .vmem S6400x128 .f32) (h1 : a1.IsWhole) (a2 : Memref sig .tc .vmem S6400x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S6400x128 .bf16) (h6 : a6.IsWhole) (a7 : Memref sig .tc .vmem S1x128 .f32) (h7 : a7.IsWhole) (a8 : Memref sig .tc .vmem S1x128 .f32) (h8 : a8.IsWhole) (hc : ¬cond0_0 i) (x0 : Vec F S6400x128 .f32) (x1 : Vec F S6400x128 .f32) (x2 : Vec F S128x128 .f32) (x3 : Vec F S128x128 .f32) (x4 : Vec F S1x128 .f32) (xo6 xo7 : Vec F S1x128 .f32) :
    out0_B_5 c i a1 h1 a2 h2 a3 h3 a4 h4 a5 h5 a6 h6 a7 h7 a8 h8 hc x0 x1 x2 x3 x4 xo6 xo7 = k0_pay5 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S6400x128) hz, View.ld_unit_zero (S := S128x128) hz, View.ld_unit_zero (S := S1x128) hz]

/-- First point, the sums' row: the cleared row plus the block's column sums (the row is stored cleared, read back, added to). -/
theorem outA6 (c : Dev nD) (i : grid0.Coords) (a1 : Memref sig .tc .vmem S6400x128 .f32) (h1 : a1.IsWhole) (a2 : Memref sig .tc .vmem S6400x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S6400x128 .bf16) (h6 : a6.IsWhole) (a7 : Memref sig .tc .vmem S1x128 .f32) (h7 : a7.IsWhole) (a8 : Memref sig .tc .vmem S1x128 .f32) (h8 : a8.IsWhole) (hc : cond0_0 i) (x0 : Vec F S6400x128 .f32) (x1 : Vec F S6400x128 .f32) (x2 : Vec F S128x128 .f32) (x3 : Vec F S128x128 .f32) (x4 : Vec F S1x128 .f32) :
    out0_A_6 c i a1 h1 a2 h2 a3 h3 a4 h4 a5 h5 a6 h6 a7 h7 a8 h8 hc x0 x1 x2 x3 x4 = k0_pay6 x0 x1 x2 x3 x4 k0_pay2 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread,
    View.ld_unit_zero (S := S6400x128) hz, View.ld_unit_zero (S := S128x128) hz, View.ld_unit_zero (S := S1x128) hz]

/-- Later points, the sums' row: what the point before left plus the block's column sums. -/
theorem outB6 (c : Dev nD) (i : grid0.Coords) (a1 : Memref sig .tc .vmem S6400x128 .f32) (h1 : a1.IsWhole) (a2 : Memref sig .tc .vmem S6400x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S6400x128 .bf16) (h6 : a6.IsWhole) (a7 : Memref sig .tc .vmem S1x128 .f32) (h7 : a7.IsWhole) (a8 : Memref sig .tc .vmem S1x128 .f32) (h8 : a8.IsWhole) (hc : ¬cond0_0 i) (x0 : Vec F S6400x128 .f32) (x1 : Vec F S6400x128 .f32) (x2 : Vec F S128x128 .f32) (x3 : Vec F S128x128 .f32) (x4 : Vec F S1x128 .f32) (xo6 xo7 : Vec F S1x128 .f32) :
    out0_B_6 c i a1 h1 a2 h2 a3 h3 a4 h4 a5 h5 a6 h6 a7 h7 a8 h8 hc x0 x1 x2 x3 x4 xo6 xo7 = k0_pay6 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S6400x128) hz, View.ld_unit_zero (S := S128x128) hz, View.ld_unit_zero (S := S1x128) hz]

/-- First point, the sums of squares' row: the cleared row plus the block's column sums of squares. -/
theorem outA7 (c : Dev nD) (i : grid0.Coords) (a1 : Memref sig .tc .vmem S6400x128 .f32) (h1 : a1.IsWhole) (a2 : Memref sig .tc .vmem S6400x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S6400x128 .bf16) (h6 : a6.IsWhole) (a7 : Memref sig .tc .vmem S1x128 .f32) (h7 : a7.IsWhole) (a8 : Memref sig .tc .vmem S1x128 .f32) (h8 : a8.IsWhole) (hc : cond0_0 i) (x0 : Vec F S6400x128 .f32) (x1 : Vec F S6400x128 .f32) (x2 : Vec F S128x128 .f32) (x3 : Vec F S128x128 .f32) (x4 : Vec F S1x128 .f32) :
    out0_A_7 c i a1 h1 a2 h2 a3 h3 a4 h4 a5 h5 a6 h6 a7 h7 a8 h8 hc x0 x1 x2 x3 x4 = k0_pay1 (k0_pay7 k0_pay3) (k0_pay8 x0 x1 x2 x3 x4) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread,
    View.ld_unit_zero (S := S6400x128) hz, View.ld_unit_zero (S := S128x128) hz, View.ld_unit_zero (S := S1x128) hz]

/-- Later points, the sums of squares' row: what the point before left plus the block's column sums of squares. -/
theorem outB7 (c : Dev nD) (i : grid0.Coords) (a1 : Memref sig .tc .vmem S6400x128 .f32) (h1 : a1.IsWhole) (a2 : Memref sig .tc .vmem S6400x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S6400x128 .bf16) (h6 : a6.IsWhole) (a7 : Memref sig .tc .vmem S1x128 .f32) (h7 : a7.IsWhole) (a8 : Memref sig .tc .vmem S1x128 .f32) (h8 : a8.IsWhole) (hc : ¬cond0_0 i) (x0 : Vec F S6400x128 .f32) (x1 : Vec F S6400x128 .f32) (x2 : Vec F S128x128 .f32) (x3 : Vec F S128x128 .f32) (x4 : Vec F S1x128 .f32) (xo6 xo7 : Vec F S1x128 .f32) :
    out0_B_7 c i a1 h1 a2 h2 a3 h3 a4 h4 a5 h5 a6 h6 a7 h7 a8 h8 hc x0 x1 x2 x3 x4 xo6 xo7 = k0_pay1 (k0_pay7 xo7) (k0_pay8 x0 x1 x2 x3 x4) := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S6400x128) hz, View.ld_unit_zero (S := S128x128) hz, View.ld_unit_zero (S := S1x128) hz]

/-! ## The running form -/

variable (V : (c : Dev nD) → (b : Ref sig .tc) → Buf (Elt F) ((c : Thread nD τ).loc b))

/-- The sums' row after point `n`. -/
def acc6 (c : Dev nD) : (n : ℕ) → n < cfg0.N → Vec F S1x128 .f32
  | 0, h => (fun x0 x1 x2 x3 x4 => (k0_pay6 x0 x1 x2 x3 x4 k0_pay2 : Vec F S1x128 .f32)) (iblk0 V c 0 ⟨0, h⟩) (iblk0 V c 1 ⟨0, h⟩) (iblk0 V c 2 ⟨0, h⟩) (iblk0 V c 3 ⟨0, h⟩) (iblk0 V c 4 ⟨0, h⟩)
  | n + 1, h => (fun x0 x1 x2 x3 x4 xo6 => (k0_pay6 x0 x1 x2 x3 x4 xo6 : Vec F S1x128 .f32)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (acc6 c n (Nat.lt_of_succ_lt h))

/-- The sums of squares' row after point `n`. -/
def acc7 (c : Dev nD) : (n : ℕ) → n < cfg0.N → Vec F S1x128 .f32
  | 0, h => (fun x0 x1 x2 x3 x4 => (k0_pay1 (k0_pay7 k0_pay3) (k0_pay8 x0 x1 x2 x3 x4) : Vec F S1x128 .f32)) (iblk0 V c 0 ⟨0, h⟩) (iblk0 V c 1 ⟨0, h⟩) (iblk0 V c 2 ⟨0, h⟩) (iblk0 V c 3 ⟨0, h⟩) (iblk0 V c 4 ⟨0, h⟩)
  | n + 1, h => (fun x0 x1 x2 x3 x4 xo7 => (k0_pay1 (k0_pay7 xo7) (k0_pay8 x0 x1 x2 x3 x4) : Vec F S1x128 .f32)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (acc7 c n (Nat.lt_of_succ_lt h))

/-- What the three output buffers hold after point `n`: the point's block of the layer's output, and the two running rows
    — by induction on the point. -/
theorem outsAt_eq (c : Dev nD) : ∀ (n : ℕ) (h : n < cfg0.N),
    outsAt0 V c n h = (k0_pay5 (iblk0 V c 0 ⟨n, h⟩) (iblk0 V c 1 ⟨n, h⟩) (iblk0 V c 2 ⟨n, h⟩) (iblk0 V c 3 ⟨n, h⟩) (iblk0 V c 4 ⟨n, h⟩), acc6 V c n h, acc7 V c n h)
  | 0, h => by
    rw [outsAt0_A V c ⟨0, h⟩ rfl, outA5, outA6, outA7]
    rfl
  | n + 1, h => by
    have hN : cfg0.N = 125 := N_0
    have hB : ¬(⟨n + 1, h⟩ : Fin cfg0.N).val % 125 = 0 := by dsimp only; omega
    rw [outsAt0_B V c ⟨n + 1, h⟩ hB, outB5, outB6, outB7]
    have ih := outsAt_eq c n (Nat.lt_of_succ_lt h)
    show (_, (fun x0 x1 x2 x3 x4 xo6 => (k0_pay6 x0 x1 x2 x3 x4 xo6 : Vec F S1x128 .f32)) _ _ _ _ _ (outsAt0 V c n _).2.1,
        (fun x0 x1 x2 x3 x4 xo7 => (k0_pay1 (k0_pay7 xo7) (k0_pay8 x0 x1 x2 x3 x4) : Vec F S1x128 .f32)) _ _ _ _ _ (outsAt0 V c n _).2.2) = _
    rw [ih]
    rfl

end Cert.KernelIdeal.Hand.R0

end
-- ==== Proof.Region0Arr.lean ====
/-
  REGION 0 (the affine layer with its running column statistics), FROM BLOCKS TO ARRAYS. Point `t` of the 125 reads rows
  `6400·t … 6400·t + 6399` of the two activation arrays, the two whole 128×128 weight pieces and the bias row, and writes the
  same rows of the layer's output; entry `(p, q)` of the block depends on row `p` of the two activation blocks, on the
  weights and on the bias, which is a hypothesis here (`hpay`). Hence the output array after the region is one function
  of the arrays the region was entered with. The two accumulator rows are written back once, after the last point, and
  their arrays then hold the running rows of the case module at that point.
-/
import proofs.«127109_j5042291605552_1_alg».proof.Proof.Region0Cases

set_option maxRecDepth 16384

noncomputable section

namespace Cert.KernelIdeal.Hand.R0

open Cert.KernelIdeal.Gen Cert.KernelIdeal.GenP

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

/-- The whole-array function of the layer's output: entry `i` from row `i 0` of the two activation arrays, the weight
    pieces and the bias row. -/
def G5 (f : (Fin 128 → Elt F .f32) → (Fin 128 → Elt F .f32) → Vec F S128x128 .f32 → Vec F S128x128 .f32 → Vec F S1x128 .f32 → Fin 128 → Elt F .bf16)
    (A B : S800000x128.Idx → Elt F .f32) (WA WB : S128x128.Idx → Elt F .f32) (BI : S1x128.Idx → Elt F .f32) : S800000x128.Idx → Elt F .bf16 :=
  fun i => f (fun k => A (ix2 (i 0) k)) (fun k => B (ix2 (i 0) k)) WA WB BI (i 1)

/-- The printed index maps, decided over the grid: the activations' and the output's block is `(t, 0)`; the weight
    pieces', the bias row's and the accumulators' block is `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- A window whose one block is the whole array: its block at any point is the array. -/
theorem iblk2_eq (c : Dev nD) (t : Fin cfg0.N) : (iblk0 V c 2 t : Vec F S128x128 .f32) = V c main_v12 := by
  obtain ⟨_, _, _, _, _, _, e20, e21, _⟩ := idx_facts t
  funext y
  show V c main_v12 (((cfg0.win 2).blk t).view.emb y) = V c main_v12 y
  refine congrArg (V c main_v12) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem iblk3_eq (c : Dev nD) (t : Fin cfg0.N) : (iblk0 V c 3 t : Vec F S128x128 .f32) = V c main_v13 := by
  obtain ⟨_, _, _, _, _, _, _, _, e30, e31, _⟩ := idx_facts t
  funext y
  show V c main_v13 (((cfg0.win 3).blk t).view.emb y) = V c main_v13 y
  refine congrArg (V c main_v13) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem iblk4_eq (c : Dev nD) (t : Fin cfg0.N) : (iblk0 V c 4 t : Vec F S1x128 .f32) = V c main_v14 := by
  obtain ⟨_, _, _, _, _, _, _, _, _, _, e40, e41, _⟩ := idx_facts t
  funext y
  show V c main_v14 (((cfg0.win 4).blk t).view.emb y) = V c main_v14 y
  refine congrArg (V c main_v14) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- An activation block's row `p` is the array's row `6400·t + p`. -/
theorem iblk0_row (c : Dev nD) (t : Fin cfg0.N) (j : S6400x128.Idx) (k : Fin 128) :
    (iblk0 V c 0 t : Vec F S6400x128 .f32) (ix2 (j 0) k) = V c main_v10 (ix2 ((((cfg0.win 5).blk t).view.emb j) 0) k) := by
  obtain ⟨e00, e01, _, _, e50, e51, _⟩ := idx_facts t
  show V c main_v10 (((cfg0.win 0).blk t).view.emb (ix2 (j 0) k)) = _
  refine congrArg (V c main_v10) (funext fun a => Fin.ext ?_)
  match a with
  | ⟨0, _⟩ => show win0_0.index t (0 : Fin 2) * 6400 + 1 * (j 0).val = win0_5.index t (0 : Fin 2) * 6400 + 1 * (j 0).val; omega
  | ⟨1, _⟩ => show win0_0.index t (1 : Fin 2) * 128 + 1 * k.val = k.val; omega

theorem iblk1_row (c : Dev nD) (t : Fin cfg0.N) (j : S6400x128.Idx) (k : Fin 128) :
    (iblk0 V c 1 t : Vec F S6400x128 .f32) (ix2 (j 0) k) = V c main_arg2 (ix2 ((((cfg0.win 5).blk t).view.emb j) 0) k) := by
  obtain ⟨_, _, e10, e11, e50, e51, _⟩ := idx_facts t
  show V c main_arg2 (((cfg0.win 1).blk t).view.emb (ix2 (j 0) k)) = _
  refine congrArg (V c main_arg2) (funext fun a => Fin.ext ?_)
  match a with
  | ⟨0, _⟩ => show win0_1.index t (0 : Fin 2) * 6400 + 1 * (j 0).val = win0_5.index t (0 : Fin 2) * 6400 + 1 * (j 0).val; omega
  | ⟨1, _⟩ => show win0_1.index t (1 : Fin 2) * 128 + 1 * k.val = k.val; omega

variable (f : (Fin 128 → Elt F .f32) → (Fin 128 → Elt F .f32) → Vec F S128x128 .f32 → Vec F S128x128 .f32 → Vec F S1x128 .f32 → Fin 128 → Elt F .bf16)
variable (hpay : ∀ (x0 x1 : Vec F S6400x128 .f32) (x2 x3 : Vec F S128x128 .f32) (x4 : Vec F S1x128 .f32) (j : S6400x128.Idx),
    k0_pay5 x0 x1 x2 x3 x4 j = f (fun k => x0 (ix2 (j 0) k)) (fun k => x1 (ix2 (j 0) k)) x2 x3 x4 (j 1))

set_option maxHeartbeats 2000000 in
include hpay in
/-- WHAT POINT `t` WRITES BACK of the layer's output is block `t` of `G5` of the arrays as the region finds them. -/
theorem flushed5_eq (c : Dev nD) (t : Fin cfg0.N) :
    (dat0 V c).flushed 5 t = ((cfg0.win 5).blk t).view.read (Elt F)
      (G5 f (V c main_v10) (V c main_arg2) (V c main_v12) (V c main_v13) (V c main_v14)) := by
  show (cfg0.win 5).cut (grid0.coords t) ((dat0 V c).after 5 t) = _
  rw [after0_5, outsAt_eq]
  obtain ⟨_, _, _, _, e50, e51, _⟩ := idx_facts t
  funext j
  refine (hpay _ _ _ _ _ j).trans ?_
  rw [iblk2_eq, iblk3_eq, iblk4_eq]
  have e0 : (fun k => (iblk0 V c 0 t : Vec F S6400x128 .f32) (ix2 (j 0) k)) = fun k => V c main_v10 (ix2 ((((cfg0.win 5).blk t).view.emb j) 0) k) :=
    funext fun k => iblk0_row V c t j k
  have e1 : (fun k => (iblk0 V c 1 t : Vec F S6400x128 .f32) (ix2 (j 0) k)) = fun k => V c main_arg2 (ix2 ((((cfg0.win 5).blk t).view.emb j) 0) k) :=
    funext fun k => iblk1_row V c t j k
  have e6 : (((cfg0.win 5).blk t).view.emb j) 1 = j 1 := Fin.ext (by
    show win0_5.index t (1 : Fin 2) * 128 + 1 * (j 1).val = (j 1).val; omega)
  rw [e0, e1]
  show f _ _ _ _ _ (j 1) = f _ _ _ _ _ ((((cfg0.win 5).blk t).view.emb j) 1)
  rw [e6]

/-- An index of the output array is in point `t`'s block iff each coordinate is in the block's range on its axis. -/
theorem mem_blk5 (t : Fin cfg0.N) (i : S800000x128.Idx) :
    i ∈ ((cfg0.win 5).blk t).view.set ↔ ∀ a : Fin 2, win0_5.index t a * S6400x128.size a ≤ (i a).val ∧ (i a).val < win0_5.index t a * S6400x128.size a + S6400x128.size a := by
  show i ∈ ((View.whole main_v15_0).slice (win0_5.rect t)).set ↔ _
  rw [View.set_slice_whole, Rect.mem_set_unit]
  exact Iff.rfl

/-- Every index of the output array is in the block of the point `row / 6400`. -/
theorem cover5 (i : S800000x128.Idx) : ∃ t : Fin cfg0.N, (cfg0.win 5).flush t = true ∧ i ∈ ((cfg0.win 5).blk t).view.set := by
  have hi0 : (i 0).val < 800000 := (i 0).isLt
  have hi1 : (i 1).val < 128 := (i 1).isLt
  have hN : cfg0.N = 125 := N_0
  refine ⟨⟨(i 0).val / 6400, by rw [hN]; omega⟩, flush0_5 _, ?_⟩
  rw [mem_blk5]
  obtain ⟨_, _, _, _, e50, e51, _⟩ := idx_facts ⟨(i 0).val / 6400, by rw [hN]; omega⟩
  intro a
  match a with
  | ⟨0, _⟩ =>
    show win0_5.index _ (0 : Fin 2) * 6400 ≤ (i 0).val ∧ (i 0).val < win0_5.index _ (0 : Fin 2) * 6400 + 6400
    rw [e50]; show (i 0).val / 6400 * 6400 ≤ (i 0).val ∧ (i 0).val < (i 0).val / 6400 * 6400 + 6400; omega
  | ⟨1, _⟩ =>
    show win0_5.index _ (1 : Fin 2) * 128 ≤ (i 1).val ∧ (i 1).val < win0_5.index _ (1 : Fin 2) * 128 + 128
    rw [e51]; omega

include hpay in
/-- THE LAYER'S OUTPUT ARRAY after the region. -/
theorem final5 (c : Dev nD) : (dat0 V c).arrAt 5 cfg0.N
    = G5 f (V c main_v10) (V c main_arg2) (V c main_v12) (V c main_v13) (V c main_v14) :=
  (dat0 V c).arrAt_eq_of_cover 5 _ (fun t _ => flushed5_eq V f hpay c t) cover5

/-! ## The two accumulator rows: one write-back, after the last point -/

theorem last_lt : 124 < cfg0.N := by rw [show cfg0.N = 125 from N_0]; omega

/-- The sums' row when it is written back. -/
abbrev row6 (c : Dev nD) : Vec F S1x128 .f32 := acc6 V c 124 last_lt
/-- The sums of squares' row when it is written back. -/
abbrev row7 (c : Dev nD) : Vec F S1x128 .f32 := acc7 V c 124 last_lt

theorem flushed6_eq (c : Dev nD) (t : Fin cfg0.N) (hf : (cfg0.win 6).flush t = true) :
    (dat0 V c).flushed 6 t = ((cfg0.win 6).blk t).view.read (Elt F) (row6 V c) := by
  have hN : cfg0.N = 125 := N_0
  have hl : t.val = 124 := by have := (flush0_6 t).mp hf; have := t.isLt; omega
  obtain ⟨_, _, _, _, _, _, _, _, _, _, _, _, e60, e61, _⟩ := idx_facts t
  show (cfg0.win 6).cut (grid0.coords t) ((dat0 V c).after 6 t) = _
  rw [after0_6, outsAt_eq]
  have hacc : acc6 V c t.val t.isLt = row6 V c := by
    obtain ⟨n, hn⟩ := t
    dsimp only at hl
    subst hl
    rfl
  show (cfg0.win 6).cut (grid0.coords t) (acc6 V c t.val t.isLt) = _
  rw [hacc]
  have hz' : (fun a => win0_6.index t a * main_v15_1.ty.shape.size a) = fun _ => 0 := funext fun a => by
    match a with
    | ⟨0, _⟩ => show win0_6.index t (0 : Fin 2) * 1 = 0; omega
    | ⟨1, _⟩ => show win0_6.index t (1 : Fin 2) * 128 = 0; omega
  exact (Memref.read_access_unit_zero (Elt F) main_v15_1 hz' (fun a => by rw [congrFun hz' a]; simp) (row6 V c)).symm

theorem flushed7_eq (c : Dev nD) (t : Fin cfg0.N) (hf : (cfg0.win 7).flush t = true) :
    (dat0 V c).flushed 7 t = ((cfg0.win 7).blk t).view.read (Elt F) (row7 V c) := by
  have hN : cfg0.N = 125 := N_0
  have hl : t.val = 124 := by have := (flush0_7 t).mp hf; have := t.isLt; omega
  obtain ⟨_, _, _, _, _, _, _, _, _, _, _, _, _, _, e70, e71⟩ := idx_facts t
  show (cfg0.win 7).cut (grid0.coords t) ((dat0 V c).after 7 t) = _
  rw [after0_7, outsAt_eq]
  have hacc : acc7 V c t.val t.isLt = row7 V c := by
    obtain ⟨n, hn⟩ := t
    dsimp only at hl
    subst hl
    rfl
  show (cfg0.win 7).cut (grid0.coords t) (acc7 V c t.val t.isLt) = _
  rw [hacc]
  have hz' : (fun a => win0_7.index t a * main_v15_2.ty.shape.size a) = fun _ => 0 := funext fun a => by
    match a with
    | ⟨0, _⟩ => show win0_7.index t (0 : Fin 2) * 1 = 0; omega
    | ⟨1, _⟩ => show win0_7.index t (1 : Fin 2) * 128 = 0; omega
  exact (Memref.read_access_unit_zero (Elt F) main_v15_2 hz' (fun a => by rw [congrFun hz' a]; simp) (row7 V c)).symm

/-- THE SUMS' ARRAY after the region: the running row at the last point. -/
theorem final6 (c : Dev nD) : (dat0 V c).arrAt 6 cfg0.N = row6 V c :=
  (dat0 V c).arrAt_eq_of_cover 6 (row6 V c) (flushed6_eq V c) fun i => by
    have hN : cfg0.N = 125 := N_0
    refine ⟨⟨124, last_lt⟩, (flush0_6 _).mpr (by show 124 % 125 = 124; omega), ?_⟩
    obtain ⟨_, _, _, _, _, _, _, _, _, _, _, _, e60, e61, _⟩ := idx_facts ⟨124, last_lt⟩
    show i ∈ ((View.whole main_v15_1).slice (win0_6.rect ⟨124, last_lt⟩)).set
    rw [View.set_slice_whole, Rect.mem_set_unit]
    intro a
    have h0 : (i 0 : Nat) < 1 := (i 0).isLt
    have h1 : (i 1 : Nat) < 128 := (i 1).isLt
    match a with
    | ⟨0, _⟩ => show win0_6.index ⟨124, last_lt⟩ (0 : Fin 2) * 1 ≤ (i 0 : Nat) ∧ (i 0 : Nat) < win0_6.index ⟨124, last_lt⟩ (0 : Fin 2) * 1 + 1; omega
    | ⟨1, _⟩ => show win0_6.index ⟨124, last_lt⟩ (1 : Fin 2) * 128 ≤ (i 1 : Nat) ∧ (i 1 : Nat) < win0_6.index ⟨124, last_lt⟩ (1 : Fin 2) * 128 + 128; omega

/-- THE SUMS OF SQUARES' ARRAY after the region: the running row at the last point. -/
theorem final7 (c : Dev nD) : (dat0 V c).arrAt 7 cfg0.N = row7 V c :=
  (dat0 V c).arrAt_eq_of_cover 7 (row7 V c) (flushed7_eq V c) fun i => by
    have hN : cfg0.N = 125 := N_0
    refine ⟨⟨124, last_lt⟩, (flush0_7 _).mpr (by show 124 % 125 = 124; omega), ?_⟩
    obtain ⟨_, _, _, _, _, _, _, _, _, _, _, _, _, _, e70, e71⟩ := idx_facts ⟨124, last_lt⟩
    show i ∈ ((View.whole main_v15_2).slice (win0_7.rect ⟨124, last_lt⟩)).set
    rw [View.set_slice_whole, Rect.mem_set_unit]
    intro a
    have h0 : (i 0 : Nat) < 1 := (i 0).isLt
    have h1 : (i 1 : Nat) < 128 := (i 1).isLt
    match a with
    | ⟨0, _⟩ => show win0_7.index ⟨124, last_lt⟩ (0 : Fin 2) * 1 ≤ (i 0 : Nat) ∧ (i 0 : Nat) < win0_7.index ⟨124, last_lt⟩ (0 : Fin 2) * 1 + 1; omega
    | ⟨1, _⟩ => show win0_7.index ⟨124, last_lt⟩ (1 : Fin 2) * 128 ≤ (i 1 : Nat) ∧ (i 1 : Nat) < win0_7.index ⟨124, last_lt⟩ (1 : Fin 2) * 128 + 128; omega

end Cert.KernelIdeal.Hand.R0

end
-- ==== Proof.Spec.lean ====
/-
  THE SPECIFICATION both programs are compared through: a graph layer's arithmetic on the extended reals, as whole-array
  functions of plain matrices, with no program in sight.

  * `lin a b w bias`: an affine layer over the columns of `a` followed by the columns of `b` — entry `(p, q)` is
    `∑ₖ a (p, k) · w (q, k) + ∑ₖ b (p, k) · w (q, 128 + k) + bias q`, the weight stored one ROW per output column;
  * `colSum`, `colSumSq`, `mean`: a column's sum, its sum of squares, and its sum divided by `n`;
  * the variance of a column in its two textbook forms: `varMoments` (the mean of the squares less the square of the
    mean) and `varCentered` (the mean of the squared deviations). They agree when every entry is a real number and `n`
    is the number of rows; at an infinite entry they need not, which is where the finiteness of the inputs is used;
  * `elu z o y`: `y` above `z`, `exp y − o` otherwise (the exponential linear unit for `z = 0`, `o = 1`);
  * `normAct`: normalise a column by a given mean and variance, scale, shift, then `elu`;
  * `layerM` / `layerC`: `normAct` at the column's own mean and its variance in the one form or the other.
-/
import Idealize.ShloMosaic.PureOps.Ideal
import Idealize.ShloMosaic.Lib.ValueIdx

noncomputable section

namespace Cert.Spec

open Idealize.ShloMosaic Idealize.ShloMosaic.ValueIdx
open scoped BigOperators

/-- A matrix of extended reals with `R` rows and `C` columns, indexed as the programs index it. -/
abbrev Mat (R C : ℕ) := (⟨2, ![R, C]⟩ : Shape).Idx → EReal

/-- Column `k` of the first group of 128 among 256. -/
def colL (k : Fin 128) : Fin 256 := ⟨k.val, by omega⟩
/-- Column `k` of the second group of 128 among 256. -/
def colR (k : Fin 128) : Fin 256 := ⟨128 + k.val, by omega⟩

/-- The affine layer over the columns of `a` followed by those of `b`. -/
def lin {R : ℕ} (a b : Mat R 128) (w : Mat 128 256) (bias : Fin 128 → EReal) : Mat R 128 := fun i =>
  (∑ k : Fin 128, a (ix2 (i 0) k) * w (ix2 (i 1) (colL k))) + (∑ k : Fin 128, b (ix2 (i 0) k) * w (ix2 (i 1) (colR k))) + bias (i 1)

theorem lin_ix2 {R : ℕ} (a b : Mat R 128) (w : Mat 128 256) (bias : Fin 128 → EReal) (p : Fin R) (q : Fin 128) :
    lin a b w bias (ix2 p q)
      = (∑ k : Fin 128, a (ix2 p k) * w (ix2 q (colL k))) + (∑ k : Fin 128, b (ix2 p k) * w (ix2 q (colR k))) + bias q := rfl

/-- A column's sum. -/
def colSum {R C : ℕ} (h : Mat R C) : Fin C → EReal := fun q => ∑ p : Fin R, h (ix2 p q)
/-- A column's sum of squares. -/
def colSumSq {R C : ℕ} (h : Mat R C) : Fin C → EReal := fun q => ∑ p : Fin R, h (ix2 p q) * h (ix2 p q)
/-- A column's sum divided by `n`. -/
def mean {R C : ℕ} (n : EReal) (h : Mat R C) : Fin C → EReal := fun q => Ideal.div (colSum h q) n
/-- The mean of the squares less the square of the mean. -/
def varMoments {R C : ℕ} (n : EReal) (h : Mat R C) : Fin C → EReal := fun q =>
  Ideal.div (colSumSq h q) n - mean n h q * mean n h q
/-- The mean of the squared deviations from the mean. -/
def varCentered {R C : ℕ} (n : EReal) (h : Mat R C) : Fin C → EReal := fun q =>
  Ideal.div (∑ p : Fin R, (h (ix2 p q) - mean n h q) * (h (ix2 p q) - mean n h q)) n

/-- `y` above `z`, `exp y − o` otherwise. -/
def elu (z o y : EReal) : EReal := if z < y then y else Ideal.exp y - o

/-- Normalise by a given mean and variance, scale by `g`, shift by `be`, then `elu`. -/
def normAct {R C : ℕ} (eps z o : EReal) (h : Mat R C) (mu var g be : Fin C → EReal) : Mat R C := fun i =>
  elu z o ((h i - mu (i 1)) * Ideal.rsqrt (var (i 1) + eps) * g (i 1) + be (i 1))

theorem normAct_ix2 {R C : ℕ} (eps z o : EReal) (h : Mat R C) (mu var g be : Fin C → EReal) (p : Fin R) (q : Fin C) :
    normAct eps z o h mu var g be (ix2 p q)
      = elu z o ((h (ix2 p q) - mu q) * Ideal.rsqrt (var q + eps) * g q + be q) := rfl

/-- Normalisation and activation at the column's own mean and its variance as the difference of moments. -/
def layerM {R C : ℕ} (eps z o n : EReal) (h : Mat R C) (g be : Fin C → EReal) : Mat R C :=
  normAct eps z o h (mean n h) (varMoments n h) g be
/-- The same at the variance as the mean squared deviation. -/
def layerC {R C : ℕ} (eps z o n : EReal) (h : Mat R C) (g be : Fin C → EReal) : Mat R C :=
  normAct eps z o h (mean n h) (varCentered n h) g be

end Cert.Spec

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibDenseLayers.lean ====
/-
  Dense layers of a network read entry by entry on the extended reals, generic in the row count `R` and the widths `K`, `N`,
  each as ONE whole-array function and in the two spellings a program can give it:
  * `rowsTimes x w`: entry `(p, q)` is the sum over `k` of `x (p, k) · w (k, q)` — a vector unit's `matmul` of operands rounded
    to bfloat16 (the identity on the extended reals) into a zero accumulator (`vec_mm_apply`, `vec_mm_cast_apply`) and the host's
    `dot_general` of a whole matrix (`host_mm`);
  * `biasFloor z a b`: entry `(p, q)` is `max (a (p, q) + b (0, q)) z`, the bias laid out as one row — a vector unit's sum with the
    row repeated down the rows and maximum with a splat (`vec_bias_floor_apply`), and the host's two-step broadcast of a bias
    vector followed by a maximum with a broadcast constant (`host_bias_floor`);
  * `rowsTimesPlus x w b`: `rowsTimes x w` plus the bias row (`vec_mm_plus_apply`, `host_mm_plus`).
  A row block of a matrix product is the product of the row block (`rowsTimes` reads only row `p` of `x`), which is why a
  product computed block of rows by block of rows is the whole product. No finiteness is needed: both spellings are the same
  sums of the same products, term by term.
-/
import Idealize.ShloMosaic.Lib.ValueIdx
import Idealize.ShloMosaic.Lib.ValueLayout
import Idealize.ShloMosaic.Lib.Pipeline.Value
import Idealize.ShloMosaic.PureOps.Ideal.Laws
import proofs.«127109_j5042291605552_1_alg».proof.Proof.LibMlpRows

noncomputable section

namespace Cert.LibDense

open Idealize.ShloMosaic Idealize.ShloMosaic.ValueIdx
open scoped BigOperators

/-- The matrix product: entry `(p, q)` is row `p` of `x` times column `q` of `w`. -/
def rowsTimes {R K N : ℕ} (x : (⟨2, ![R, K]⟩ : Shape).Idx → EReal) (w : (⟨2, ![K, N]⟩ : Shape).Idx → EReal) :
    (⟨2, ![R, N]⟩ : Shape).Idx → EReal := fun i => ∑ k : Fin K, x (ix2 (i 0) k) * w (ix2 k (i 1))

/-- Add the bias row to every row and floor every entry at `z`. -/
def biasFloor {R N : ℕ} (z : EReal) (a : (⟨2, ![R, N]⟩ : Shape).Idx → EReal) (b : (⟨2, ![1, N]⟩ : Shape).Idx → EReal) :
    (⟨2, ![R, N]⟩ : Shape).Idx → EReal := fun i => max (a i + b (ix2 (0 : Fin 1) (i 1))) z

/-- The matrix product with the bias row added to every row. -/
def rowsTimesPlus {R K N : ℕ} (x : (⟨2, ![R, K]⟩ : Shape).Idx → EReal) (w : (⟨2, ![K, N]⟩ : Shape).Idx → EReal)
    (b : (⟨2, ![1, N]⟩ : Shape).Idx → EReal) : (⟨2, ![R, N]⟩ : Shape).Idx → EReal :=
  fun i => rowsTimes x w i + b (ix2 (0 : Fin 1) (i 1))

theorem rowsTimes_ix2 {R K N : ℕ} (x : (⟨2, ![R, K]⟩ : Shape).Idx → EReal) (w : (⟨2, ![K, N]⟩ : Shape).Idx → EReal) (p : Fin R) (q : Fin N) :
    rowsTimes x w (ix2 p q) = ∑ k : Fin K, x (ix2 p k) * w (ix2 k q) := rfl

theorem biasFloor_ix2 {R N : ℕ} (z : EReal) (a : (⟨2, ![R, N]⟩ : Shape).Idx → EReal) (b : (⟨2, ![1, N]⟩ : Shape).Idx → EReal) (p : Fin R) (q : Fin N) :
    biasFloor z a b (ix2 p q) = max (a (ix2 p q) + b (ix2 (0 : Fin 1) q)) z := rfl

theorem rowsTimesPlus_ix2 {R K N : ℕ} (x : (⟨2, ![R, K]⟩ : Shape).Idx → EReal) (w : (⟨2, ![K, N]⟩ : Shape).Idx → EReal)
    (b : (⟨2, ![1, N]⟩ : Shape).Idx → EReal) (p : Fin R) (q : Fin N) :
    rowsTimesPlus x w b (ix2 p q) = (∑ k : Fin K, x (ix2 p k) * w (ix2 k q)) + b (ix2 (0 : Fin 1) q) := rfl

/-! ## The vector unit's spellings, at an entry -/

/-- Operands rounded to bfloat16 and multiplied into a zero accumulator: the row's product with the column. -/
theorem vec_mm_apply {R K N : ℕ} (d : DotDims ⟨2, ![R, K]⟩ ⟨2, ![K, N]⟩ ⟨2, ![R, N]⟩) (hd : d = DotDims.plain R K N)
    (x : FVec Ideal ⟨2, ![R, K]⟩ .f32) (w : FVec Ideal ⟨2, ![K, N]⟩ .f32)
    (ht : FTy.bf16.bits < FTy.f32.bits) (p : Fin R) (q : Fin N) :
    matmul d none (truncf .bf16 x ht) (truncf .bf16 w ht) (constant ⟨2, ![R, N]⟩ .f32 0x00000000#32) (ix2 p q)
      = ∑ k : Fin K, x (ix2 p k) * w (ix2 k q) := by
  subst hd
  simp only [matmul, truncf_apply, Cert.LibMlp.matmul_zero_plain]

/-- The same with the left operand first cast to its own shape. -/
theorem vec_mm_cast_apply {R K N : ℕ} (d : DotDims ⟨2, ![R, K]⟩ ⟨2, ![K, N]⟩ ⟨2, ![R, N]⟩) (hd : d = DotDims.plain R K N)
    (x : FVec Ideal ⟨2, ![R, K]⟩ .f32) (w : FVec Ideal ⟨2, ![K, N]⟩ .f32)
    (hx : (⟨2, ![R, K]⟩ : Shape).ShapeCasts ⟨2, ![R, K]⟩)
    (ht : FTy.bf16.bits < FTy.f32.bits) (p : Fin R) (q : Fin N) :
    matmul d none (truncf .bf16 (shapeCast ⟨2, ![R, K]⟩ x hx) ht) (truncf .bf16 w ht) (constant ⟨2, ![R, N]⟩ .f32 0x00000000#32) (ix2 p q)
      = ∑ k : Fin K, x (ix2 p k) * w (ix2 k q) := by
  rw [shapeCast_self]
  exact vec_mm_apply d hd x w ht p q

/-- A sum with the bias row repeated down the rows, then the maximum with the zero splat. -/
theorem vec_bias_floor_apply {R N : ℕ} (a : FVec Ideal ⟨2, ![R, N]⟩ .f32) (b : FVec Ideal ⟨2, ![1, N]⟩ .f32)
    (ha : (⟨2, ![R, N]⟩ : Shape).ShapeCasts ⟨2, ![R, N]⟩) (hb : (⟨2, ![1, N]⟩ : Shape).ShapeCasts ⟨2, ![1, N]⟩)
    (hB : (⟨2, ![1, N]⟩ : Shape).Broadcasts ⟨2, ![R, N]⟩) (p : Fin R) (q : Fin N) :
    maximumf (addf (shapeCast ⟨2, ![R, N]⟩ a ha) (broadcastTo ⟨2, ![R, N]⟩ (shapeCast ⟨2, ![1, N]⟩ b hb) hB))
        (broadcast ⟨2, ![R, N]⟩ (Scalar.ofBits .f32 0x00000000#32)) (ix2 p q)
      = max (a (ix2 p q) + b (ix2 (0 : Fin 1) q)) (Ideal.ofBits .f32 0x00000000#32) := by
  simp only [maximumf_apply, addf_apply, shapeCast_self, broadcastTo_1b_ab_apply, broadcast_apply]
  rfl

/-- The product into a zero accumulator plus the bias row repeated down the rows. -/
theorem vec_mm_plus_apply {R K N : ℕ} (d : DotDims ⟨2, ![R, K]⟩ ⟨2, ![K, N]⟩ ⟨2, ![R, N]⟩) (hd : d = DotDims.plain R K N)
    (x : FVec Ideal ⟨2, ![R, K]⟩ .f32) (w : FVec Ideal ⟨2, ![K, N]⟩ .f32) (b : FVec Ideal ⟨2, ![1, N]⟩ .f32)
    (hx : (⟨2, ![R, K]⟩ : Shape).ShapeCasts ⟨2, ![R, K]⟩) (hb : (⟨2, ![1, N]⟩ : Shape).ShapeCasts ⟨2, ![1, N]⟩)
    (hB : (⟨2, ![1, N]⟩ : Shape).Broadcasts ⟨2, ![R, N]⟩)
    (ht : FTy.bf16.bits < FTy.f32.bits) (p : Fin R) (q : Fin N) :
    addf (matmul d none (truncf .bf16 (shapeCast ⟨2, ![R, K]⟩ x hx) ht) (truncf .bf16 w ht) (constant ⟨2, ![R, N]⟩ .f32 0x00000000#32))
        (broadcastTo ⟨2, ![R, N]⟩ (shapeCast ⟨2, ![1, N]⟩ b hb) hB) (ix2 p q)
      = (∑ k : Fin K, x (ix2 p k) * w (ix2 k q)) + b (ix2 (0 : Fin 1) q) := by
  rw [addf_apply, vec_mm_cast_apply d hd x w hx ht p q, broadcastTo_1b_ab_apply, shapeCast_self]

/-! ## The host's spellings, as whole arrays -/

/-- The host's `dot_general` with the plain dimension numbers is the matrix product. -/
theorem host_mm {R K N : ℕ} (d : DotDims ⟨2, ![R, K]⟩ ⟨2, ![K, N]⟩ ⟨2, ![R, N]⟩) (hd : d = DotDims.plain R K N)
    (x : FVec Ideal ⟨2, ![R, K]⟩ .f32) (w : FVec Ideal ⟨2, ![K, N]⟩ .f32) :
    Host.dotGeneral d none x w = rowsTimes x w := by
  subst hd
  funext i
  obtain ⟨p, q, rfl⟩ : ∃ (p : Fin R) (q : Fin N), i = ix2 p q := ⟨i 0, i 1, eq_ix2 i⟩
  rw [rowsTimes_ix2]
  simp only [Host.dotGeneral, Cert.LibMlp.dotGeneral_plain]

/-- A bias vector broadcast to one row and then down the rows reads, at `(p, q)`, its entry `q`. -/
theorem bias_rows_apply {R N : ℕ} (b : FVec Ideal ⟨1, ![N]⟩ .f32)
    (hb1 : (⟨1, ![N]⟩ : Shape).BroadcastsInDim ⟨2, ![1, N]⟩ ![1]) (hB1 : (⟨2, ![1, N]⟩ : Shape).BroadcastsInDim ⟨2, ![R, N]⟩ ![0, 1])
    (p : Fin R) (q : Fin N) :
    broadcastInDim ⟨2, ![R, N]⟩ ![0, 1] hB1 (broadcastInDim ⟨2, ![1, N]⟩ ![1] hb1 b) (ix2 p q) = b (ix1 q) := by
  rw [broadcastInDim_apply ![0, 1] hB1 _ (ix2 p q) (ix2 (0 : Fin 1) q) (fun a => by
    match a with
    | ⟨0, _⟩ => rfl
    | ⟨1, _⟩ => show q.val = if N = 1 then 0 else q.val; split <;> [(have := q.isLt; omega); rfl])]
  exact broadcastInDim_apply ![1] hb1 _ (ix2 (0 : Fin 1) q) (ix1 q) (fun a => by
    match a with
    | ⟨0, _⟩ => show q.val = if N = 1 then 0 else q.val; split <;> [(have := q.isLt; omega); rfl])

/-- The host's bias add and ReLU is `biasFloor` of the bias vector laid out as one row. -/
theorem host_bias_floor {R N : ℕ} (a : FVec Ideal ⟨2, ![R, N]⟩ .f32) (b : FVec Ideal ⟨1, ![N]⟩ .f32)
    (hb1 : (⟨1, ![N]⟩ : Shape).BroadcastsInDim ⟨2, ![1, N]⟩ ![1]) (hB1 : (⟨2, ![1, N]⟩ : Shape).BroadcastsInDim ⟨2, ![R, N]⟩ ![0, 1])
    (hz : (⟨0, ![]⟩ : Shape).BroadcastsInDim ⟨2, ![R, N]⟩ ![]) (hc : (⟨1, ![N]⟩ : Shape).ShapeCasts ⟨2, ![1, N]⟩) :
    maximumf (addf a (broadcastInDim ⟨2, ![R, N]⟩ ![0, 1] hB1 (broadcastInDim ⟨2, ![1, N]⟩ ![1] hb1 b)))
        (broadcastInDim ⟨2, ![R, N]⟩ ![] hz (constant (F := Ideal) ⟨0, ![]⟩ .f32 0x00000000#32))
      = biasFloor (Ideal.ofBits .f32 0x00000000#32) a (shapeCast ⟨2, ![1, N]⟩ b hc) := by
  funext i
  obtain ⟨p, q, rfl⟩ : ∃ (p : Fin R) (q : Fin N), i = ix2 p q := ⟨i 0, i 1, eq_ix2 i⟩
  have zero : broadcastInDim ⟨2, ![R, N]⟩ ![] hz (constant (F := Ideal) ⟨0, ![]⟩ .f32 0x00000000#32) (ix2 p q) = Ideal.ofBits .f32 0x00000000#32 :=
    broadcastInDim_apply ![] hz _ (ix2 p q) ix0 (fun a => a.elim0)
  rw [biasFloor_ix2, maximumf_apply, addf_apply, bias_rows_apply, zero, shapeCast_a_1a_apply]

/-- The host's `dot_general` plus a broadcast bias vector is `rowsTimesPlus` of the bias laid out as one row. -/
theorem host_mm_plus {R K N : ℕ} (d : DotDims ⟨2, ![R, K]⟩ ⟨2, ![K, N]⟩ ⟨2, ![R, N]⟩) (hd : d = DotDims.plain R K N)
    (x : FVec Ideal ⟨2, ![R, K]⟩ .f32) (w : FVec Ideal ⟨2, ![K, N]⟩ .f32) (b : FVec Ideal ⟨1, ![N]⟩ .f32)
    (hb1 : (⟨1, ![N]⟩ : Shape).BroadcastsInDim ⟨2, ![1, N]⟩ ![1]) (hB1 : (⟨2, ![1, N]⟩ : Shape).BroadcastsInDim ⟨2, ![R, N]⟩ ![0, 1])
    (hc : (⟨1, ![N]⟩ : Shape).ShapeCasts ⟨2, ![1, N]⟩) :
    addf (Host.dotGeneral d none x w) (broadcastInDim ⟨2, ![R, N]⟩ ![0, 1] hB1 (broadcastInDim ⟨2, ![1, N]⟩ ![1] hb1 b))
      = rowsTimesPlus x w (shapeCast ⟨2, ![1, N]⟩ b hc) := by
  rw [host_mm d hd]
  funext i
  obtain ⟨p, q, rfl⟩ : ∃ (p : Fin R) (q : Fin N), i = ix2 p q := ⟨i 0, i 1, eq_ix2 i⟩
  rw [addf_apply, bias_rows_apply, rowsTimesPlus_ix2, shapeCast_a_1a_apply, rowsTimes_ix2]

end Cert.LibDense

end
-- ==== Proof.ReadVec.lean ====
/-
  THE VECTOR UNIT'S SPELLINGS OF A GRAPH LAYER, READ AT AN ENTRY. Each statement takes a value written with the vector
  operations (shape casts to the same shape, roundings to a narrower format and back, a row repeated down the rows, matrix
  products into a zero accumulator, sums down the rows, a select on a comparison) and says which extended real it is at the
  entry (p, q), the row count R and the widths left general.

  * normEl h mu var g be: the exponential linear unit of (h − mu) · rsqrt (var + eps) · g + be, the constants being the values
    of the binary32 words the program carries; normAct_f32_apply / normAct_bf16_apply read the normalise-and-activate value at
    (p, q) as normEl of the entry and of the four one-row operands at column q (the operand either binary32 or widened
    from bfloat16: a change of format is the identity on the extended reals).
  * affRow ra rb wa wb bias q: a row of a and a row of b against column q of two weights, plus the bias row at q;
    affine_castL_apply / affine_castR_apply read the sum of the two products and the repeated bias row at (p, q).
  * lane_sum_apply: a sum down the rows from the zero word, laid out as one row, is at (0, q) the sum of column q.
  Then the same readings for the printed values of the four bodies.
-/
import Idealize.ShloMosaic.PureOps.Ideal.Laws
import Idealize.ShloMosaic.Lib.ValueIdx
import Idealize.ShloMosaic.Lib.ValueLayout
import Idealize.ShloMosaic.Lib.Pipeline.Value
import proofs.«127109_j5042291605552_1_alg».proof.Proof.Spec
import proofs.«127109_j5042291605552_1_alg».proof.Proof.LibDenseLayers
import proofs.«127109_j5042291605552_1_alg».proof.Proof.Gen.KernelIdeal.Skeleton

noncomputable section

namespace Cert.ReadVec

open Idealize.ShloMosaic Idealize.ShloMosaic.ValueIdx
open scoped BigOperators

/-! ## The two entrywise functions -/

/-- Normalise by a mean and a variance, scale, shift, then the exponential linear unit; the three constants are the values of
    the binary32 words for 0, 1 and 1e-5. -/
def normEl (h mu var g be : EReal) : EReal :=
  Cert.Spec.elu (Ideal.ofBits .f32 0x00000000#32) (Ideal.ofBits .f32 0x3F800000#32)
    ((h - mu) * Ideal.rsqrt (var + Ideal.ofBits .f32 0x3727C5AC#32) * g + be)

/-- A row of one matrix against a column of a weight, a row of another against the same column of a second weight, plus the
    bias row's entry. -/
def affRow {K N : ℕ} (ra rb : Fin K → EReal) (wa wb : Cert.Spec.Mat K N) (bias : Cert.Spec.Mat 1 N) (q : Fin N) : EReal :=
  (∑ k : Fin K, ra k * wa (ix2 k q)) + (∑ k : Fin K, rb k * wb (ix2 k q)) + bias (ix2 (0 : Fin 1) q)

/-! ## Small readings at an index -/

/-- A reciprocal square root at an index is the element's. -/
theorem rsqrt_apply {s : Shape} {φ : FTy} (x : FVec Ideal s φ) (i : s.Idx) : rsqrt x i = Ideal.rsqrt (x i) := rfl
/-- An exponential at an index is the element's. -/
theorem exp_apply {s : Shape} {φ : FTy} (x : FVec Ideal s φ) (i : s.Idx) : exp x i = Ideal.exp (x i) := rfl

/-- A select on "y strictly above z" between two values is the case split on the order. -/
theorem select_ogt (z y v w : EReal) :
    Scalar.select (FloatOps.cmpf (F := Ideal) (φ := .f32) .ogt y z) v w = if z < y then v else w := by
  show Scalar.select (BitVec.ofBool (decide (z < y))) v w = _
  by_cases h : z < y
  · rw [if_pos h, decide_eq_true h]; rfl
  · rw [if_neg h, decide_eq_false h]; rfl

/-! ## Normalise and activate -/

/-- The normalise-and-activate value over a binary32 operand cast to its own shape. -/
theorem normAct_f32_apply {R N : ℕ} (x0 : FVec Ideal ⟨2, ![R, N]⟩ .f32) (var mu g be : FVec Ideal ⟨2, ![1, N]⟩ .f32)
    (h0 : (⟨2, ![R, N]⟩ : Shape).ShapeCasts ⟨2, ![R, N]⟩) (h1 : (⟨2, ![1, N]⟩ : Shape).ShapeCasts ⟨2, ![1, N]⟩)
    (hB : (⟨2, ![1, N]⟩ : Shape).Broadcasts ⟨2, ![R, N]⟩) (p : Fin R) (q : Fin N) :
    (select
        (cmpf .ogt
          (addf (mulf (mulf (subf (shapeCast ⟨2, ![R, N]⟩ x0 h0) (broadcastTo ⟨2, ![R, N]⟩ (shapeCast ⟨2, ![1, N]⟩ mu h1) hB))
              (broadcastTo ⟨2, ![R, N]⟩ (rsqrt (addf (shapeCast ⟨2, ![1, N]⟩ var h1) (broadcast ⟨2, ![1, N]⟩ (Scalar.ofBits (F := Ideal) .f32 0x3727C5AC#32)))) hB))
              (broadcastTo ⟨2, ![R, N]⟩ (shapeCast ⟨2, ![1, N]⟩ g h1) hB))
            (broadcastTo ⟨2, ![R, N]⟩ (shapeCast ⟨2, ![1, N]⟩ be h1) hB))
          (broadcast ⟨2, ![R, N]⟩ (Scalar.ofBits (F := Ideal) .f32 0x00000000#32)))
        (addf (mulf (mulf (subf (shapeCast ⟨2, ![R, N]⟩ x0 h0) (broadcastTo ⟨2, ![R, N]⟩ (shapeCast ⟨2, ![1, N]⟩ mu h1) hB))
              (broadcastTo ⟨2, ![R, N]⟩ (rsqrt (addf (shapeCast ⟨2, ![1, N]⟩ var h1) (broadcast ⟨2, ![1, N]⟩ (Scalar.ofBits (F := Ideal) .f32 0x3727C5AC#32)))) hB))
              (broadcastTo ⟨2, ![R, N]⟩ (shapeCast ⟨2, ![1, N]⟩ g h1) hB))
            (broadcastTo ⟨2, ![R, N]⟩ (shapeCast ⟨2, ![1, N]⟩ be h1) hB))
        (subf
          (exp (addf (mulf (mulf (subf (shapeCast ⟨2, ![R, N]⟩ x0 h0) (broadcastTo ⟨2, ![R, N]⟩ (shapeCast ⟨2, ![1, N]⟩ mu h1) hB))
              (broadcastTo ⟨2, ![R, N]⟩ (rsqrt (addf (shapeCast ⟨2, ![1, N]⟩ var h1) (broadcast ⟨2, ![1, N]⟩ (Scalar.ofBits (F := Ideal) .f32 0x3727C5AC#32)))) hB))
              (broadcastTo ⟨2, ![R, N]⟩ (shapeCast ⟨2, ![1, N]⟩ g h1) hB))
            (broadcastTo ⟨2, ![R, N]⟩ (shapeCast ⟨2, ![1, N]⟩ be h1) hB)))
          (broadcast ⟨2, ![R, N]⟩ (Scalar.ofBits (F := Ideal) .f32 0x3F800000#32))))
        (ix2 p q)
      = Cert.ReadVec.normEl (x0 (ix2 p q)) (mu (ix2 (0 : Fin 1) q)) (var (ix2 (0 : Fin 1) q)) (g (ix2 (0 : Fin 1) q)) (be (ix2 (0 : Fin 1) q)) := by
  simp only [shapeCast_self, select_apply, cmpf_apply, subf_apply, exp_apply, addf_apply, mulf_apply, broadcastTo_1b_ab_apply,
    rsqrt_apply, broadcast_apply, select_ogt]
  rfl

/-- The same over a bfloat16 operand cast to its own shape and widened. -/
theorem normAct_bf16_apply {R N : ℕ} (x0 : FVec Ideal ⟨2, ![R, N]⟩ .bf16) (var mu g be : FVec Ideal ⟨2, ![1, N]⟩ .f32)
    (h0 : (⟨2, ![R, N]⟩ : Shape).ShapeCasts ⟨2, ![R, N]⟩) (h1 : (⟨2, ![1, N]⟩ : Shape).ShapeCasts ⟨2, ![1, N]⟩)
    (hB : (⟨2, ![1, N]⟩ : Shape).Broadcasts ⟨2, ![R, N]⟩) (hw : FTy.bf16.bits < FTy.f32.bits) (p : Fin R) (q : Fin N) :
    (select
        (cmpf .ogt
          (addf (mulf (mulf (subf (extf .f32 (shapeCast ⟨2, ![R, N]⟩ x0 h0) hw) (broadcastTo ⟨2, ![R, N]⟩ (shapeCast ⟨2, ![1, N]⟩ mu h1) hB))
              (broadcastTo ⟨2, ![R, N]⟩ (rsqrt (addf (shapeCast ⟨2, ![1, N]⟩ var h1) (broadcast ⟨2, ![1, N]⟩ (Scalar.ofBits (F := Ideal) .f32 0x3727C5AC#32)))) hB))
              (broadcastTo ⟨2, ![R, N]⟩ (shapeCast ⟨2, ![1, N]⟩ g h1) hB))
            (broadcastTo ⟨2, ![R, N]⟩ (shapeCast ⟨2, ![1, N]⟩ be h1) hB))
          (broadcast ⟨2, ![R, N]⟩ (Scalar.ofBits (F := Ideal) .f32 0x00000000#32)))
        (addf (mulf (mulf (subf (extf .f32 (shapeCast ⟨2, ![R, N]⟩ x0 h0) hw) (broadcastTo ⟨2, ![R, N]⟩ (shapeCast ⟨2, ![1, N]⟩ mu h1) hB))
              (broadcastTo ⟨2, ![R, N]⟩ (rsqrt (addf (shapeCast ⟨2, ![1, N]⟩ var h1) (broadcast ⟨2, ![1, N]⟩ (Scalar.ofBits (F := Ideal) .f32 0x3727C5AC#32)))) hB))
              (broadcastTo ⟨2, ![R, N]⟩ (shapeCast ⟨2, ![1, N]⟩ g h1) hB))
            (broadcastTo ⟨2, ![R, N]⟩ (shapeCast ⟨2, ![1, N]⟩ be h1) hB))
        (subf
          (exp (addf (mulf (mulf (subf (extf .f32 (shapeCast ⟨2, ![R, N]⟩ x0 h0) hw) (broadcastTo ⟨2, ![R, N]⟩ (shapeCast ⟨2, ![1, N]⟩ mu h1) hB))
              (broadcastTo ⟨2, ![R, N]⟩ (rsqrt (addf (shapeCast ⟨2, ![1, N]⟩ var h1) (broadcast ⟨2, ![1, N]⟩ (Scalar.ofBits (F := Ideal) .f32 0x3727C5AC#32)))) hB))
              (broadcastTo ⟨2, ![R, N]⟩ (shapeCast ⟨2, ![1, N]⟩ g h1) hB))
            (broadcastTo ⟨2, ![R, N]⟩ (shapeCast ⟨2, ![1, N]⟩ be h1) hB)))
          (broadcast ⟨2, ![R, N]⟩ (Scalar.ofBits (F := Ideal) .f32 0x3F800000#32))))
        (ix2 p q)
      = Cert.ReadVec.normEl (x0 (ix2 p q)) (mu (ix2 (0 : Fin 1) q)) (var (ix2 (0 : Fin 1) q)) (g (ix2 (0 : Fin 1) q)) (be (ix2 (0 : Fin 1) q)) := by
  simp only [shapeCast_self, select_apply, cmpf_apply, subf_apply, exp_apply, addf_apply, mulf_apply, broadcastTo_1b_ab_apply,
    rsqrt_apply, broadcast_apply, select_ogt, extf_apply]
  rfl

/-! ## The affine layer -/

/-- Two products into zero accumulators, their sum, and the bias row repeated down the rows; every operand may first be cast
    to its own shape, which changes nothing. This form has the casts on the weights and the bias only. -/
theorem affine_apply {R K N : ℕ} (d : DotDims ⟨2, ![R, K]⟩ ⟨2, ![K, N]⟩ ⟨2, ![R, N]⟩) (hd : d = DotDims.plain R K N)
    (a b : FVec Ideal ⟨2, ![R, K]⟩ .f32) (wa wb : FVec Ideal ⟨2, ![K, N]⟩ .f32) (bias : FVec Ideal ⟨2, ![1, N]⟩ .f32)
    (hw : (⟨2, ![K, N]⟩ : Shape).ShapeCasts ⟨2, ![K, N]⟩) (h1 : (⟨2, ![1, N]⟩ : Shape).ShapeCasts ⟨2, ![1, N]⟩)
    (hB : (⟨2, ![1, N]⟩ : Shape).Broadcasts ⟨2, ![R, N]⟩) (ht : FTy.bf16.bits < FTy.f32.bits) (p : Fin R) (q : Fin N) :
    (addf (addf (matmul d none (truncf .bf16 a ht) (truncf .bf16 (shapeCast ⟨2, ![K, N]⟩ wa hw) ht) (constant ⟨2, ![R, N]⟩ .f32 0x00000000#32)) (matmul d none (truncf .bf16 b ht) (truncf .bf16 (shapeCast ⟨2, ![K, N]⟩ wb hw) ht) (constant ⟨2, ![R, N]⟩ .f32 0x00000000#32))) (broadcastTo ⟨2, ![R, N]⟩ (shapeCast ⟨2, ![1, N]⟩ bias h1) hB)) (ix2 p q)
      = affRow (fun k => a (ix2 p k)) (fun k => b (ix2 p k)) wa wb bias q := by
  rw [addf_apply, addf_apply, shapeCast_self, shapeCast_self, shapeCast_self,
    Cert.LibDense.vec_mm_apply d hd a wa ht p q, Cert.LibDense.vec_mm_apply d hd b wb ht p q, broadcastTo_1b_ab_apply]
  rfl

/-- The same with the first left operand cast to its own shape. -/
theorem affine_castL_apply {R K N : ℕ} (d : DotDims ⟨2, ![R, K]⟩ ⟨2, ![K, N]⟩ ⟨2, ![R, N]⟩) (hd : d = DotDims.plain R K N)
    (a b : FVec Ideal ⟨2, ![R, K]⟩ .f32) (wa wb : FVec Ideal ⟨2, ![K, N]⟩ .f32) (bias : FVec Ideal ⟨2, ![1, N]⟩ .f32)
    (hx : (⟨2, ![R, K]⟩ : Shape).ShapeCasts ⟨2, ![R, K]⟩)
    (hw : (⟨2, ![K, N]⟩ : Shape).ShapeCasts ⟨2, ![K, N]⟩) (h1 : (⟨2, ![1, N]⟩ : Shape).ShapeCasts ⟨2, ![1, N]⟩)
    (hB : (⟨2, ![1, N]⟩ : Shape).Broadcasts ⟨2, ![R, N]⟩) (ht : FTy.bf16.bits < FTy.f32.bits) (p : Fin R) (q : Fin N) :
    (addf (addf (matmul d none (truncf .bf16 (shapeCast ⟨2, ![R, K]⟩ a hx) ht) (truncf .bf16 (shapeCast ⟨2, ![K, N]⟩ wa hw) ht) (constant ⟨2, ![R, N]⟩ .f32 0x00000000#32)) (matmul d none (truncf .bf16 b ht) (truncf .bf16 (shapeCast ⟨2, ![K, N]⟩ wb hw) ht) (constant ⟨2, ![R, N]⟩ .f32 0x00000000#32))) (broadcastTo ⟨2, ![R, N]⟩ (shapeCast ⟨2, ![1, N]⟩ bias h1) hB)) (ix2 p q)
      = affRow (fun k => a (ix2 p k)) (fun k => b (ix2 p k)) wa wb bias q := by
  rw [shapeCast_self a hx]
  exact affine_apply d hd a b wa wb bias hw h1 hB ht p q

/-- The same with the second left operand cast to its own shape. -/
theorem affine_castR_apply {R K N : ℕ} (d : DotDims ⟨2, ![R, K]⟩ ⟨2, ![K, N]⟩ ⟨2, ![R, N]⟩) (hd : d = DotDims.plain R K N)
    (a b : FVec Ideal ⟨2, ![R, K]⟩ .f32) (wa wb : FVec Ideal ⟨2, ![K, N]⟩ .f32) (bias : FVec Ideal ⟨2, ![1, N]⟩ .f32)
    (hx : (⟨2, ![R, K]⟩ : Shape).ShapeCasts ⟨2, ![R, K]⟩)
    (hw : (⟨2, ![K, N]⟩ : Shape).ShapeCasts ⟨2, ![K, N]⟩) (h1 : (⟨2, ![1, N]⟩ : Shape).ShapeCasts ⟨2, ![1, N]⟩)
    (hB : (⟨2, ![1, N]⟩ : Shape).Broadcasts ⟨2, ![R, N]⟩) (ht : FTy.bf16.bits < FTy.f32.bits) (p : Fin R) (q : Fin N) :
    (addf (addf (matmul d none (truncf .bf16 a ht) (truncf .bf16 (shapeCast ⟨2, ![K, N]⟩ wa hw) ht) (constant ⟨2, ![R, N]⟩ .f32 0x00000000#32)) (matmul d none (truncf .bf16 (shapeCast ⟨2, ![R, K]⟩ b hx) ht) (truncf .bf16 (shapeCast ⟨2, ![K, N]⟩ wb hw) ht) (constant ⟨2, ![R, N]⟩ .f32 0x00000000#32))) (broadcastTo ⟨2, ![R, N]⟩ (shapeCast ⟨2, ![1, N]⟩ bias h1) hB)) (ix2 p q)
      = affRow (fun k => a (ix2 p k)) (fun k => b (ix2 p k)) wa wb bias q := by
  rw [shapeCast_self b hx]
  exact affine_apply d hd a b wa wb bias hw h1 hB ht p q

/-! ## Sums down the rows -/

/-- A sum down the rows from the zero word is, at column q, the sum of the column. -/
theorem colsum_apply {R N : ℕ} (v : FVec Ideal ⟨2, ![R, N]⟩ .f32) (hr : (⟨2, ![R, N]⟩ : Shape).Reduces [0] ⟨1, ![N]⟩)
    (hφ : FKind.Formats .f32) (hacc : (0x00000000#32 : BitVec 32) = 0x00000000#32) (q : Fin N) :
    multiReduction (F := Ideal) .add [0] ⟨1, ![N]⟩ v 0x00000000#32 hr hφ hacc (ix1 q) = ∑ p : Fin R, v (ix2 p q) := by
  refine (Ideal.multiReduction_add_single v 0x00000000#32 hr hφ hacc (ix1 q)).trans ?_
  refine Finset.sum_congr rfl fun k _ => congrArg v ?_
  funext c
  match c with
  | ⟨0, _⟩ => rfl
  | ⟨1, _⟩ => rfl

/-- The same sum laid out as one row. -/
theorem lane_sum_apply {R N : ℕ} (v : FVec Ideal ⟨2, ![R, N]⟩ .f32) (hr : (⟨2, ![R, N]⟩ : Shape).Reduces [0] ⟨1, ![N]⟩)
    (hφ : FKind.Formats .f32) (hacc : (0x00000000#32 : BitVec 32) = 0x00000000#32)
    (hc : (⟨1, ![N]⟩ : Shape).ShapeCasts ⟨2, ![1, N]⟩) (u : Fin 1) (q : Fin N) :
    shapeCast ⟨2, ![1, N]⟩ (multiReduction (F := Ideal) .add [0] ⟨1, ![N]⟩ v 0x00000000#32 hr hφ hacc) hc (ix2 u q)
      = ∑ p : Fin R, v (ix2 p q) :=
  (shapeCast_a_1a_apply _ hc u q).trans (colsum_apply v hr hφ hacc q)

/-! ## The printed values of the four bodies -/

section Printed

open Cert.KernelIdeal Cert.KernelIdeal.Gen

/-- The first layer's normalise-and-activate value at an entry (operands: entries, variances, means, scales, shifts). -/
theorem k1_pay1_apply (x0 : FVec Ideal S6400x128 .bf16) (xvar xmean xg xb : FVec Ideal S1x128 .f32) (j : S6400x128.Idx) :
    k1_pay1 (F := Ideal) x0 xvar xmean xg xb j
      = normEl (x0 j) (xmean (ix2 (0 : Fin 1) (j 1))) (xvar (ix2 (0 : Fin 1) (j 1))) (xg (ix2 (0 : Fin 1) (j 1))) (xb (ix2 (0 : Fin 1) (j 1))) := by
  obtain ⟨p, q, rfl⟩ : ∃ (p : Fin 6400) (q : Fin 128), j = ix2 p q := ⟨j 0, j 1, eq_ix2 j⟩
  exact normAct_bf16_apply x0 xvar xmean xg xb _ _ _ _ p q

/-- The second layer's normalise-and-activate value at an entry. -/
theorem k3_pay1_apply (x0 : FVec Ideal S5000x128 .f32) (xvar xmean xg xb : FVec Ideal S1x128 .f32) (j : S5000x128.Idx) :
    k3_pay1 (F := Ideal) x0 xvar xmean xg xb j
      = normEl (x0 j) (xmean (ix2 (0 : Fin 1) (j 1))) (xvar (ix2 (0 : Fin 1) (j 1))) (xg (ix2 (0 : Fin 1) (j 1))) (xb (ix2 (0 : Fin 1) (j 1))) := by
  obtain ⟨p, q, rfl⟩ : ∃ (p : Fin 5000) (q : Fin 128), j = ix2 p q := ⟨j 0, j 1, eq_ix2 j⟩
  exact normAct_f32_apply x0 xvar xmean xg xb _ _ _ p q

/-- The first layer's affine value at an entry. -/
theorem k0_pay4_apply (x0 x1 : FVec Ideal S6400x128 .f32) (x2 x3 : FVec Ideal S128x128 .f32) (x4 : FVec Ideal S1x128 .f32) (j : S6400x128.Idx) :
    k0_pay4 (F := Ideal) x0 x1 x2 x3 x4 j
      = affRow (fun k => x0 (ix2 (j 0) k)) (fun k => x1 (ix2 (j 0) k)) x2 x3 x4 (j 1) := by
  obtain ⟨p, q, rfl⟩ : ∃ (p : Fin 6400) (q : Fin 128), j = ix2 p q := ⟨j 0, j 1, eq_ix2 j⟩
  exact affine_castL_apply dot_S6400x128_S128x128_S6400x128_1_0_0_1_n_n rfl x0 x1 x2 x3 x4 _ _ _ _ _ p q

/-- Rounded to bfloat16 for storing, the same extended real. -/
theorem k0_pay5_apply (x0 x1 : FVec Ideal S6400x128 .f32) (x2 x3 : FVec Ideal S128x128 .f32) (x4 : FVec Ideal S1x128 .f32) (j : S6400x128.Idx) :
    k0_pay5 (F := Ideal) x0 x1 x2 x3 x4 j
      = affRow (fun k => x0 (ix2 (j 0) k)) (fun k => x1 (ix2 (j 0) k)) x2 x3 x4 (j 1) :=
  k0_pay4_apply x0 x1 x2 x3 x4 j

/-- The second layer's affine value at an entry. -/
theorem k2_pay4_apply (x0 x1 : FVec Ideal S5000x128 .f32) (x2 x3 : FVec Ideal S128x128 .f32) (x4 : FVec Ideal S1x128 .f32) (j : S5000x128.Idx) :
    k2_pay4 (F := Ideal) x0 x1 x2 x3 x4 j
      = affRow (fun k => x0 (ix2 (j 0) k)) (fun k => x1 (ix2 (j 0) k)) x2 x3 x4 (j 1) := by
  obtain ⟨p, q, rfl⟩ : ∃ (p : Fin 5000) (q : Fin 128), j = ix2 p q := ⟨j 0, j 1, eq_ix2 j⟩
  exact affine_castR_apply dot_S5000x128_S128x128_S5000x128_1_0_0_1_n_n rfl x0 x1 x2 x3 x4 _ _ _ _ _ p q

/-- The first layer's running column sum after a block: what was there plus the block's column sums. -/
theorem k0_pay6_apply (x0 x1 : FVec Ideal S6400x128 .f32) (x2 x3 : FVec Ideal S128x128 .f32) (x4 acc : FVec Ideal S1x128 .f32) (u : Fin 1) (q : Fin 128) :
    k0_pay6 (F := Ideal) x0 x1 x2 x3 x4 acc (ix2 u q)
      = acc (ix2 u q) + ∑ p : Fin 6400, k0_pay4 (F := Ideal) x0 x1 x2 x3 x4 (ix2 p q) := by
  unfold k0_pay6
  rw [addf_apply, shapeCast_self]
  exact congrArg (acc (ix2 u q) + ·) (lane_sum_apply _ _ _ _ _ u q)

/-- The squares of the first layer's affine value. -/
theorem k0_pay8_apply (x0 x1 : FVec Ideal S6400x128 .f32) (x2 x3 : FVec Ideal S128x128 .f32) (x4 : FVec Ideal S1x128 .f32) (j : S6400x128.Idx) :
    k0_pay8 (F := Ideal) x0 x1 x2 x3 x4 j = k0_pay4 (F := Ideal) x0 x1 x2 x3 x4 j * k0_pay4 (F := Ideal) x0 x1 x2 x3 x4 j := rfl

/-- The first layer's running column sum of squares after a block. -/
theorem k0_pay1_apply (acc : FVec Ideal S1x128 .f32) (sq : FVec Ideal S6400x128 .f32) (u : Fin 1) (q : Fin 128) :
    k0_pay1 (F := Ideal) acc sq (ix2 u q) = acc (ix2 u q) + ∑ p : Fin 6400, sq (ix2 p q) := by
  unfold k0_pay1
  rw [addf_apply]
  exact congrArg (acc (ix2 u q) + ·) (lane_sum_apply _ _ _ _ _ u q)

/-- A running sum read back is itself. -/
theorem k0_pay7_eq (acc : FVec Ideal S1x128 .f32) : k0_pay7 (F := Ideal) acc = acc := shapeCast_self _ _

/-- The running sums start from the zero word's value. -/
theorem k0_pay2_apply (i : S1x128.Idx) : k0_pay2 (F := Ideal) i = Ideal.ofBits .f32 0x00000000#32 := rfl
theorem k0_pay3_apply (i : S1x128.Idx) : k0_pay3 (F := Ideal) i = Ideal.ofBits .f32 0x00000000#32 := rfl

/-- The second layer's running column sum after a block. -/
theorem k2_pay5_apply (x0 x1 : FVec Ideal S5000x128 .f32) (x2 x3 : FVec Ideal S128x128 .f32) (x4 acc : FVec Ideal S1x128 .f32) (u : Fin 1) (q : Fin 128) :
    k2_pay5 (F := Ideal) x0 x1 x2 x3 x4 acc (ix2 u q)
      = acc (ix2 u q) + ∑ p : Fin 5000, k2_pay4 (F := Ideal) x0 x1 x2 x3 x4 (ix2 p q) := by
  unfold k2_pay5
  rw [addf_apply, shapeCast_self]
  exact congrArg (acc (ix2 u q) + ·) (lane_sum_apply _ _ _ _ _ u q)

/-- The second layer's column sums of squares of a block. -/
theorem k2_pay7_apply (x0 x1 : FVec Ideal S5000x128 .f32) (x2 x3 : FVec Ideal S128x128 .f32) (x4 : FVec Ideal S1x128 .f32) (q : Fin 128) :
    k2_pay7 (F := Ideal) x0 x1 x2 x3 x4 (ix1 q)
      = ∑ p : Fin 5000, k2_pay4 (F := Ideal) x0 x1 x2 x3 x4 (ix2 p q) * k2_pay4 (F := Ideal) x0 x1 x2 x3 x4 (ix2 p q) := by
  unfold k2_pay7
  exact colsum_apply _ _ _ _ q

/-- The second layer's running column sum of squares after a block. -/
theorem k2_pay1_apply (acc : FVec Ideal S1x128 .f32) (s : FVec Ideal S128 .f32) (u : Fin 1) (q : Fin 128) :
    k2_pay1 (F := Ideal) acc s (ix2 u q) = acc (ix2 u q) + s (ix1 q) := by
  unfold k2_pay1
  rw [addf_apply, shapeCast_a_1a_apply]

theorem k2_pay6_eq (acc : FVec Ideal S1x128 .f32) : k2_pay6 (F := Ideal) acc = acc := shapeCast_self _ _
theorem k2_pay2_apply (i : S1x128.Idx) : k2_pay2 (F := Ideal) i = Ideal.ofBits .f32 0x00000000#32 := rfl
theorem k2_pay3_apply (i : S1x128.Idx) : k2_pay3 (F := Ideal) i = Ideal.ofBits .f32 0x00000000#32 := rfl

end Printed

end Cert.ReadVec

end
-- ==== Proof.LibConcatCols.lean ====
/-
  TWO MATRICES JOINED ALONG THEIR COLUMNS, READ AT AN ENTRY. The concatenation along axis 1 of `a : [R, A]` and
  `b : [R, B]` is a matrix `[R, T]` with `T = A + B`; its entry `(r, j)` is `a (r, j)` when `j < A` and
  `b (r, j − A)` otherwise.
  * `concat_cols_total`: the condition for the concatenation to be well formed gives `A + B = T`;
  * `concat_cols_apply`: the entry, as one `if` on `j < A`;
  * `concat_cols_apply_left` / `concat_cols_apply_right`: the two branches on their own.
-/
import Idealize.ShloMosaic.Lib.Pipeline.Value
import Idealize.ShloMosaic.Lib.ValueIdx

noncomputable section

namespace Cert.LibConcatCols

open Idealize.ShloMosaic Idealize.ShloMosaic.ValueIdx
open scoped BigOperators

/-- The column counts of the two pieces sum to the result's. -/
theorem concat_cols_total {R A B T : ℕ}
    (h : Shape.Concatenates [(⟨2, ![R, A]⟩ : Shape), ⟨2, ![R, B]⟩] ⟨2, ![R, T]⟩ (1 : Fin 2)) : A + B = T := by
  have e := h.2.2
  simp only [List.map, List.sum_cons, List.sum_nil] at e
  rw [dif_pos trivial, dif_pos trivial] at e
  exact e

/-- A column at or past the first piece's width is, that width less, a column of the second piece. -/
theorem concat_cols_lt {R A B T : ℕ}
    (h : Shape.Concatenates [(⟨2, ![R, A]⟩ : Shape), ⟨2, ![R, B]⟩] ⟨2, ![R, T]⟩ (1 : Fin 2)) (j : Fin T)
    (hj : ¬ j.val < A) : j.val - A < B := by
  have := concat_cols_total h; have := j.isLt; omega

/-- The entry `(r, j)` with `j` in the first piece. -/
theorem concat_cols_apply_left {α : Type} {R A B T : ℕ}
    (h : Shape.Concatenates [(⟨2, ![R, A]⟩ : Shape), ⟨2, ![R, B]⟩] ⟨2, ![R, T]⟩ (1 : Fin 2))
    (a : (⟨2, ![R, A]⟩ : Shape).Idx → α) (b : (⟨2, ![R, B]⟩ : Shape).Idx → α) (r : Fin R) (j : Fin T) (hj : j.val < A) :
    concatenate ⟨2, ![R, T]⟩ 1 [⟨⟨2, ![R, A]⟩, a⟩, ⟨⟨2, ![R, B]⟩, b⟩] h (ix2 r j) = a (ix2 r ⟨j.val, hj⟩) := by
  refine concatenate_pair_apply_left (1 : Fin 2) a b h (ix2 r j) rfl (ix2 r ⟨j.val, hj⟩) ?_
  intro c
  match c with
  | ⟨0, _⟩ => rfl
  | ⟨1, _⟩ => rfl

/-- The entry `(r, j)` with `j` in the second piece. -/
theorem concat_cols_apply_right {α : Type} {R A B T : ℕ}
    (h : Shape.Concatenates [(⟨2, ![R, A]⟩ : Shape), ⟨2, ![R, B]⟩] ⟨2, ![R, T]⟩ (1 : Fin 2))
    (a : (⟨2, ![R, A]⟩ : Shape).Idx → α) (b : (⟨2, ![R, B]⟩ : Shape).Idx → α) (r : Fin R) (j : Fin T) (hj : ¬ j.val < A) :
    concatenate ⟨2, ![R, T]⟩ 1 [⟨⟨2, ![R, A]⟩, a⟩, ⟨⟨2, ![R, B]⟩, b⟩] h (ix2 r j)
      = b (ix2 r ⟨j.val - A, concat_cols_lt h j hj⟩) := by
  refine concatenate_pair_apply_right (1 : Fin 2) a b h (ix2 r j) rfl rfl (ix2 r ⟨j.val - A, concat_cols_lt h j hj⟩) ?_ ?_
  · intro c hc
    match c with
    | ⟨0, _⟩ => rfl
    | ⟨1, _⟩ => exact absurd rfl hc
  · show j.val - A + A = j.val
    omega

/-- THE CONCATENATION ALONG THE COLUMNS AT `(r, j)`: the first piece below its width, the second piece past it. -/
theorem concat_cols_apply {α : Type} {R A B T : ℕ}
    (h : Shape.Concatenates [(⟨2, ![R, A]⟩ : Shape), ⟨2, ![R, B]⟩] ⟨2, ![R, T]⟩ (1 : Fin 2))
    (a : (⟨2, ![R, A]⟩ : Shape).Idx → α) (b : (⟨2, ![R, B]⟩ : Shape).Idx → α) (r : Fin R) (j : Fin T) :
    concatenate ⟨2, ![R, T]⟩ 1 [⟨⟨2, ![R, A]⟩, a⟩, ⟨⟨2, ![R, B]⟩, b⟩] h (ix2 r j)
      = if hj : j.val < A then a (ix2 r ⟨j.val, hj⟩) else b (ix2 r ⟨j.val - A, concat_cols_lt h j hj⟩) := by
  by_cases hj : j.val < A
  · rw [dif_pos hj]; exact concat_cols_apply_left h a b r j hj
  · rw [dif_neg hj]; exact concat_cols_apply_right h a b r j hj

-- the statement at literal shapes, as a program writes them
example (h : Shape.Concatenates [(⟨2, ![10000, 64]⟩ : Shape), ⟨2, ![10000, 64]⟩] ⟨2, ![10000, 128]⟩ 1)
    (a b : (⟨2, ![10000, 64]⟩ : Shape).Idx → EReal) (r : Fin 10000) (j : Fin 128) :
    concatenate ⟨2, ![10000, 128]⟩ 1 [⟨⟨2, ![10000, 64]⟩, a⟩, ⟨⟨2, ![10000, 64]⟩, b⟩] h (ix2 r j)
      = if hj : j.val < 64 then a (ix2 r ⟨j.val, hj⟩) else b (ix2 r ⟨j.val - 64, concat_cols_lt h j hj⟩) :=
  concat_cols_apply h a b r j

end Cert.LibConcatCols

end
-- ==== Proof.ReadHost.lean ====
/-
  THE HOST'S SPELLINGS OF A GRAPH LAYER, READ AS THE SPECIFICATION'S FUNCTIONS. Each statement takes a whole-array expression
  written with the host's operations (a product of a concatenation with a transposed weight, sums down the rows, quotients by
  a broadcast constant, two-step broadcasts of a vector over the rows, selects on a comparison) and says which function of
  plain matrices it is, with the row count R (and where possible the width N) left general.

  * host_elu: the select between y and 1 · (exp of (y where y is not above 0, else 0) − 1) is the exponential linear
    unit: above 0 the outer select returns y; otherwise the inner select returns y, so the other branch is exp y − 1.
  * host_mean_apply, host_norm: a column's sum down the rows divided by the constant n is the mean; the sum of the squared
    deviations divided by n is the centred variance; the normalised, scaled and shifted entry follows entry by entry.
  * host_lin: row p of [a | b] times column q of the transposed weight is a sum over 256 columns, which splits into the
    128 columns of a against the weight's first 128 entries of row q and the 128 columns of b against its last 128.
  * wslice_left / wslice_right, stats_mean_apply / stats_var_apply: the pieces of the transposed weight cut along its rows,
    and a row of sums turned into the mean and the variance as a difference of moments.
-/
import Idealize.ShloMosaic.PureOps.Ideal.Laws
import Idealize.ShloMosaic.Lib.ValueIdx
import Idealize.ShloMosaic.Lib.ValueLayout
import Idealize.ShloMosaic.Lib.Pipeline.Value
import proofs.«127109_j5042291605552_1_alg».proof.Proof.Spec
import proofs.«127109_j5042291605552_1_alg».proof.Proof.LibMlpRows
import proofs.«127109_j5042291605552_1_alg».proof.Proof.LibDenseLayers
import proofs.«127109_j5042291605552_1_alg».proof.Proof.LibConcatCols

noncomputable section

namespace Cert.ReadHost

open Idealize.ShloMosaic Idealize.ShloMosaic.ValueIdx
open scoped BigOperators

/-! ## Small readings at an index -/

/-- A rank-zero constant broadcast to any shape reads the extended real its word encodes. -/
theorem splat_apply {n : ℕ} {d : Fin n → ℕ} (hz : (⟨0, ![]⟩ : Shape).BroadcastsInDim ⟨n, d⟩ ![]) (b : BitVec 32) (i : (⟨n, d⟩ : Shape).Idx) :
    broadcastInDim ⟨n, d⟩ ![] hz (constant (F := Ideal) ⟨0, ![]⟩ .f32 b) i = Ideal.ofBits .f32 b :=
  broadcastInDim_apply ![] hz _ i ix0 (fun a => a.elim0)

/-- The host's quotient at an index is the quotient of the elements. -/
theorem hostDivf_apply {s : Shape} (a b : FVec Ideal s .f32) (i : s.Idx) : Host.divf a b i = Ideal.div (a i) (b i) := rfl
/-- The host's reciprocal square root at an index is the element's. -/
theorem hostRsqrt_apply {s : Shape} (a : FVec Ideal s .f32) (i : s.Idx) : Host.rsqrt a i = Ideal.rsqrt (a i) := rfl
/-- The host's exponential less one at an index is the element's. -/
theorem hostExpm1_apply {s : Shape} (a : FVec Ideal s .f32) (i : s.Idx) : Host.expm1 a i = Ideal.exp (a i) - 1 := rfl

/-- The host's sum down the rows from a zero initial value, at column q, is the sum of the column. -/
theorem colsum_apply {R N : ℕ} (h : FVec Ideal ⟨2, ![R, N]⟩ .f32) (hred : (⟨2, ![R, N]⟩ : Shape).ReducesTo [0] ⟨1, ![N]⟩)
    (hu : 0 < (⟨0, ![]⟩ : Shape).numel) (q : Fin N) :
    (Host.reduceAdd (F := Ideal) (φ := .f32) h (constant (F := Ideal) ⟨0, ![]⟩ .f32 0x00000000#32) hred hu) (ix1 q) = ∑ p : Fin R, h (ix2 p q) := by
  show Ideal.hostReduceAdd hred h (Ideal.ofBits .f32 0x00000000#32) (ix1 q) = _
  rw [Ideal.hostReduceAdd_single hred ⟨hred.1, Nat.one_pos, hred.2⟩, Ideal.ofBits_zero_f32, zero_add]
  refine Finset.sum_congr rfl fun k _ => congrArg h ?_
  funext c
  match c with
  | ⟨0, _⟩ => rfl
  | ⟨1, _⟩ => rfl

/-- A select on "y strictly above z" between two values is the case split on the order. -/
theorem select_ogt (z y v w : EReal) :
    Scalar.select (FloatOps.cmpf (F := Ideal) (φ := .f32) .ogt y z) v w = if z < y then v else w := by
  show Scalar.select (BitVec.ofBool (decide (z < y))) v w = _
  by_cases h : z < y
  · rw [if_pos h, decide_eq_true h]; rfl
  · rw [if_neg h, decide_eq_false h]; rfl

/-! ## The exponential linear unit, the host's spelling -/

theorem host_elu {R N : ℕ} (y : FVec Ideal ⟨2, ![R, N]⟩ .f32) (hzS : (⟨0, ![]⟩ : Shape).BroadcastsInDim ⟨2, ![R, N]⟩ ![])
    (h1 : Ideal.ofBits .f32 0x3F800000#32 = 1) :
    (select (cmpf (F := Ideal) (φ := .f32) .ogt y (broadcastInDim ⟨2, ![R, N]⟩ ![] hzS (constant (F := Ideal) ⟨0, ![]⟩ .f32 0x00000000#32))) y
      (mulf (F := Ideal) (φ := .f32) (broadcastInDim ⟨2, ![R, N]⟩ ![] hzS (constant (F := Ideal) ⟨0, ![]⟩ .f32 0x3F800000#32))
        (Host.expm1 (select (cmpf (F := Ideal) (φ := .f32) .ogt y (broadcastInDim ⟨2, ![R, N]⟩ ![] hzS (constant (F := Ideal) ⟨0, ![]⟩ .f32 0x00000000#32))) (broadcastInDim ⟨2, ![R, N]⟩ ![] hzS (constant (F := Ideal) ⟨0, ![]⟩ .f32 0x00000000#32)) y))))
      = fun i => Cert.Spec.elu (Ideal.ofBits .f32 0x00000000#32) 1 (y i) := by
  funext i
  rw [select_apply, cmpf_apply, mulf_apply, hostExpm1_apply, select_apply, cmpf_apply, splat_apply, splat_apply, h1, one_mul,
    select_ogt, select_ogt]
  unfold Cert.Spec.elu
  by_cases hy : Ideal.ofBits .f32 0x00000000#32 < y i
  · rw [if_pos hy, if_pos hy]
  · rw [if_neg hy, if_neg hy, if_neg hy]

/-! ## Batch normalisation, the host's spelling -/

theorem host_mean_apply {R N : ℕ} (nb : BitVec 32) (h : FVec Ideal ⟨2, ![R, N]⟩ .f32) (hred : (⟨2, ![R, N]⟩ : Shape).ReducesTo [0] ⟨1, ![N]⟩)
    (hu : 0 < (⟨0, ![]⟩ : Shape).numel) (hzV : (⟨0, ![]⟩ : Shape).BroadcastsInDim ⟨1, ![N]⟩ ![]) (q : Fin N) :
    (Host.divf (F := Ideal) (φ := .f32) (Host.reduceAdd (F := Ideal) (φ := .f32) h (constant (F := Ideal) ⟨0, ![]⟩ .f32 0x00000000#32) hred hu) (broadcastInDim ⟨1, ![N]⟩ ![] hzV (constant (F := Ideal) ⟨0, ![]⟩ .f32 nb))) (ix1 q) = Cert.Spec.mean (Ideal.ofBits .f32 nb) h q := by
  rw [hostDivf_apply, colsum_apply, splat_apply]
  rfl

theorem host_norm {R N : ℕ} (nb eb : BitVec 32) (h : FVec Ideal ⟨2, ![R, N]⟩ .f32) (g be : FVec Ideal ⟨1, ![N]⟩ .f32)
    (hred : (⟨2, ![R, N]⟩ : Shape).ReducesTo [0] ⟨1, ![N]⟩) (hu : 0 < (⟨0, ![]⟩ : Shape).numel)
    (hzV : (⟨0, ![]⟩ : Shape).BroadcastsInDim ⟨1, ![N]⟩ ![])
    (hb1 : (⟨1, ![N]⟩ : Shape).BroadcastsInDim ⟨2, ![1, N]⟩ ![1]) (hB1 : (⟨2, ![1, N]⟩ : Shape).BroadcastsInDim ⟨2, ![R, N]⟩ ![0, 1]) :
    (addf (mulf (mulf (F := Ideal) (φ := .f32) (subf (F := Ideal) (φ := .f32) h (broadcastInDim ⟨2, ![R, N]⟩ ![0, 1] hB1 (broadcastInDim ⟨2, ![1, N]⟩ ![1] hb1 (Host.divf (F := Ideal) (φ := .f32) (Host.reduceAdd (F := Ideal) (φ := .f32) h (constant (F := Ideal) ⟨0, ![]⟩ .f32 0x00000000#32) hred hu) (broadcastInDim ⟨1, ![N]⟩ ![] hzV (constant (F := Ideal) ⟨0, ![]⟩ .f32 nb)))))) (broadcastInDim ⟨2, ![R, N]⟩ ![0, 1] hB1 (broadcastInDim ⟨2, ![1, N]⟩ ![1] hb1 (Host.rsqrt (F := Ideal) (φ := .f32) (addf (F := Ideal) (φ := .f32) (Host.divf (F := Ideal) (φ := .f32) (Host.reduceAdd (F := Ideal) (φ := .f32) (mulf (F := Ideal) (φ := .f32) (subf (F := Ideal) (φ := .f32) h (broadcastInDim ⟨2, ![R, N]⟩ ![0, 1] hB1 (broadcastInDim ⟨2, ![1, N]⟩ ![1] hb1 (Host.divf (F := Ideal) (φ := .f32) (Host.reduceAdd (F := Ideal) (φ := .f32) h (constant (F := Ideal) ⟨0, ![]⟩ .f32 0x00000000#32) hred hu) (broadcastInDim ⟨1, ![N]⟩ ![] hzV (constant (F := Ideal) ⟨0, ![]⟩ .f32 nb)))))) (subf (F := Ideal) (φ := .f32) h (broadcastInDim ⟨2, ![R, N]⟩ ![0, 1] hB1 (broadcastInDim ⟨2, ![1, N]⟩ ![1] hb1 (Host.divf (F := Ideal) (φ := .f32) (Host.reduceAdd (F := Ideal) (φ := .f32) h (constant (F := Ideal) ⟨0, ![]⟩ .f32 0x00000000#32) hred hu) (broadcastInDim ⟨1, ![N]⟩ ![] hzV (constant (F := Ideal) ⟨0, ![]⟩ .f32 nb))))))) (constant (F := Ideal) ⟨0, ![]⟩ .f32 0x00000000#32) hred hu) (broadcastInDim ⟨1, ![N]⟩ ![] hzV (constant (F := Ideal) ⟨0, ![]⟩ .f32 nb))) (broadcastInDim ⟨1, ![N]⟩ ![] hzV (constant (F := Ideal) ⟨0, ![]⟩ .f32 eb))))))) (broadcastInDim ⟨2, ![R, N]⟩ ![0, 1] hB1 (broadcastInDim ⟨2, ![1, N]⟩ ![1] hb1 g))) (broadcastInDim ⟨2, ![R, N]⟩ ![0, 1] hB1 (broadcastInDim ⟨2, ![1, N]⟩ ![1] hb1 be)))
      = fun i => (h i - Cert.Spec.mean (Ideal.ofBits .f32 nb) h (i 1))
          * Ideal.rsqrt (Cert.Spec.varCentered (Ideal.ofBits .f32 nb) h (i 1) + Ideal.ofBits .f32 eb) * g (ix1 (i 1)) + be (ix1 (i 1)) := by
  funext i
  obtain ⟨p, q, rfl⟩ : ∃ (p : Fin R) (q : Fin N), i = ix2 p q := ⟨i 0, i 1, eq_ix2 i⟩
  have hcen : ∀ (p' : Fin R), (subf (F := Ideal) (φ := .f32) h (broadcastInDim ⟨2, ![R, N]⟩ ![0, 1] hB1 (broadcastInDim ⟨2, ![1, N]⟩ ![1] hb1 (Host.divf (F := Ideal) (φ := .f32) (Host.reduceAdd (F := Ideal) (φ := .f32) h (constant (F := Ideal) ⟨0, ![]⟩ .f32 0x00000000#32) hred hu) (broadcastInDim ⟨1, ![N]⟩ ![] hzV (constant (F := Ideal) ⟨0, ![]⟩ .f32 nb)))))) (ix2 p' q) = h (ix2 p' q) - Cert.Spec.mean (Ideal.ofBits .f32 nb) h q := fun p' => by
    rw [subf_apply, Cert.LibDense.bias_rows_apply, host_mean_apply]
  have hvar : (Host.divf (F := Ideal) (φ := .f32) (Host.reduceAdd (F := Ideal) (φ := .f32) (mulf (F := Ideal) (φ := .f32) (subf (F := Ideal) (φ := .f32) h (broadcastInDim ⟨2, ![R, N]⟩ ![0, 1] hB1 (broadcastInDim ⟨2, ![1, N]⟩ ![1] hb1 (Host.divf (F := Ideal) (φ := .f32) (Host.reduceAdd (F := Ideal) (φ := .f32) h (constant (F := Ideal) ⟨0, ![]⟩ .f32 0x00000000#32) hred hu) (broadcastInDim ⟨1, ![N]⟩ ![] hzV (constant (F := Ideal) ⟨0, ![]⟩ .f32 nb)))))) (subf (F := Ideal) (φ := .f32) h (broadcastInDim ⟨2, ![R, N]⟩ ![0, 1] hB1 (broadcastInDim ⟨2, ![1, N]⟩ ![1] hb1 (Host.divf (F := Ideal) (φ := .f32) (Host.reduceAdd (F := Ideal) (φ := .f32) h (constant (F := Ideal) ⟨0, ![]⟩ .f32 0x00000000#32) hred hu) (broadcastInDim ⟨1, ![N]⟩ ![] hzV (constant (F := Ideal) ⟨0, ![]⟩ .f32 nb))))))) (constant (F := Ideal) ⟨0, ![]⟩ .f32 0x00000000#32) hred hu) (broadcastInDim ⟨1, ![N]⟩ ![] hzV (constant (F := Ideal) ⟨0, ![]⟩ .f32 nb))) (ix1 q) = Cert.Spec.varCentered (Ideal.ofBits .f32 nb) h q := by
    rw [hostDivf_apply, colsum_apply, splat_apply]
    unfold Cert.Spec.varCentered
    congr 1
    exact Finset.sum_congr rfl fun p' _ => by rw [mulf_apply, hcen]
  rw [addf_apply, mulf_apply, mulf_apply, hcen, Cert.LibDense.bias_rows_apply, Cert.LibDense.bias_rows_apply, Cert.LibDense.bias_rows_apply,
    hostRsqrt_apply, addf_apply, hvar, splat_apply]
  rfl

/-! ## The affine layer, the host's spelling -/

/-- A sum over 256 columns is the sum over the first 128 plus the sum over the last 128. -/
theorem sum_cols (f : Fin 256 → EReal) :
    ∑ k : Fin 256, f k = (∑ k : Fin 128, f (Cert.Spec.colL k)) + ∑ k : Fin 128, f (Cert.Spec.colR k) :=
  Fin.sum_univ_add (a := 128) (b := 128) f

/-- The transposed weight at (k, q) is the weight at (q, k). -/
theorem wT_apply (w : FVec Ideal ⟨2, ![128, 256]⟩ .f32) (htr : (⟨2, ![128, 256]⟩ : Shape).Transposes [1, 0] ⟨2, ![256, 128]⟩)
    (k : Fin 256) (q : Fin 128) : transpose ⟨2, ![256, 128]⟩ [1, 0] w htr (ix2 k q) = w (ix2 q k) :=
  transpose_ix2_apply w htr k q

theorem host_lin {R : ℕ} (d : DotDims ⟨2, ![R, 256]⟩ ⟨2, ![256, 128]⟩ ⟨2, ![R, 128]⟩) (hd : d = DotDims.plain R 256 128)
    (a b : FVec Ideal ⟨2, ![R, 128]⟩ .f32) (w : FVec Ideal ⟨2, ![128, 256]⟩ .f32) (bias : FVec Ideal ⟨1, ![128]⟩ .f32)
    (hcat : Shape.Concatenates [(⟨2, ![R, 128]⟩ : Shape), ⟨2, ![R, 128]⟩] ⟨2, ![R, 256]⟩ (1 : Fin 2))
    (htr : (⟨2, ![128, 256]⟩ : Shape).Transposes [1, 0] ⟨2, ![256, 128]⟩)
    (hb1 : (⟨1, ![128]⟩ : Shape).BroadcastsInDim ⟨2, ![1, 128]⟩ ![1]) (hB1 : (⟨2, ![1, 128]⟩ : Shape).BroadcastsInDim ⟨2, ![R, 128]⟩ ![0, 1]) :
    (addf
      (Host.dotGeneral (F := Ideal) (φ₁ := .f32) (φ₂ := .f32) d none
        (concatenate ⟨2, ![R, 256]⟩ 1 [⟨⟨2, ![R, 128]⟩, a⟩, ⟨⟨2, ![R, 128]⟩, b⟩] hcat)
        (transpose ⟨2, ![256, 128]⟩ [1, 0] w htr))
      (broadcastInDim ⟨2, ![R, 128]⟩ ![0, 1] hB1 (broadcastInDim ⟨2, ![1, 128]⟩ ![1] hb1 bias)))
      = Cert.Spec.lin a b w (fun q => bias (ix1 q)) := by
  subst hd
  funext i
  obtain ⟨p, q, rfl⟩ : ∃ (p : Fin R) (q : Fin 128), i = ix2 p q := ⟨i 0, i 1, eq_ix2 i⟩
  rw [Cert.Spec.lin_ix2, addf_apply, Cert.LibDense.bias_rows_apply]
  congr 1
  simp only [Host.dotGeneral, Cert.LibMlp.dotGeneral_plain]
  rw [sum_cols]
  congr 1 <;> refine Finset.sum_congr rfl fun k _ => ?_
  · rw [wT_apply]
    exact congrArg (· * w (ix2 q (Cert.Spec.colL k)))
      (Cert.LibConcatCols.concat_cols_apply_left hcat a b p (Cert.Spec.colL k) k.isLt)
  · rw [wT_apply]
    refine congrArg (· * w (ix2 q (Cert.Spec.colR k))) ?_
    refine (Cert.LibConcatCols.concat_cols_apply_right hcat a b p (Cert.Spec.colR k)
      (by show ¬ 128 + k.val < 128; omega)).trans (congrArg b ?_)
    exact congrArg (ix2 p) (Fin.ext (by show 128 + k.val - 128 = k.val; omega))

/-! ## The pieces a layer is handed in: the transposed weight cut along its rows, a row of sums turned into statistics -/

/-- Rows 0 … 127 of the transposed weight: entry (k, q) is the weight at (q, k). -/
theorem wslice_left (w : FVec Ideal ⟨2, ![128, 256]⟩ .f32) (htr : (⟨2, ![128, 256]⟩ : Shape).Transposes [1, 0] ⟨2, ![256, 128]⟩)
    (hsl : (⟨2, ![256, 128]⟩ : Shape).Slices ![0, 0] ⟨2, ![128, 128]⟩) (k q : Fin 128) :
    extractStridedSlice ⟨2, ![128, 128]⟩ ![0, 0] (transpose ⟨2, ![256, 128]⟩ [1, 0] w htr) hsl (ix2 k q)
      = w (ix2 q (Cert.Spec.colL k)) :=
  (slice2_axis0_apply 0 _ hsl k q (Cert.Spec.colL k) (Nat.zero_add _).symm).trans (wT_apply w htr _ q)

/-- Rows 128 … 255 of the transposed weight: entry (k, q) is the weight at (q, 128 + k). -/
theorem wslice_right (w : FVec Ideal ⟨2, ![128, 256]⟩ .f32) (htr : (⟨2, ![128, 256]⟩ : Shape).Transposes [1, 0] ⟨2, ![256, 128]⟩)
    (hsl : (⟨2, ![256, 128]⟩ : Shape).Slices ![128, 0] ⟨2, ![128, 128]⟩) (k q : Fin 128) :
    extractStridedSlice ⟨2, ![128, 128]⟩ ![128, 0] (transpose ⟨2, ![256, 128]⟩ [1, 0] w htr) hsl (ix2 k q)
      = w (ix2 q (Cert.Spec.colR k)) :=
  (slice2_axis0_apply 128 _ hsl k q (Cert.Spec.colR k) rfl).trans (wT_apply w htr _ q)

/-- A vector laid out as one row reads, at (0, q), its entry q. -/
theorem row_of_vec_apply {N : ℕ} (v : FVec Ideal ⟨1, ![N]⟩ .f32) (hc : (⟨1, ![N]⟩ : Shape).ShapeCasts ⟨2, ![1, N]⟩) (u : Fin 1) (q : Fin N) :
    shapeCast ⟨2, ![1, N]⟩ v hc (ix2 u q) = v (ix1 q) :=
  shapeCast_a_1a_apply v hc u q

/-- A row of column sums divided by the constant n is the row of means. -/
theorem stats_mean_apply {R N : ℕ} (nb : BitVec 32) (h : Cert.Spec.Mat R N) (s : FVec Ideal ⟨2, ![1, N]⟩ .f32)
    (hz1 : (⟨0, ![]⟩ : Shape).BroadcastsInDim ⟨2, ![1, N]⟩ ![]) (u : Fin 1) (q : Fin N)
    (hs : s (ix2 u q) = Cert.Spec.colSum h q) :
    Host.divf (F := Ideal) (φ := .f32) s (broadcastInDim ⟨2, ![1, N]⟩ ![] hz1 (constant (F := Ideal) ⟨0, ![]⟩ .f32 nb)) (ix2 u q)
      = Cert.Spec.mean (Ideal.ofBits .f32 nb) h q := by
  rw [hostDivf_apply, splat_apply, hs]
  rfl

/-- The row of sums of squares divided by n, less the square of the row of means, is the variance as a difference of moments. -/
theorem stats_var_apply {R N : ℕ} (nb : BitVec 32) (h : Cert.Spec.Mat R N) (s sq : FVec Ideal ⟨2, ![1, N]⟩ .f32)
    (hz1 : (⟨0, ![]⟩ : Shape).BroadcastsInDim ⟨2, ![1, N]⟩ ![]) (u : Fin 1) (q : Fin N)
    (hs : s (ix2 u q) = Cert.Spec.colSum h q) (hsq : sq (ix2 u q) = Cert.Spec.colSumSq h q) :
    subf (F := Ideal) (φ := .f32)
        (Host.divf (F := Ideal) (φ := .f32) sq (broadcastInDim ⟨2, ![1, N]⟩ ![] hz1 (constant (F := Ideal) ⟨0, ![]⟩ .f32 nb)))
        (mulf (F := Ideal) (φ := .f32)
          (Host.divf (F := Ideal) (φ := .f32) s (broadcastInDim ⟨2, ![1, N]⟩ ![] hz1 (constant (F := Ideal) ⟨0, ![]⟩ .f32 nb)))
          (Host.divf (F := Ideal) (φ := .f32) s (broadcastInDim ⟨2, ![1, N]⟩ ![] hz1 (constant (F := Ideal) ⟨0, ![]⟩ .f32 nb))))
        (ix2 u q)
      = Cert.Spec.varMoments (Ideal.ofBits .f32 nb) h q := by
  rw [subf_apply, mulf_apply, hostDivf_apply, hostDivf_apply, splat_apply, hs, hsq]
  rfl

end Cert.ReadHost

end
-- ==== Proof.KVal0.lean ====
/-
  REGION 0'S AFFINE OUTPUT IN THE SPECIFICATION'S TERMS. When the region is entered with the two activation arrays, the two
  128×128 pieces of a weight `W : [128, 256]` (the first and the second 128 rows of its transpose) and a bias vector laid
  out as one row, the layer's output array is `lin` of them: entry `(p, q)` is row `p` of the first array against
  columns `0 … 127` of row `q` of `W`, plus row `p` of the second against columns `128 … 255`, plus `bias q`.
-/
import proofs.«127109_j5042291605552_1_alg».proof.Proof.Region0Arr
import proofs.«127109_j5042291605552_1_alg».proof.Proof.ReadVec
import proofs.«127109_j5042291605552_1_alg».proof.Proof.ReadHost
import proofs.«127109_j5042291605552_1_alg».proof.Proof.KHost
import proofs.«127109_j5042291605552_1_alg».proof.Proof.Spec

set_option maxRecDepth 16384

noncomputable section

namespace Cert.KernelIdeal.Hand

open Cert.KernelIdeal.Gen Cert.KernelIdeal.GenP

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem region0_out (V : (c : Dev nD) → (b : Ref sig .tc) → Buf (Elt Ideal) ((c : Thread nD τ).loc b)) (c : Dev nD)
    (XA XB : S800000x128.Idx → EReal) (W : FVec Ideal S128x256 .f32) (Bv : FVec Ideal S128 .f32)
    (hA : (V c main_v10 : S800000x128.Idx → EReal) = XA) (hB : (V c main_arg2 : S800000x128.Idx → EReal) = XB)
    (hWA : (V c main_v12 : S128x128.Idx → EReal) = wA (F := Ideal) W) (hWB : (V c main_v13 : S128x128.Idx → EReal) = wB (F := Ideal) W)
    (hBI : (V c main_v14 : S1x128.Idx → EReal) = rowOf (F := Ideal) Bv) :
    ((dat0 V c).arrAt 5 cfg0.N : S800000x128.Idx → EReal) = Cert.Spec.lin XA XB W (fun q => Bv (ix1 q)) := by
  rw [R0.final5 V (fun ra rb wa wb bi q => Cert.ReadVec.affRow ra rb wa wb bi q)
    (fun x0 x1 x2 x3 x4 j => Cert.ReadVec.k0_pay5_apply x0 x1 x2 x3 x4 j) c]
  funext i
  obtain ⟨p, q, rfl⟩ : ∃ (p : Fin 800000) (q : Fin 128), i = ix2 p q := ⟨i 0, i 1, eq_ix2 i⟩
  show Cert.ReadVec.affRow (fun k => (V c main_v10 : S800000x128.Idx → EReal) (ix2 p k)) (fun k => (V c main_arg2 : S800000x128.Idx → EReal) (ix2 p k))
      (V c main_v12 : S128x128.Idx → EReal) (V c main_v13 : S128x128.Idx → EReal) (V c main_v14 : S1x128.Idx → EReal) q = _
  rw [hA, hB, hWA, hWB, hBI, Cert.Spec.lin_ix2]
  unfold Cert.ReadVec.affRow wA wB rowOf
  have hl : ∀ k : Fin 128, extractStridedSlice S128x128 ![0, 0] (transpose S256x128 [1, 0] W transposes_S128x256_S256x128_1_0)
      slices_S256x128_S128x128_0_0 (ix2 k q) = W (ix2 q (Cert.Spec.colL k)) := fun k => Cert.ReadHost.wslice_left W _ _ k q
  have hr : ∀ k : Fin 128, extractStridedSlice S128x128 ![128, 0] (transpose S256x128 [1, 0] W transposes_S128x256_S256x128_1_0)
      slices_S256x128_S128x128_128_0 (ix2 k q) = W (ix2 q (Cert.Spec.colR k)) := fun k => Cert.ReadHost.wslice_right W _ _ k q
  simp only [hl, hr, Cert.ReadHost.row_of_vec_apply]

end Cert.KernelIdeal.Hand

end
-- ==== Proof.Region1.lean ====
/-
  REGION 1 (normalise, scale, shift, activate), FROM BLOCKS TO THE ARRAY. The region's grid has 125 points; point `t`
  reads rows `6400·t … 6400·t + 6399` of the activations and the four one-row operands (mean, variance, scale, shift), and
  writes the same rows of the output. The body acts entry by entry: entry `(p, q)` of the block depends on entry `(p, q)`
  of the activations' block and on column `q` of each row operand. Hence the output array, after the last point, is ONE
  function of the arrays the region was entered with, index by index: every index lies in exactly the block of the
  point `(row / 6400)`, and the blocks of all points together cover the array.
  The body's entrywise law is a hypothesis here (`hpay`), so that this module is about the tiling only.
-/
import proofs.«127109_j5042291605552_1_alg».proof.Proof.KernelIdealFrameP
import Idealize.ShloMosaic.Lib.Pipeline.Value
import Idealize.ShloMosaic.Lib.ValueIdx

set_option maxRecDepth 16384

noncomputable section

namespace Cert.KernelIdeal.Hand.R1

open Cert.KernelIdeal.Gen Cert.KernelIdeal.GenP

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The whole-array function: entry `i` from entry `i` of the activations and column `i 1` of the four rows. -/
def G (g : Elt F .bf16 → Elt F .f32 → Elt F .f32 → Elt F .f32 → Elt F .f32 → Elt F .f32)
    (H : S800000x128.Idx → Elt F .bf16) (MU VAR GA BE : S1x128.Idx → Elt F .f32) : S800000x128.Idx → Elt F .f32 :=
  fun i => g (H i) (MU (ix2 (0 : Fin 1) (i 1))) (VAR (ix2 (0 : Fin 1) (i 1))) (GA (ix2 (0 : Fin 1) (i 1))) (BE (ix2 (0 : Fin 1) (i 1)))

/-- The printed index maps, decided over the grid: the activations' and the output's block is `(t, 0)`, every row
    operand's block is `(0, 0)`. -/
theorem idx_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (g : Elt F .bf16 → Elt F .f32 → Elt F .f32 → Elt F .f32 → Elt F .f32 → Elt F .f32)
variable (hpay : ∀ (x0 : Vec F S6400x128 .bf16) (x1 x2 x3 x4 : Vec F S1x128 .f32) (j : S6400x128.Idx),
    k1_pay1 x0 x2 x1 x3 x4 j
      = g (x0 j) (x1 (ix2 (0 : Fin 1) (j 1))) (x2 (ix2 (0 : Fin 1) (j 1))) (x3 (ix2 (0 : Fin 1) (j 1))) (x4 (ix2 (0 : Fin 1) (j 1))))

set_option maxHeartbeats 2000000 in
include hpay in
/-- WHAT POINT `t` WRITES BACK is block `t` of `G` of the arrays as the region finds them. -/
theorem flushed_eq (c : Dev nD) (t : Fin cfg1.N) :
    (dat1 V c).flushed 5 t = ((cfg1.win 5).blk t).view.read (Elt F)
      (G g (V c main_v15_0) (V c main_v17) (V c main_v21) (V c main_v22) (V c main_v23)) := by
  show (cfg1.win 5).cut (grid1.coords t) ((dat1 V c).after 5 t) = _
  rw [after1_5]
  unfold out1_5
  rw [View.canon_unit_zero hz]
  simp only [View.ld_unit_zero (S := S6400x128) hz, View.ld_unit_zero (S := S1x128) hz]
  obtain ⟨e00, e01, e50, e51, e10, e11, e20, e21, e30, e31, e40, e41⟩ := idx_facts t
  funext j
  refine (hpay _ _ _ _ _ j).trans ?_
  show g (V c main_v15_0 (((cfg1.win 0).blk t).view.emb j))
      (V c main_v17 (((cfg1.win 1).blk t).view.emb (ix2 (0 : Fin 1) (j 1))))
      (V c main_v21 (((cfg1.win 2).blk t).view.emb (ix2 (0 : Fin 1) (j 1))))
      (V c main_v22 (((cfg1.win 3).blk t).view.emb (ix2 (0 : Fin 1) (j 1))))
      (V c main_v23 (((cfg1.win 4).blk t).view.emb (ix2 (0 : Fin 1) (j 1))))
    = g (V c main_v15_0 (((cfg1.win 5).blk t).view.emb j))
      (V c main_v17 (ix2 (0 : Fin 1) ((((cfg1.win 5).blk t).view.emb j) 1)))
      (V c main_v21 (ix2 (0 : Fin 1) ((((cfg1.win 5).blk t).view.emb j) 1)))
      (V c main_v22 (ix2 (0 : Fin 1) ((((cfg1.win 5).blk t).view.emb j) 1)))
      (V c main_v23 (ix2 (0 : Fin 1) ((((cfg1.win 5).blk t).view.emb j) 1)))
  have h0 : ((cfg1.win 0).blk t).view.emb j = ((cfg1.win 5).blk t).view.emb j := by
    funext a; apply Fin.ext
    match a with
    | ⟨0, _⟩ => show win1_0.index t (0 : Fin 2) * 6400 + 1 * (j 0).val = win1_5.index t (0 : Fin 2) * 6400 + 1 * (j 0).val; omega
    | ⟨1, _⟩ => show win1_0.index t (1 : Fin 2) * 128 + 1 * (j 1).val = win1_5.index t (1 : Fin 2) * 128 + 1 * (j 1).val; omega
  have h1 : ((cfg1.win 1).blk t).view.emb (ix2 (0 : Fin 1) (j 1)) = ix2 (0 : Fin 1) ((((cfg1.win 5).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_5.index t (1 : Fin 2) * 128 + 1 * (j 1).val; omega
  have h2 : ((cfg1.win 2).blk t).view.emb (ix2 (0 : Fin 1) (j 1)) = ix2 (0 : Fin 1) ((((cfg1.win 5).blk t).view.emb j) 1) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_5.index t (1 : Fin 2) * 128 + 1 * (j 1).val; omega
  have h3 : ((cfg1.win 3).blk t).view.emb (ix2 (0 : Fin 1) (j 1)) = ix2 (0 : Fin 1) ((((cfg1.win 5).blk t).view.emb j) 1) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  have h4 : ((cfg1.win 4).blk t).view.emb (ix2 (0 : Fin 1) (j 1)) = ix2 (0 : Fin 1) ((((cfg1.win 5).blk t).view.emb j) 1) := by
    funext a; apply Fin.ext
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  rw [h0, h1, h2, h3, h4]
  rfl

/-- An index of the output array is in point `t`'s block iff each coordinate is in the block's range on its axis. -/
theorem mem_blk (t : Fin cfg1.N) (i : S800000x128.Idx) :
    i ∈ ((cfg1.win 5).blk t).view.set ↔ ∀ a : Fin 2, win1_5.index t a * S6400x128.size a ≤ (i a).val ∧ (i a).val < win1_5.index t a * S6400x128.size a + S6400x128.size a := by
  show i ∈ ((View.whole main_v24).slice (win1_5.rect t)).set ↔ _
  rw [View.set_slice_whole, Rect.mem_set_unit]
  exact Iff.rfl

/-- Every index of the output array is in the block of the point `row / 6400`. -/
theorem cover (i : S800000x128.Idx) : ∃ t : Fin cfg1.N, (cfg1.win 5).flush t = true ∧ i ∈ ((cfg1.win 5).blk t).view.set := by
  have hi0 : (i 0).val < 800000 := (i 0).isLt
  have hi1 : (i 1).val < 128 := (i 1).isLt
  have hN : cfg1.N = 125 := N_1
  refine ⟨⟨(i 0).val / 6400, by rw [hN]; omega⟩, flush1_5 _, ?_⟩
  rw [mem_blk]
  obtain ⟨e00, e01, e50, e51, _⟩ := idx_facts ⟨(i 0).val / 6400, by rw [hN]; omega⟩
  intro a
  match a with
  | ⟨0, _⟩ =>
    show win1_5.index _ (0 : Fin 2) * 6400 ≤ (i 0).val ∧ (i 0).val < win1_5.index _ (0 : Fin 2) * 6400 + 6400
    rw [e50]; show (i 0).val / 6400 * 6400 ≤ (i 0).val ∧ (i 0).val < (i 0).val / 6400 * 6400 + 6400; omega
  | ⟨1, _⟩ =>
    show win1_5.index _ (1 : Fin 2) * 128 ≤ (i 1).val ∧ (i 1).val < win1_5.index _ (1 : Fin 2) * 128 + 128
    rw [e51]; omega

include hpay in
/-- THE OUTPUT ARRAY after the region: `G` of the arrays the region was entered with. -/
theorem final (c : Dev nD) : (dat1 V c).arrAt 5 cfg1.N
    = G g (V c main_v15_0) (V c main_v17) (V c main_v21) (V c main_v22) (V c main_v23) :=
  (dat1 V c).arrAt_eq_of_cover 5 _ (fun t _ => flushed_eq V g hpay c t) cover

end Cert.KernelIdeal.Hand.R1

end
-- ==== Proof.KVal1.lean ====
/-
  REGION 1'S OUTPUT IN THE SPECIFICATION'S TERMS. When the region is entered with the activations `H`, a mean row `mu`, a
  variance row `var` and the scale and shift vectors laid out as one row each, its output array is `normAct` of them:
  every entry is normalised by its column's mean and variance, scaled, shifted and passed through the exponential linear
  unit. (The body's entrywise law is the vector unit's reading; the tiling is the region module's.)
-/
import proofs.«127109_j5042291605552_1_alg».proof.Proof.Region1
import proofs.«127109_j5042291605552_1_alg».proof.Proof.ReadVec
import proofs.«127109_j5042291605552_1_alg».proof.Proof.ReadHost
import proofs.«127109_j5042291605552_1_alg».proof.Proof.KHost
import proofs.«127109_j5042291605552_1_alg».proof.Proof.Spec

set_option maxRecDepth 16384

noncomputable section

namespace Cert.KernelIdeal.Hand

open Cert.KernelIdeal.Gen Cert.KernelIdeal.GenP

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The three literals of the normalisation: the variance's offset, the unit's threshold and its subtrahend. -/
abbrev EPS : EReal := Ideal.ofBits .f32 0x3727C5AC#32
abbrev ZW : EReal := Ideal.ofBits .f32 0x00000000#32
abbrev OW : EReal := Ideal.ofBits .f32 0x3F800000#32

theorem region1_value (V : (c : Dev nD) → (b : Ref sig .tc) → Buf (Elt Ideal) ((c : Thread nD τ).loc b)) (c : Dev nD)
    (H : S800000x128.Idx → EReal) (mu var : Fin 128 → EReal) (G BE : FVec Ideal S128 .f32)
    (hH : (V c main_v15_0 : S800000x128.Idx → EReal) = H)
    (hMU : ∀ q : Fin 128, (V c main_v17 : S1x128.Idx → EReal) (ix2 (0 : Fin 1) q) = mu q)
    (hVAR : ∀ q : Fin 128, (V c main_v21 : S1x128.Idx → EReal) (ix2 (0 : Fin 1) q) = var q)
    (hG : (V c main_v22 : S1x128.Idx → EReal) = rowOf (F := Ideal) G)
    (hBE : (V c main_v23 : S1x128.Idx → EReal) = rowOf (F := Ideal) BE) :
    ((dat1 V c).arrAt 5 cfg1.N : S800000x128.Idx → EReal)
      = Cert.Spec.normAct EPS ZW OW H mu var (fun q => G (ix1 q)) (fun q => BE (ix1 q)) := by
  rw [R1.final V Cert.ReadVec.normEl (fun x0 x1 x2 x3 x4 j => Cert.ReadVec.k1_pay1_apply x0 x2 x1 x3 x4 j) c]
  funext i
  obtain ⟨p, q, rfl⟩ : ∃ (p : Fin 800000) (q : Fin 128), i = ix2 p q := ⟨i 0, i 1, eq_ix2 i⟩
  show Cert.ReadVec.normEl ((V c main_v15_0 : S800000x128.Idx → EReal) (ix2 p q)) ((V c main_v17 : S1x128.Idx → EReal) (ix2 (0 : Fin 1) q))
      ((V c main_v21 : S1x128.Idx → EReal) (ix2 (0 : Fin 1) q)) ((V c main_v22 : S1x128.Idx → EReal) (ix2 (0 : Fin 1) q))
      ((V c main_v23 : S1x128.Idx → EReal) (ix2 (0 : Fin 1) q)) = _
  rw [hH, hMU, hVAR, hG, hBE, Cert.Spec.normAct_ix2]
  unfold rowOf
  rw [Cert.ReadHost.row_of_vec_apply, Cert.ReadHost.row_of_vec_apply]
  rfl

end Cert.KernelIdeal.Hand

end
-- ==== Proof.Region2Cases.lean ====
/-
  REGION 2 (the affine layer with its running column statistics), CASE BY CASE. The body runs in two cases: at the first
  grid point it first clears the two one-row accumulators, at every later point it finds them as the point before left
  them. In both cases it leaves, in the block of the layer's output, the affine map of the point's rows, and in the
  accumulators their previous contents (the cleared row at the first point) plus the column sums, resp. the column sums
  of squares, of that block. So what the three output buffers hold after point `n` is a RUNNING form: the block of the
  point, and two rows defined by recursion on the point. No arithmetic is opened here: the payloads stay named.
-/
import proofs.«127109_j5042291605552_1_alg».proof.Proof.KernelIdealFrameP
import Idealize.ShloMosaic.Lib.Pipeline.Value
import Idealize.ShloMosaic.Lib.ValueIdx

set_option maxRecDepth 16384

noncomputable section

namespace Cert.KernelIdeal.Hand.R2

open Cert.KernelIdeal.Gen Cert.KernelIdeal.GenP

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

/-! ## What each case leaves in each output buffer -/

/-- First point, the layer's output block: the affine map of the point's rows. -/
theorem outA5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S5000x128 .f32) (x2 : Vec F S128x128 .f32) (x3 : Vec F S128x128 .f32) (x4 : Vec F S1x128 .f32) :
    out2_A_5 c i a1 h1 a2 h2 a3 h3 a4 h4 a5 h5 a6 h6 a7 h7 a8 h8 hc x0 x1 x2 x3 x4 = k2_pay4 x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

/-- Later points, the layer's output block: the same. -/
theorem outB5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S5000x128 .f32) (x2 : Vec F S128x128 .f32) (x3 : Vec F S128x128 .f32) (x4 : Vec F S1x128 .f32) (xo6 xo7 : Vec F S1x128 .f32) :
    out2_B_5 c i a1 h1 a2 h2 a3 h3 a4 h4 a5 h5 a6 h6 a7 h7 a8 h8 hc x0 x1 x2 x3 x4 xo6 xo7 = k2_pay4 x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

/-- First point, the sums' row: the cleared row plus the block's column sums (the row is stored cleared, read back, added to). -/
theorem outA6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S5000x128 .f32) (x2 : Vec F S128x128 .f32) (x3 : Vec F S128x128 .f32) (x4 : Vec F S1x128 .f32) :
    out2_A_6 c i a1 h1 a2 h2 a3 h3 a4 h4 a5 h5 a6 h6 a7 h7 a8 h8 hc x0 x1 x2 x3 x4 = k2_pay5 x0 x1 x2 x3 x4 k2_pay2 := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

/-- Later points, the sums' row: what the point before left plus the block's column sums. -/
theorem outB6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S5000x128 .f32) (x2 : Vec F S128x128 .f32) (x3 : Vec F S128x128 .f32) (x4 : Vec F S1x128 .f32) (xo6 xo7 : Vec F S1x128 .f32) :
    out2_B_6 c i a1 h1 a2 h2 a3 h3 a4 h4 a5 h5 a6 h6 a7 h7 a8 h8 hc x0 x1 x2 x3 x4 xo6 xo7 = k2_pay5 x0 x1 x2 x3 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

/-- First point, the sums of squares' row: the cleared row plus the block's column sums of squares. -/
theorem outA7 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S5000x128 .f32) (x2 : Vec F S128x128 .f32) (x3 : Vec F S128x128 .f32) (x4 : Vec F S1x128 .f32) :
    out2_A_7 c i a1 h1 a2 h2 a3 h3 a4 h4 a5 h5 a6 h6 a7 h7 a8 h8 hc x0 x1 x2 x3 x4 = k2_pay1 (k2_pay6 k2_pay3) (k2_pay7 x0 x1 x2 x3 x4) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

/-- Later points, the sums of squares' row: what the point before left plus the block's column sums of squares. -/
theorem outB7 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S5000x128 .f32) (x2 : Vec F S128x128 .f32) (x3 : Vec F S128x128 .f32) (x4 : Vec F S1x128 .f32) (xo6 xo7 : Vec F S1x128 .f32) :
    out2_B_7 c i a1 h1 a2 h2 a3 h3 a4 h4 a5 h5 a6 h6 a7 h7 a8 h8 hc x0 x1 x2 x3 x4 xo6 xo7 = k2_pay1 (k2_pay6 xo7) (k2_pay7 x0 x1 x2 x3 x4) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x128) hz, View.ld_unit_zero (S := S1x128) hz]

/-! ## The running form -/

variable (V : (c : Dev nD) → (b : Ref sig .tc) → Buf (Elt F) ((c : Thread nD τ).loc b))

/-- The sums' row after point `n`. -/
def acc6 (c : Dev nD) : (n : ℕ) → n < cfg2.N → Vec F S1x128 .f32
  | 0, h => (fun x0 x1 x2 x3 x4 => (k2_pay5 x0 x1 x2 x3 x4 k2_pay2 : Vec F S1x128 .f32)) (iblk2 V c 0 ⟨0, h⟩) (iblk2 V c 1 ⟨0, h⟩) (iblk2 V c 2 ⟨0, h⟩) (iblk2 V c 3 ⟨0, h⟩) (iblk2 V c 4 ⟨0, h⟩)
  | n + 1, h => (fun x0 x1 x2 x3 x4 xo6 => (k2_pay5 x0 x1 x2 x3 x4 xo6 : Vec F S1x128 .f32)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (acc6 c n (Nat.lt_of_succ_lt h))

/-- The sums of squares' row after point `n`. -/
def acc7 (c : Dev nD) : (n : ℕ) → n < cfg2.N → Vec F S1x128 .f32
  | 0, h => (fun x0 x1 x2 x3 x4 => (k2_pay1 (k2_pay6 k2_pay3) (k2_pay7 x0 x1 x2 x3 x4) : Vec F S1x128 .f32)) (iblk2 V c 0 ⟨0, h⟩) (iblk2 V c 1 ⟨0, h⟩) (iblk2 V c 2 ⟨0, h⟩) (iblk2 V c 3 ⟨0, h⟩) (iblk2 V c 4 ⟨0, h⟩)
  | n + 1, h => (fun x0 x1 x2 x3 x4 xo7 => (k2_pay1 (k2_pay6 xo7) (k2_pay7 x0 x1 x2 x3 x4) : Vec F S1x128 .f32)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (acc7 c n (Nat.lt_of_succ_lt h))

/-- What the three output buffers hold after point `n`: the point's block of the layer's output, and the two running rows
    — by induction on the point. -/
theorem outsAt_eq (c : Dev nD) : ∀ (n : ℕ) (h : n < cfg2.N),
    outsAt2 V c n h = (k2_pay4 (iblk2 V c 0 ⟨n, h⟩) (iblk2 V c 1 ⟨n, h⟩) (iblk2 V c 2 ⟨n, h⟩) (iblk2 V c 3 ⟨n, h⟩) (iblk2 V c 4 ⟨n, h⟩), acc6 V c n h, acc7 V c n h)
  | 0, h => by
    rw [outsAt2_A V c ⟨0, h⟩ rfl, outA5, outA6, outA7]
    rfl
  | n + 1, h => by
    have hN : cfg2.N = 10 := N_2
    have hB : ¬(⟨n + 1, h⟩ : Fin cfg2.N).val % 10 = 0 := by dsimp only; omega
    rw [outsAt2_B V c ⟨n + 1, h⟩ hB, outB5, outB6, outB7]
    have ih := outsAt_eq c n (Nat.lt_of_succ_lt h)
    show (_, (fun x0 x1 x2 x3 x4 xo6 => (k2_pay5 x0 x1 x2 x3 x4 xo6 : Vec F S1x128 .f32)) _ _ _ _ _ (outsAt2 V c n _).2.1,
        (fun x0 x1 x2 x3 x4 xo7 => (k2_pay1 (k2_pay6 xo7) (k2_pay7 x0 x1 x2 x3 x4) : Vec F S1x128 .f32)) _ _ _ _ _ (outsAt2 V c n _).2.2) = _
    rw [ih]
    rfl

end Cert.KernelIdeal.Hand.R2

end
-- ==== Proof.Region2Arr.lean ====
/-
  REGION 2 (the affine layer with its running column statistics), FROM BLOCKS TO ARRAYS. Point `t` of the 10 reads rows
  `5000·t … 5000·t + 4999` of the two activation arrays, the two whole 128×128 weight pieces and the bias row, and writes the
  same rows of the layer's output; entry `(p, q)` of the block depends on row `p` of the two activation blocks, on the
  weights and on the bias, which is a hypothesis here (`hpay`). Hence the output array after the region is one function
  of the arrays the region was entered with. The two accumulator rows are written back once, after the last point, and
  their arrays then hold the running rows of the case module at that point.
-/
import proofs.«127109_j5042291605552_1_alg».proof.Proof.Region2Cases

set_option maxRecDepth 16384

noncomputable section

namespace Cert.KernelIdeal.Hand.R2

open Cert.KernelIdeal.Gen Cert.KernelIdeal.GenP

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

/-- The whole-array function of the layer's output: entry `i` from row `i 0` of the two activation arrays, the weight
    pieces and the bias row. -/
def G5 (f : (Fin 128 → Elt F .f32) → (Fin 128 → Elt F .f32) → Vec F S128x128 .f32 → Vec F S128x128 .f32 → Vec F S1x128 .f32 → Fin 128 → Elt F .f32)
    (A B : S50000x128.Idx → Elt F .f32) (WA WB : S128x128.Idx → Elt F .f32) (BI : S1x128.Idx → Elt F .f32) : S50000x128.Idx → Elt F .f32 :=
  fun i => f (fun k => A (ix2 (i 0) k)) (fun k => B (ix2 (i 0) k)) WA WB BI (i 1)

/-- The printed index maps, decided over the grid: the activations' and the output's block is `(t, 0)`; the weight
    pieces', the bias row's and the accumulators' block is `(0, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_5.index t (0 : Fin 2) = t.val ∧ win2_5.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- A window whose one block is the whole array: its block at any point is the array. -/
theorem iblk2_eq (c : Dev nD) (t : Fin cfg2.N) : (iblk2 V c 2 t : Vec F S128x128 .f32) = V c main_v38 := by
  obtain ⟨_, _, _, _, _, _, e20, e21, _⟩ := idx_facts t
  funext y
  show V c main_v38 (((cfg2.win 2).blk t).view.emb y) = V c main_v38 y
  refine congrArg (V c main_v38) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

theorem iblk3_eq (c : Dev nD) (t : Fin cfg2.N) : (iblk2 V c 3 t : Vec F S128x128 .f32) = V c main_v39 := by
  obtain ⟨_, _, _, _, _, _, _, _, e30, e31, _⟩ := idx_facts t
  funext y
  show V c main_v39 (((cfg2.win 3).blk t).view.emb y) = V c main_v39 y
  refine congrArg (V c main_v39) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

theorem iblk4_eq (c : Dev nD) (t : Fin cfg2.N) : (iblk2 V c 4 t : Vec F S1x128 .f32) = V c main_v40 := by
  obtain ⟨_, _, _, _, _, _, _, _, _, _, e40, e41, _⟩ := idx_facts t
  funext y
  show V c main_v40 (((cfg2.win 4).blk t).view.emb y) = V c main_v40 y
  refine congrArg (V c main_v40) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- An activation block's row `p` is the array's row `5000·t + p`. -/
theorem iblk0_row (c : Dev nD) (t : Fin cfg2.N) (j : S5000x128.Idx) (k : Fin 128) :
    (iblk2 V c 0 t : Vec F S5000x128 .f32) (ix2 (j 0) k) = V c main_arg0 (ix2 ((((cfg2.win 5).blk t).view.emb j) 0) k) := by
  obtain ⟨e00, e01, _, _, e50, e51, _⟩ := idx_facts t
  show V c main_arg0 (((cfg2.win 0).blk t).view.emb (ix2 (j 0) k)) = _
  refine congrArg (V c main_arg0) (funext fun a => Fin.ext ?_)
  match a with
  | ⟨0, _⟩ => show win2_0.index t (0 : Fin 2) * 5000 + 1 * (j 0).val = win2_5.index t (0 : Fin 2) * 5000 + 1 * (j 0).val; omega
  | ⟨1, _⟩ => show win2_0.index t (1 : Fin 2) * 128 + 1 * k.val = k.val; omega

theorem iblk1_row (c : Dev nD) (t : Fin cfg2.N) (j : S5000x128.Idx) (k : Fin 128) :
    (iblk2 V c 1 t : Vec F S5000x128 .f32) (ix2 (j 0) k) = V c main_v36 (ix2 ((((cfg2.win 5).blk t).view.emb j) 0) k) := by
  obtain ⟨_, _, e10, e11, e50, e51, _⟩ := idx_facts t
  show V c main_v36 (((cfg2.win 1).blk t).view.emb (ix2 (j 0) k)) = _
  refine congrArg (V c main_v36) (funext fun a => Fin.ext ?_)
  match a with
  | ⟨0, _⟩ => show win2_1.index t (0 : Fin 2) * 5000 + 1 * (j 0).val = win2_5.index t (0 : Fin 2) * 5000 + 1 * (j 0).val; omega
  | ⟨1, _⟩ => show win2_1.index t (1 : Fin 2) * 128 + 1 * k.val = k.val; omega

variable (f : (Fin 128 → Elt F .f32) → (Fin 128 → Elt F .f32) → Vec F S128x128 .f32 → Vec F S128x128 .f32 → Vec F S1x128 .f32 → Fin 128 → Elt F .f32)
variable (hpay : ∀ (x0 x1 : Vec F S5000x128 .f32) (x2 x3 : Vec F S128x128 .f32) (x4 : Vec F S1x128 .f32) (j : S5000x128.Idx),
    k2_pay4 x0 x1 x2 x3 x4 j = f (fun k => x0 (ix2 (j 0) k)) (fun k => x1 (ix2 (j 0) k)) x2 x3 x4 (j 1))

set_option maxHeartbeats 2000000 in
include hpay in
/-- WHAT POINT `t` WRITES BACK of the layer's output is block `t` of `G5` of the arrays as the region finds them. -/
theorem flushed5_eq (c : Dev nD) (t : Fin cfg2.N) :
    (dat2 V c).flushed 5 t = ((cfg2.win 5).blk t).view.read (Elt F)
      (G5 f (V c main_arg0) (V c main_v36) (V c main_v38) (V c main_v39) (V c main_v40)) := by
  show (cfg2.win 5).cut (grid2.coords t) ((dat2 V c).after 5 t) = _
  rw [after2_5, outsAt_eq]
  obtain ⟨_, _, _, _, e50, e51, _⟩ := idx_facts t
  funext j
  refine (hpay _ _ _ _ _ j).trans ?_
  rw [iblk2_eq, iblk3_eq, iblk4_eq]
  have e0 : (fun k => (iblk2 V c 0 t : Vec F S5000x128 .f32) (ix2 (j 0) k)) = fun k => V c main_arg0 (ix2 ((((cfg2.win 5).blk t).view.emb j) 0) k) :=
    funext fun k => iblk0_row V c t j k
  have e1 : (fun k => (iblk2 V c 1 t : Vec F S5000x128 .f32) (ix2 (j 0) k)) = fun k => V c main_v36 (ix2 ((((cfg2.win 5).blk t).view.emb j) 0) k) :=
    funext fun k => iblk1_row V c t j k
  have e6 : (((cfg2.win 5).blk t).view.emb j) 1 = j 1 := Fin.ext (by
    show win2_5.index t (1 : Fin 2) * 128 + 1 * (j 1).val = (j 1).val; omega)
  rw [e0, e1]
  show f _ _ _ _ _ (j 1) = f _ _ _ _ _ ((((cfg2.win 5).blk t).view.emb j) 1)
  rw [e6]

/-- An index of the output array is in point `t`'s block iff each coordinate is in the block's range on its axis. -/
theorem mem_blk5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v41_0).slice (win2_5.rect t)).set ↔ _
  rw [View.set_slice_whole, Rect.mem_set_unit]
  exact Iff.rfl

/-- Every index of the output array is in the block of the point `row / 5000`. -/
theorem cover5 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_5 _, ?_⟩
  rw [mem_blk5]
  obtain ⟨_, _, _, _, e50, e51, _⟩ := idx_facts ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [e50]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [e51]; omega

include hpay in
/-- THE LAYER'S OUTPUT ARRAY after the region. -/
theorem final5 (c : Dev nD) : (dat2 V c).arrAt 5 cfg2.N
    = G5 f (V c main_arg0) (V c main_v36) (V c main_v38) (V c main_v39) (V c main_v40) :=
  (dat2 V c).arrAt_eq_of_cover 5 _ (fun t _ => flushed5_eq V f hpay c t) cover5

/-! ## The two accumulator rows: one write-back, after the last point -/

theorem last_lt : 9 < cfg2.N := by rw [show cfg2.N = 10 from N_2]; omega

/-- The sums' row when it is written back. -/
abbrev row6 (c : Dev nD) : Vec F S1x128 .f32 := acc6 V c 9 last_lt
/-- The sums of squares' row when it is written back. -/
abbrev row7 (c : Dev nD) : Vec F S1x128 .f32 := acc7 V c 9 last_lt

theorem flushed6_eq (c : Dev nD) (t : Fin cfg2.N) (hf : (cfg2.win 6).flush t = true) :
    (dat2 V c).flushed 6 t = ((cfg2.win 6).blk t).view.read (Elt F) (row6 V c) := by
  have hN : cfg2.N = 10 := N_2
  have hl : t.val = 9 := by have := (flush2_6 t).mp hf; have := t.isLt; omega
  obtain ⟨_, _, _, _, _, _, _, _, _, _, _, _, e60, e61, _⟩ := idx_facts t
  show (cfg2.win 6).cut (grid2.coords t) ((dat2 V c).after 6 t) = _
  rw [after2_6, outsAt_eq]
  have hacc : acc6 V c t.val t.isLt = row6 V c := by
    obtain ⟨n, hn⟩ := t
    dsimp only at hl
    subst hl
    rfl
  show (cfg2.win 6).cut (grid2.coords t) (acc6 V c t.val t.isLt) = _
  rw [hacc]
  have hz' : (fun a => win2_6.index t a * main_v41_1.ty.shape.size a) = fun _ => 0 := funext fun a => by
    match a with
    | ⟨0, _⟩ => show win2_6.index t (0 : Fin 2) * 1 = 0; omega
    | ⟨1, _⟩ => show win2_6.index t (1 : Fin 2) * 128 = 0; omega
  exact (Memref.read_access_unit_zero (Elt F) main_v41_1 hz' (fun a => by rw [congrFun hz' a]; simp) (row6 V c)).symm

theorem flushed7_eq (c : Dev nD) (t : Fin cfg2.N) (hf : (cfg2.win 7).flush t = true) :
    (dat2 V c).flushed 7 t = ((cfg2.win 7).blk t).view.read (Elt F) (row7 V c) := by
  have hN : cfg2.N = 10 := N_2
  have hl : t.val = 9 := by have := (flush2_7 t).mp hf; have := t.isLt; omega
  obtain ⟨_, _, _, _, _, _, _, _, _, _, _, _, _, _, e70, e71⟩ := idx_facts t
  show (cfg2.win 7).cut (grid2.coords t) ((dat2 V c).after 7 t) = _
  rw [after2_7, outsAt_eq]
  have hacc : acc7 V c t.val t.isLt = row7 V c := by
    obtain ⟨n, hn⟩ := t
    dsimp only at hl
    subst hl
    rfl
  show (cfg2.win 7).cut (grid2.coords t) (acc7 V c t.val t.isLt) = _
  rw [hacc]
  have hz' : (fun a => win2_7.index t a * main_v41_2.ty.shape.size a) = fun _ => 0 := funext fun a => by
    match a with
    | ⟨0, _⟩ => show win2_7.index t (0 : Fin 2) * 1 = 0; omega
    | ⟨1, _⟩ => show win2_7.index t (1 : Fin 2) * 128 = 0; omega
  exact (Memref.read_access_unit_zero (Elt F) main_v41_2 hz' (fun a => by rw [congrFun hz' a]; simp) (row7 V c)).symm

/-- THE SUMS' ARRAY after the region: the running row at the last point. -/
theorem final6 (c : Dev nD) : (dat2 V c).arrAt 6 cfg2.N = row6 V c :=
  (dat2 V c).arrAt_eq_of_cover 6 (row6 V c) (flushed6_eq V c) fun i => by
    have hN : cfg2.N = 10 := N_2
    refine ⟨⟨9, last_lt⟩, (flush2_6 _).mpr (by show 9 % 10 = 9; omega), ?_⟩
    obtain ⟨_, _, _, _, _, _, _, _, _, _, _, _, e60, e61, _⟩ := idx_facts ⟨9, last_lt⟩
    show i ∈ ((View.whole main_v41_1).slice (win2_6.rect ⟨9, last_lt⟩)).set
    rw [View.set_slice_whole, Rect.mem_set_unit]
    intro a
    have h0 : (i 0 : Nat) < 1 := (i 0).isLt
    have h1 : (i 1 : Nat) < 128 := (i 1).isLt
    match a with
    | ⟨0, _⟩ => show win2_6.index ⟨9, last_lt⟩ (0 : Fin 2) * 1 ≤ (i 0 : Nat) ∧ (i 0 : Nat) < win2_6.index ⟨9, last_lt⟩ (0 : Fin 2) * 1 + 1; omega
    | ⟨1, _⟩ => show win2_6.index ⟨9, last_lt⟩ (1 : Fin 2) * 128 ≤ (i 1 : Nat) ∧ (i 1 : Nat) < win2_6.index ⟨9, last_lt⟩ (1 : Fin 2) * 128 + 128; omega

/-- THE SUMS OF SQUARES' ARRAY after the region: the running row at the last point. -/
theorem final7 (c : Dev nD) : (dat2 V c).arrAt 7 cfg2.N = row7 V c :=
  (dat2 V c).arrAt_eq_of_cover 7 (row7 V c) (flushed7_eq V c) fun i => by
    have hN : cfg2.N = 10 := N_2
    refine ⟨⟨9, last_lt⟩, (flush2_7 _).mpr (by show 9 % 10 = 9; omega), ?_⟩
    obtain ⟨_, _, _, _, _, _, _, _, _, _, _, _, _, _, e70, e71⟩ := idx_facts ⟨9, last_lt⟩
    show i ∈ ((View.whole main_v41_2).slice (win2_7.rect ⟨9, last_lt⟩)).set
    rw [View.set_slice_whole, Rect.mem_set_unit]
    intro a
    have h0 : (i 0 : Nat) < 1 := (i 0).isLt
    have h1 : (i 1 : Nat) < 128 := (i 1).isLt
    match a with
    | ⟨0, _⟩ => show win2_7.index ⟨9, last_lt⟩ (0 : Fin 2) * 1 ≤ (i 0 : Nat) ∧ (i 0 : Nat) < win2_7.index ⟨9, last_lt⟩ (0 : Fin 2) * 1 + 1; omega
    | ⟨1, _⟩ => show win2_7.index ⟨9, last_lt⟩ (1 : Fin 2) * 128 ≤ (i 1 : Nat) ∧ (i 1 : Nat) < win2_7.index ⟨9, last_lt⟩ (1 : Fin 2) * 128 + 128; omega

end Cert.KernelIdeal.Hand.R2

end
-- ==== Proof.KVal2.lean ====
/-
  REGION 2'S AFFINE OUTPUT IN THE SPECIFICATION'S TERMS. When the region is entered with the two activation arrays, the two
  128×128 pieces of a weight `W : [128, 256]` (the first and the second 128 rows of its transpose) and a bias vector laid
  out as one row, the layer's output array is `lin` of them: entry `(p, q)` is row `p` of the first array against
  columns `0 … 127` of row `q` of `W`, plus row `p` of the second against columns `128 … 255`, plus `bias q`.
-/
import proofs.«127109_j5042291605552_1_alg».proof.Proof.Region2Arr
import proofs.«127109_j5042291605552_1_alg».proof.Proof.ReadVec
import proofs.«127109_j5042291605552_1_alg».proof.Proof.ReadHost
import proofs.«127109_j5042291605552_1_alg».proof.Proof.KHost
import proofs.«127109_j5042291605552_1_alg».proof.Proof.Spec

set_option maxRecDepth 16384

noncomputable section

namespace Cert.KernelIdeal.Hand

open Cert.KernelIdeal.Gen Cert.KernelIdeal.GenP

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem region2_out (V : (c : Dev nD) → (b : Ref sig .tc) → Buf (Elt Ideal) ((c : Thread nD τ).loc b)) (c : Dev nD)
    (XA XB : S50000x128.Idx → EReal) (W : FVec Ideal S128x256 .f32) (Bv : FVec Ideal S128 .f32)
    (hA : (V c main_arg0 : S50000x128.Idx → EReal) = XA) (hB : (V c main_v36 : S50000x128.Idx → EReal) = XB)
    (hWA : (V c main_v38 : S128x128.Idx → EReal) = wA (F := Ideal) W) (hWB : (V c main_v39 : S128x128.Idx → EReal) = wB (F := Ideal) W)
    (hBI : (V c main_v40 : S1x128.Idx → EReal) = rowOf (F := Ideal) Bv) :
    ((dat2 V c).arrAt 5 cfg2.N : S50000x128.Idx → EReal) = Cert.Spec.lin XA XB W (fun q => Bv (ix1 q)) := by
  rw [R2.final5 V (fun ra rb wa wb bi q => Cert.ReadVec.affRow ra rb wa wb bi q)
    (fun x0 x1 x2 x3 x4 j => Cert.ReadVec.k2_pay4_apply x0 x1 x2 x3 x4 j) c]
  funext i
  obtain ⟨p, q, rfl⟩ : ∃ (p : Fin 50000) (q : Fin 128), i = ix2 p q := ⟨i 0, i 1, eq_ix2 i⟩
  show Cert.ReadVec.affRow (fun k => (V c main_arg0 : S50000x128.Idx → EReal) (ix2 p k)) (fun k => (V c main_v36 : S50000x128.Idx → EReal) (ix2 p k))
      (V c main_v38 : S128x128.Idx → EReal) (V c main_v39 : S128x128.Idx → EReal) (V c main_v40 : S1x128.Idx → EReal) q = _
  rw [hA, hB, hWA, hWB, hBI, Cert.Spec.lin_ix2]
  unfold Cert.ReadVec.affRow wA wB rowOf
  have hl : ∀ k : Fin 128, extractStridedSlice S128x128 ![0, 0] (transpose S256x128 [1, 0] W transposes_S128x256_S256x128_1_0)
      slices_S256x128_S128x128_0_0 (ix2 k q) = W (ix2 q (Cert.Spec.colL k)) := fun k => Cert.ReadHost.wslice_left W _ _ k q
  have hr : ∀ k : Fin 128, extractStridedSlice S128x128 ![128, 0] (transpose S256x128 [1, 0] W transposes_S128x256_S256x128_1_0)
      slices_S256x128_S128x128_128_0 (ix2 k q) = W (ix2 q (Cert.Spec.colR k)) := fun k => Cert.ReadHost.wslice_right W _ _ k q
  simp only [hl, hr, Cert.ReadHost.row_of_vec_apply]

end Cert.KernelIdeal.Hand

end
-- ==== Proof.Region3.lean ====
/-
  REGION 3 (normalise, scale, shift, activate), FROM BLOCKS TO THE ARRAY. The region's grid has 10 points; point `t`
  reads rows `5000·t … 5000·t + 4999` of the activations and the four one-row operands (mean, variance, scale, shift), and
  writes the same rows of the output. The body acts entry by entry: entry `(p, q)` of the block depends on entry `(p, q)`
  of the activations' block and on column `q` of each row operand. Hence the output array, after the last point, is ONE
  function of the arrays the region was entered with, index by index: every index lies in exactly the block of the
  point `(row / 5000)`, and the blocks of all points together cover the array.
  The body's entrywise law is a hypothesis here (`hpay`), so that this module is about the tiling only.
-/
import proofs.«127109_j5042291605552_1_alg».proof.Proof.KernelIdealFrameP
import Idealize.ShloMosaic.Lib.Pipeline.Value
import Idealize.ShloMosaic.Lib.ValueIdx

set_option maxRecDepth 16384

noncomputable section

namespace Cert.KernelIdeal.Hand.R3

open Cert.KernelIdeal.Gen Cert.KernelIdeal.GenP

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The whole-array function: entry `i` from entry `i` of the activations and column `i 1` of the four rows. -/
def G (g : Elt F .f32 → Elt F .f32 → Elt F .f32 → Elt F .f32 → Elt F .f32 → Elt F .f32)
    (H : S50000x128.Idx → Elt F .f32) (MU VAR GA BE : S1x128.Idx → Elt F .f32) : S50000x128.Idx → Elt F .f32 :=
  fun i => g (H i) (MU (ix2 (0 : Fin 1) (i 1))) (VAR (ix2 (0 : Fin 1) (i 1))) (GA (ix2 (0 : Fin 1) (i 1))) (BE (ix2 (0 : Fin 1) (i 1)))

/-- The printed index maps, decided over the grid: the activations' and the output's block is `(t, 0)`, every row
    operand's block is `(0, 0)`. -/
theorem idx_facts : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

variable (g : Elt F .f32 → Elt F .f32 → Elt F .f32 → Elt F .f32 → Elt F .f32 → Elt F .f32)
variable (hpay : ∀ (x0 : Vec F S5000x128 .f32) (x1 x2 x3 x4 : Vec F S1x128 .f32) (j : S5000x128.Idx),
    k3_pay1 x0 x2 x1 x3 x4 j
      = g (x0 j) (x1 (ix2 (0 : Fin 1) (j 1))) (x2 (ix2 (0 : Fin 1) (j 1))) (x3 (ix2 (0 : Fin 1) (j 1))) (x4 (ix2 (0 : Fin 1) (j 1))))

set_option maxHeartbeats 2000000 in
include hpay in
/-- WHAT POINT `t` WRITES BACK is block `t` of `G` of the arrays as the region finds them. -/
theorem flushed_eq (c : Dev nD) (t : Fin cfg3.N) :
    (dat3 V c).flushed 5 t = ((cfg3.win 5).blk t).view.read (Elt F)
      (G g (V c main_v41_0) (V c main_v43) (V c main_v47) (V c main_v48) (V c main_v49)) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  obtain ⟨e00, e01, e50, e51, e10, e11, e20, e21, e30, e31, e40, e41⟩ := idx_facts t
  funext j
  refine (hpay _ _ _ _ _ j).trans ?_
  show g (V c main_v41_0 (((cfg3.win 0).blk t).view.emb j))
      (V c main_v43 (((cfg3.win 1).blk t).view.emb (ix2 (0 : Fin 1) (j 1))))
      (V c main_v47 (((cfg3.win 2).blk t).view.emb (ix2 (0 : Fin 1) (j 1))))
      (V c main_v48 (((cfg3.win 3).blk t).view.emb (ix2 (0 : Fin 1) (j 1))))
      (V c main_v49 (((cfg3.win 4).blk t).view.emb (ix2 (0 : Fin 1) (j 1))))
    = g (V c main_v41_0 (((cfg3.win 5).blk t).view.emb j))
      (V c main_v43 (ix2 (0 : Fin 1) ((((cfg3.win 5).blk t).view.emb j) 1)))
      (V c main_v47 (ix2 (0 : Fin 1) ((((cfg3.win 5).blk t).view.emb j) 1)))
      (V c main_v48 (ix2 (0 : Fin 1) ((((cfg3.win 5).blk t).view.emb j) 1)))
      (V c main_v49 (ix2 (0 : Fin 1) ((((cfg3.win 5).blk t).view.emb j) 1)))
  have h0 : ((cfg3.win 0).blk t).view.emb j = ((cfg3.win 5).blk t).view.emb j := by
    funext a; apply Fin.ext
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 128 + 1 * (j 1).val = win3_5.index t (1 : Fin 2) * 128 + 1 * (j 1).val; omega
  have h1 : ((cfg3.win 1).blk t).view.emb (ix2 (0 : Fin 1) (j 1)) = ix2 (0 : Fin 1) ((((cfg3.win 5).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_5.index t (1 : Fin 2) * 128 + 1 * (j 1).val; omega
  have h2 : ((cfg3.win 2).blk t).view.emb (ix2 (0 : Fin 1) (j 1)) = ix2 (0 : Fin 1) ((((cfg3.win 5).blk t).view.emb j) 1) := by
    funext a; apply Fin.ext
    match a with
    | ⟨0, _⟩ => show win3_2.index t (0 : Fin 2) * 1 + 1 * 0 = 0; omega
    | ⟨1, _⟩ => show win3_2.index t (1 : Fin 2) * 128 + 1 * (j 1).val = win3_5.index t (1 : Fin 2) * 128 + 1 * (j 1).val; omega
  have h3 : ((cfg3.win 3).blk t).view.emb (ix2 (0 : Fin 1) (j 1)) = ix2 (0 : Fin 1) ((((cfg3.win 5).blk t).view.emb j) 1) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_5.index t (1 : Fin 2) * 128 + 1 * (j 1).val; omega
  have h4 : ((cfg3.win 4).blk t).view.emb (ix2 (0 : Fin 1) (j 1)) = ix2 (0 : Fin 1) ((((cfg3.win 5).blk t).view.emb j) 1) := by
    funext a; apply Fin.ext
    match a with
    | ⟨0, _⟩ => show win3_4.index t (0 : Fin 2) * 1 + 1 * 0 = 0; omega
    | ⟨1, _⟩ => show win3_4.index t (1 : Fin 2) * 128 + 1 * (j 1).val = win3_5.index t (1 : Fin 2) * 128 + 1 * (j 1).val; omega
  rw [h0, h1, h2, h3, h4]
  rfl

/-- An index of the output array is in point `t`'s block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v50).slice (win3_5.rect t)).set ↔ _
  rw [View.set_slice_whole, Rect.mem_set_unit]
  exact Iff.rfl

/-- Every index of the output array is in the block of the point `row / 5000`. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_5 _, ?_⟩
  rw [mem_blk]
  obtain ⟨e00, e01, e50, e51, _⟩ := idx_facts ⟨(i 0).val / 5000, by rw [hN]; omega⟩
  intro a
  match a with
  | ⟨0, _⟩ =>
    show win3_5.index _ (0 : Fin 2) * 5000 ≤ (i 0).val ∧ (i 0).val < win3_5.index _ (0 : Fin 2) * 5000 + 5000
    rw [e50]; show (i 0).val / 5000 * 5000 ≤ (i 0).val ∧ (i 0).val < (i 0).val / 5000 * 5000 + 5000; omega
  | ⟨1, _⟩ =>
    show win3_5.index _ (1 : Fin 2) * 128 ≤ (i 1).val ∧ (i 1).val < win3_5.index _ (1 : Fin 2) * 128 + 128
    rw [e51]; omega

include hpay in
/-- THE OUTPUT ARRAY after the region: `G` of the arrays the region was entered with. -/
theorem final (c : Dev nD) : (dat3 V c).arrAt 5 cfg3.N
    = G g (V c main_v41_0) (V c main_v43) (V c main_v47) (V c main_v48) (V c main_v49) :=
  (dat3 V c).arrAt_eq_of_cover 5 _ (fun t _ => flushed_eq V g hpay c t) cover

end Cert.KernelIdeal.Hand.R3

end
-- ==== Proof.KVal3.lean ====
/-
  REGION 3'S OUTPUT IN THE SPECIFICATION'S TERMS. When the region is entered with the activations `H`, a mean row `mu`, a
  variance row `var` and the scale and shift vectors laid out as one row each, its output array is `normAct` of them:
  every entry is normalised by its column's mean and variance, scaled, shifted and passed through the exponential linear
  unit. (The body's entrywise law is the vector unit's reading; the tiling is the region module's.)
-/
import proofs.«127109_j5042291605552_1_alg».proof.Proof.Region3
import proofs.«127109_j5042291605552_1_alg».proof.Proof.ReadVec
import proofs.«127109_j5042291605552_1_alg».proof.Proof.ReadHost
import proofs.«127109_j5042291605552_1_alg».proof.Proof.KHost
import proofs.«127109_j5042291605552_1_alg».proof.Proof.Spec
import proofs.«127109_j5042291605552_1_alg».proof.Proof.KVal1

set_option maxRecDepth 16384

noncomputable section

namespace Cert.KernelIdeal.Hand

open Cert.KernelIdeal.Gen Cert.KernelIdeal.GenP

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem region3_value (V : (c : Dev nD) → (b : Ref sig .tc) → Buf (Elt Ideal) ((c : Thread nD τ).loc b)) (c : Dev nD)
    (H : S50000x128.Idx → EReal) (mu var : Fin 128 → EReal) (G BE : FVec Ideal S128 .f32)
    (hH : (V c main_v41_0 : S50000x128.Idx → EReal) = H)
    (hMU : ∀ q : Fin 128, (V c main_v43 : S1x128.Idx → EReal) (ix2 (0 : Fin 1) q) = mu q)
    (hVAR : ∀ q : Fin 128, (V c main_v47 : S1x128.Idx → EReal) (ix2 (0 : Fin 1) q) = var q)
    (hG : (V c main_v48 : S1x128.Idx → EReal) = rowOf (F := Ideal) G)
    (hBE : (V c main_v49 : S1x128.Idx → EReal) = rowOf (F := Ideal) BE) :
    ((dat3 V c).arrAt 5 cfg3.N : S50000x128.Idx → EReal)
      = Cert.Spec.normAct EPS ZW OW H mu var (fun q => G (ix1 q)) (fun q => BE (ix1 q)) := by
  rw [R3.final V Cert.ReadVec.normEl (fun x0 x1 x2 x3 x4 j => Cert.ReadVec.k3_pay1_apply x0 x2 x1 x3 x4 j) c]
  funext i
  obtain ⟨p, q, rfl⟩ : ∃ (p : Fin 50000) (q : Fin 128), i = ix2 p q := ⟨i 0, i 1, eq_ix2 i⟩
  show Cert.ReadVec.normEl ((V c main_v41_0 : S50000x128.Idx → EReal) (ix2 p q)) ((V c main_v43 : S1x128.Idx → EReal) (ix2 (0 : Fin 1) q))
      ((V c main_v47 : S1x128.Idx → EReal) (ix2 (0 : Fin 1) q)) ((V c main_v48 : S1x128.Idx → EReal) (ix2 (0 : Fin 1) q))
      ((V c main_v49 : S1x128.Idx → EReal) (ix2 (0 : Fin 1) q)) = _
  rw [hH, hMU, hVAR, hG, hBE, Cert.Spec.normAct_ix2]
  unfold rowOf
  rw [Cert.ReadHost.row_of_vec_apply, Cert.ReadHost.row_of_vec_apply]
  rfl

end Cert.KernelIdeal.Hand

end
-- ==== Proof.LibBatchSums.lean ====
/-
  Finite sums regrouped, and a handful of float literals read as numbers.

  * `sum_blocks`: a sum over `T · B` consecutive indices is the sum, over the `T` blocks of `B` consecutive indices,
    of each block's sum — block `t` holds the indices `t · B + r`, `r < B`;
  * `running_sum`: an accumulator that starts from `0 + (0 + s 0)` and adds `0 + s (t + 1)` at each step holds the
    partial sum `s 0 + … + s t` after step `t` (no finiteness is needed: addition on the extended reals is a
    commutative monoid); `running_sum_fin` reads the last of `T + 1` steps as the sum over `Fin (T + 1)`;
  * the literals: the patterns of `0`, `1`, `50000`, `800000` and of a small positive number, as the extended reals
    they denote.
-/
import Idealize.ShloMosaic.PureOps.Ideal

namespace Cert.LibBatchStats

open Idealize.ShloMosaic
open scoped BigOperators

/-! ### Sums by blocks -/

/-- Index `r` of block `t`, among `T` blocks of `B`, is below `T · B`. -/
theorem block_lt {T B : ℕ} (t : Fin T) (r : Fin B) : t.val * B + r.val < T * B :=
  calc t.val * B + r.val < t.val * B + B := Nat.add_lt_add_left r.isLt _
    _ = (t.val + 1) * B := (Nat.succ_mul t.val B).symm
    _ ≤ T * B := Nat.mul_le_mul_right B t.isLt

/-- A sum over `T · B` indices, block by block: the block is the slow index. -/
theorem sum_blocks {T B : ℕ} {M : Type} [AddCommMonoid M] (f : Fin (T * B) → M) :
    ∑ e, f e = ∑ t : Fin T, ∑ r : Fin B, f ⟨t.val * B + r.val, block_lt t r⟩ := by
  rw [← Fintype.sum_prod_type' (f := fun (t : Fin T) (r : Fin B) => f ⟨t.val * B + r.val, block_lt t r⟩)]
  refine (Fintype.sum_equiv finProdFinEquiv _ _ fun x => ?_).symm
  congr 1
  apply Fin.ext
  show x.1.val * B + x.2.val = x.2.val + B * x.1.val
  rw [Nat.mul_comm, Nat.add_comm]

/-! ### A running sum -/

/-- The accumulator after step `t` is the partial sum up to `t`, for as many steps as the recurrence is given. -/
theorem running_sum_lt {M : Type} [AddCommMonoid M] (T : ℕ) (s acc : ℕ → M) (h0 : acc 0 = 0 + (0 + s 0))
    (hs : ∀ t, t + 1 < T → acc (t + 1) = acc t + (0 + s (t + 1))) (t : ℕ) (ht : t < T) :
    acc t = ∑ u ∈ Finset.range (t + 1), s u := by
  induction t with
  | zero => rw [h0, zero_add, zero_add, Finset.sum_range_one]
  | succ t ih => rw [hs t ht, ih (Nat.lt_of_succ_lt ht), zero_add, Finset.sum_range_succ _ (t + 1)]

/-- The same with the recurrence given at every step. -/
theorem running_sum {M : Type} [AddCommMonoid M] (s acc : ℕ → M) (h0 : acc 0 = 0 + (0 + s 0))
    (hs : ∀ t, acc (t + 1) = acc t + (0 + s (t + 1))) (t : ℕ) :
    acc t = ∑ u ∈ Finset.range (t + 1), s u :=
  running_sum_lt (t + 1) s acc h0 (fun u _ => hs u) t (Nat.lt_succ_self t)

/-- After the last of `T` steps the accumulator is the sum over all `T` of them. -/
theorem running_sum_fin {M : Type} [AddCommMonoid M] (T : ℕ) (hT : 0 < T) (s acc : ℕ → M) (h0 : acc 0 = 0 + (0 + s 0))
    (hs : ∀ t, t + 1 < T → acc (t + 1) = acc t + (0 + s (t + 1))) :
    acc (T - 1) = ∑ u : Fin T, s u.val := by
  rw [running_sum_lt T s acc h0 hs (T - 1) (Nat.sub_lt hT Nat.one_pos), Nat.sub_add_cancel hT, Finset.sum_range]

/-! ### Literals -/

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- `0x49435000` is `(2²³ + 0x435000) · 2⁻⁴ = 800000`. -/
theorem ofBits_800000 : Ideal.ofBits .f32 0x49435000#32 = ((800000 : ℝ) : EReal) := by
  simp [Ideal.ofBits, Ideal.ieee, -EReal.coe_mul]; norm_num

/-- `0x47435000` is `(2²³ + 0x435000) · 2⁻⁸ = 50000`. -/
theorem ofBits_50000 : Ideal.ofBits .f32 0x47435000#32 = ((50000 : ℝ) : EReal) := by
  simp [Ideal.ofBits, Ideal.ieee, -EReal.coe_mul]; norm_num

/-- `0x3727C5AC` is `(2²³ + 0x27C5AC) · 2⁻⁴⁰`, a positive real (the float nearest `10⁻⁵`). -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.LibBatchStats
-- ==== Proof.LibBlockAcc.lean ====
/-
  A running total over blocks is the total over everything.

  An accumulator is set, at the first of `T` steps, to the first block's sum, and at every later step has that step's
  block sum added to it. If block `t`'s sum is the sum of `L` over the `B` consecutive indices `t · B + r`, `r < B`,
  the accumulator after the last step is the sum of `L` over all `T · B` indices: the steps give the sum of the block
  sums, and the blocks partition the indices.
-/
import proofs.«127109_j5042291605552_1_alg».proof.Proof.LibBatchSums

namespace Cert.LibBatchStats

open scoped BigOperators

/-- The accumulator after the last step is the whole sum. The accumulator takes the evidence that its step is one
    of the `T`, as a recursion over a bounded grid does. -/
theorem acc_blocks {T B : ℕ} {M : Type} [AddCommMonoid M] (hT : 0 < T) (acc : (n : ℕ) → n < T → M) (S : Fin T → M)
    (L : Fin (T * B) → M) (h0 : acc 0 hT = S ⟨0, hT⟩)
    (hs : ∀ n (h : n + 1 < T), acc (n + 1) h = acc n (Nat.lt_of_succ_lt h) + S ⟨n + 1, h⟩)
    (hS : ∀ t : Fin T, S t = ∑ r : Fin B, L ⟨t.val * B + r.val, block_lt t r⟩) :
    acc (T - 1) (Nat.sub_lt hT Nat.one_pos) = ∑ e, L e := by
  have hrun : ∀ n (h : n < T), acc n h = ∑ u ∈ Finset.range (n + 1), (if hu : u < T then S ⟨u, hu⟩ else 0) := by
    intro n
    induction n with
    | zero => intro h; rw [h0, Finset.sum_range_one, dif_pos hT]
    | succ n ih => intro h; rw [hs n h, ih (Nat.lt_of_succ_lt h), Finset.sum_range_succ _ (n + 1), dif_pos h]
  rw [hrun, Nat.sub_add_cancel hT, Finset.sum_range, sum_blocks L]
  exact Finset.sum_congr rfl fun t _ => by rw [dif_pos t.isLt]; exact hS t

end Cert.LibBatchStats
-- ==== Proof.Region0Sum.lean ====
/-
  REGION 0: THE TWO RUNNING ROWS ARE THE COLUMN SUMS OF THE AFFINE ARRAY. Point `t` of the 125 adds to the two one-row
  accumulators the column sums, resp. the column sums of squares, of the block of rows `6400·t … 6400·t + 6399` of the
  affine layer; the first point starts from the cleared row. An entry of the block is the affine law at the array's row
  `6400·t + p` (the law is a hypothesis here, `hL`), so after the last point column `q` of the first row is the sum of
  column `q` of the whole affine array, and of the second row the sum of its squares: the steps give the sum over the
  points of the block sums, and the 125 blocks of 6400 rows are the 800000 rows.
-/
import proofs.«127109_j5042291605552_1_alg».proof.Proof.Region0Arr
import proofs.«127109_j5042291605552_1_alg».proof.Proof.LibBlockAcc
import proofs.«127109_j5042291605552_1_alg».proof.Proof.Spec
import proofs.«127109_j5042291605552_1_alg».proof.Proof.ReadVec

set_option maxRecDepth 16384

noncomputable section

namespace Cert.KernelIdeal.Hand.R0

open Cert.KernelIdeal.Gen Cert.KernelIdeal.GenP

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibBatchStats Cert.ReadVec
open scoped BigOperators

variable (V : (c : Dev nD) → (b : Ref sig .tc) → Buf (Elt Ideal) ((c : Thread nD τ).loc b))

/-- The whole affine array: entry `i` from row `i 0` of the two activation arrays, the weight pieces and the bias row. -/
def affArr (fL : (Fin 128 → EReal) → (Fin 128 → EReal) → Vec Ideal S128x128 .f32 → Vec Ideal S128x128 .f32 → Vec Ideal S1x128 .f32 → Fin 128 → EReal)
    (A B : S800000x128.Idx → Elt Ideal .f32) (WA WB : S128x128.Idx → Elt Ideal .f32) (BI : S1x128.Idx → Elt Ideal .f32) : Cert.Spec.Mat 800000 128 :=
  fun i => fL (fun k => A (ix2 (i 0) k)) (fun k => B (ix2 (i 0) k)) WA WB BI (i 1)

/-- A point below 125 is a point of the grid. -/
theorem lt_N {n : ℕ} (h : n < 125) : n < cfg0.N := by
  have hN : cfg0.N = 125 := N_0
  omega

/-- Row `p` of point `t`'s block of the output window is row `6400·t + p` of the array. -/
theorem emb_row (t : Fin cfg0.N) (j : S6400x128.Idx) (h : t.val * 6400 + (j 0).val < 800000) :
    (((cfg0.win 5).blk t).view.emb j) 0 = (⟨t.val * 6400 + (j 0).val, h⟩ : Fin 800000) := by
  obtain ⟨_, _, _, _, e50, e51, _⟩ := idx_facts t
  refine Fin.ext ?_
  show win0_5.index t (0 : Fin 2) * 6400 + 1 * (j 0).val = t.val * 6400 + (j 0).val
  omega

variable (fL : (Fin 128 → EReal) → (Fin 128 → EReal) → Vec Ideal S128x128 .f32 → Vec Ideal S128x128 .f32 → Vec Ideal S1x128 .f32 → Fin 128 → EReal)
variable (hL : ∀ (x0 x1 : Vec Ideal S6400x128 .f32) (x2 x3 : Vec Ideal S128x128 .f32) (x4 : Vec Ideal S1x128 .f32) (j : S6400x128.Idx),
    k0_pay4 x0 x1 x2 x3 x4 j = fL (fun k => x0 (ix2 (j 0) k)) (fun k => x1 (ix2 (j 0) k)) x2 x3 x4 (j 1))

include hL in
/-- ENTRY `(p, q)` OF POINT `t`'s AFFINE BLOCK is entry `(6400·t + p, q)` of the affine array. -/
theorem blk_entry (c : Dev nD) (t : Fin cfg0.N) (r : Fin 6400) (q : Fin 128) (h : t.val * 6400 + r.val < 800000) :
    k0_pay4 (iblk0 V c 0 t : Vec Ideal S6400x128 .f32) (iblk0 V c 1 t : Vec Ideal S6400x128 .f32) (iblk0 V c 2 t : Vec Ideal S128x128 .f32) (iblk0 V c 3 t : Vec Ideal S128x128 .f32) (iblk0 V c 4 t : Vec Ideal S1x128 .f32) (ix2 r q)
      = affArr fL (V c main_v10) (V c main_arg2) (V c main_v12) (V c main_v13) (V c main_v14) (ix2 ⟨t.val * 6400 + r.val, h⟩ q) := by
  refine (hL _ _ _ _ _ (ix2 r q)).trans ?_
  rw [iblk2_eq, iblk3_eq, iblk4_eq]
  have e0 : (fun k => (iblk0 V c 0 t : Vec Ideal S6400x128 .f32) (ix2 ((ix2 r q : S6400x128.Idx) 0) k))
      = fun k => V c main_v10 (ix2 (⟨t.val * 6400 + r.val, h⟩ : Fin 800000) k) :=
    funext fun k => (iblk0_row V c t (ix2 r q) k).trans (by rw [emb_row t (ix2 r q) h])
  have e1 : (fun k => (iblk0 V c 1 t : Vec Ideal S6400x128 .f32) (ix2 ((ix2 r q : S6400x128.Idx) 0) k))
      = fun k => V c main_arg2 (ix2 (⟨t.val * 6400 + r.val, h⟩ : Fin 800000) k) :=
    funext fun k => (iblk1_row V c t (ix2 r q) k).trans (by rw [emb_row t (ix2 r q) h])
  rw [e0, e1]
  rfl

include hL in
/-- THE SUMS' ROW when it is written back: column `q` is the sum of column `q` of the affine array. -/
theorem row6_eq (c : Dev nD) (q : Fin 128) :
    row6 V c (ix2 (0 : Fin 1) q) = Cert.Spec.colSum (affArr fL (V c main_v10) (V c main_arg2) (V c main_v12) (V c main_v13) (V c main_v14)) q := by
  have key := acc_blocks (T := 125) (B := 6400) (M := EReal) (by norm_num)
    (fun n h => acc6 V c n (lt_N h) (ix2 (0 : Fin 1) q))
    (fun t => ∑ p : Fin 6400, k0_pay4 (iblk0 V c 0 ⟨t.val, lt_N t.isLt⟩ : Vec Ideal S6400x128 .f32) (iblk0 V c 1 ⟨t.val, lt_N t.isLt⟩ : Vec Ideal S6400x128 .f32) (iblk0 V c 2 ⟨t.val, lt_N t.isLt⟩ : Vec Ideal S128x128 .f32) (iblk0 V c 3 ⟨t.val, lt_N t.isLt⟩ : Vec Ideal S128x128 .f32) (iblk0 V c 4 ⟨t.val, lt_N t.isLt⟩ : Vec Ideal S1x128 .f32) (ix2 p q))
    (fun e => affArr fL (V c main_v10) (V c main_arg2) (V c main_v12) (V c main_v13) (V c main_v14) (ix2 e q)) ?_ ?_ ?_
  · exact key
  · show k0_pay6 (iblk0 V c 0 ⟨0, _⟩ : Vec Ideal S6400x128 .f32) (iblk0 V c 1 ⟨0, _⟩ : Vec Ideal S6400x128 .f32) (iblk0 V c 2 ⟨0, _⟩ : Vec Ideal S128x128 .f32) (iblk0 V c 3 ⟨0, _⟩ : Vec Ideal S128x128 .f32) (iblk0 V c 4 ⟨0, _⟩ : Vec Ideal S1x128 .f32) (k0_pay2 (F := Ideal)) (ix2 (0 : Fin 1) q) = _
    rw [k0_pay6_apply, k0_pay2_apply, Ideal.ofBits_zero_f32, zero_add]
  · intro n h
    show k0_pay6 (iblk0 V c 0 ⟨n + 1, _⟩ : Vec Ideal S6400x128 .f32) (iblk0 V c 1 ⟨n + 1, _⟩ : Vec Ideal S6400x128 .f32) (iblk0 V c 2 ⟨n + 1, _⟩ : Vec Ideal S128x128 .f32) (iblk0 V c 3 ⟨n + 1, _⟩ : Vec Ideal S128x128 .f32) (iblk0 V c 4 ⟨n + 1, _⟩ : Vec Ideal S1x128 .f32) (acc6 V c n _) (ix2 (0 : Fin 1) q) = _
    exact k0_pay6_apply _ _ _ _ _ _ _ _
  · intro t
    exact Finset.sum_congr rfl fun r _ => blk_entry V fL hL c ⟨t.val, lt_N t.isLt⟩ r q (block_lt t r)

include hL in
/-- THE SUMS OF SQUARES' ROW when it is written back: column `q` is the sum of the squares of column `q` of the affine
    array. -/
theorem row7_eq (c : Dev nD) (q : Fin 128) :
    row7 V c (ix2 (0 : Fin 1) q) = Cert.Spec.colSumSq (affArr fL (V c main_v10) (V c main_arg2) (V c main_v12) (V c main_v13) (V c main_v14)) q := by
  have key := acc_blocks (T := 125) (B := 6400) (M := EReal) (by norm_num)
    (fun n h => acc7 V c n (lt_N h) (ix2 (0 : Fin 1) q))
    (fun t => ∑ p : Fin 6400, k0_pay4 (iblk0 V c 0 ⟨t.val, lt_N t.isLt⟩ : Vec Ideal S6400x128 .f32) (iblk0 V c 1 ⟨t.val, lt_N t.isLt⟩ : Vec Ideal S6400x128 .f32) (iblk0 V c 2 ⟨t.val, lt_N t.isLt⟩ : Vec Ideal S128x128 .f32) (iblk0 V c 3 ⟨t.val, lt_N t.isLt⟩ : Vec Ideal S128x128 .f32) (iblk0 V c 4 ⟨t.val, lt_N t.isLt⟩ : Vec Ideal S1x128 .f32) (ix2 p q)
      * k0_pay4 (iblk0 V c 0 ⟨t.val, lt_N t.isLt⟩ : Vec Ideal S6400x128 .f32) (iblk0 V c 1 ⟨t.val, lt_N t.isLt⟩ : Vec Ideal S6400x128 .f32) (iblk0 V c 2 ⟨t.val, lt_N t.isLt⟩ : Vec Ideal S128x128 .f32) (iblk0 V c 3 ⟨t.val, lt_N t.isLt⟩ : Vec Ideal S128x128 .f32) (iblk0 V c 4 ⟨t.val, lt_N t.isLt⟩ : Vec Ideal S1x128 .f32) (ix2 p q))
    (fun e => affArr fL (V c main_v10) (V c main_arg2) (V c main_v12) (V c main_v13) (V c main_v14) (ix2 e q) * affArr fL (V c main_v10) (V c main_arg2) (V c main_v12) (V c main_v13) (V c main_v14) (ix2 e q)) ?_ ?_ ?_
  · exact key
  · show (k0_pay1 (k0_pay7 (k0_pay3 (F := Ideal))) (k0_pay8 (iblk0 V c 0 ⟨0, _⟩ : Vec Ideal S6400x128 .f32) (iblk0 V c 1 ⟨0, _⟩ : Vec Ideal S6400x128 .f32) (iblk0 V c 2 ⟨0, _⟩ : Vec Ideal S128x128 .f32) (iblk0 V c 3 ⟨0, _⟩ : Vec Ideal S128x128 .f32) (iblk0 V c 4 ⟨0, _⟩ : Vec Ideal S1x128 .f32)) : Vec Ideal S1x128 .f32) (ix2 (0 : Fin 1) q) = _
    rw [k0_pay1_apply, k0_pay7_eq, k0_pay3_apply, Ideal.ofBits_zero_f32, zero_add]
    exact Finset.sum_congr rfl fun p _ => k0_pay8_apply _ _ _ _ _ _
  · intro n h
    show (k0_pay1 (k0_pay7 (acc7 V c n _)) (k0_pay8 (iblk0 V c 0 ⟨n + 1, _⟩ : Vec Ideal S6400x128 .f32) (iblk0 V c 1 ⟨n + 1, _⟩ : Vec Ideal S6400x128 .f32) (iblk0 V c 2 ⟨n + 1, _⟩ : Vec Ideal S128x128 .f32) (iblk0 V c 3 ⟨n + 1, _⟩ : Vec Ideal S128x128 .f32) (iblk0 V c 4 ⟨n + 1, _⟩ : Vec Ideal S1x128 .f32)) : Vec Ideal S1x128 .f32) (ix2 (0 : Fin 1) q) = _
    rw [k0_pay1_apply, k0_pay7_eq]
    exact congrArg (fun s : EReal => _ + s) (Finset.sum_congr rfl fun p _ => k0_pay8_apply _ _ _ _ _ _)
  · intro t
    exact Finset.sum_congr rfl fun r _ => by
      rw [blk_entry V fL hL c ⟨t.val, lt_N t.isLt⟩ r q (block_lt t r)]

end Cert.KernelIdeal.Hand.R0

end
-- ==== Proof.Region2Sum.lean ====
/-
  REGION 2: THE TWO RUNNING ROWS ARE THE COLUMN SUMS OF THE AFFINE ARRAY. Point `t` of the 10 adds to the two one-row
  accumulators the column sums, resp. the column sums of squares, of the block of rows `5000·t … 5000·t + 4999` of the
  affine layer; the first point starts from the cleared row. An entry of the block is the affine law at the array's row
  `5000·t + p` (the law is a hypothesis here, `hL`), so after the last point column `q` of the first row is the sum of
  column `q` of the whole affine array, and of the second row the sum of its squares: the steps give the sum over the
  points of the block sums, and the 10 blocks of 5000 rows are the 50000 rows.
-/
import proofs.«127109_j5042291605552_1_alg».proof.Proof.Region2Arr
import proofs.«127109_j5042291605552_1_alg».proof.Proof.LibBlockAcc
import proofs.«127109_j5042291605552_1_alg».proof.Proof.Spec
import proofs.«127109_j5042291605552_1_alg».proof.Proof.ReadVec

set_option maxRecDepth 16384

noncomputable section

namespace Cert.KernelIdeal.Hand.R2

open Cert.KernelIdeal.Gen Cert.KernelIdeal.GenP

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibBatchStats Cert.ReadVec
open scoped BigOperators

variable (V : (c : Dev nD) → (b : Ref sig .tc) → Buf (Elt Ideal) ((c : Thread nD τ).loc b))

/-- The whole affine array: entry `i` from row `i 0` of the two activation arrays, the weight pieces and the bias row. -/
def affArr (fL : (Fin 128 → EReal) → (Fin 128 → EReal) → Vec Ideal S128x128 .f32 → Vec Ideal S128x128 .f32 → Vec Ideal S1x128 .f32 → Fin 128 → EReal)
    (A B : S50000x128.Idx → Elt Ideal .f32) (WA WB : S128x128.Idx → Elt Ideal .f32) (BI : S1x128.Idx → Elt Ideal .f32) : Cert.Spec.Mat 50000 128 :=
  fun i => fL (fun k => A (ix2 (i 0) k)) (fun k => B (ix2 (i 0) k)) WA WB BI (i 1)

/-- A point below 10 is a point of the grid. -/
theorem lt_N {n : ℕ} (h : n < 10) : n < cfg2.N := by
  have hN : cfg2.N = 10 := N_2
  omega

/-- Row `p` of point `t`'s block of the output window is row `5000·t + p` of the array. -/
theorem emb_row (t : Fin cfg2.N) (j : S5000x128.Idx) (h : t.val * 5000 + (j 0).val < 50000) :
    (((cfg2.win 5).blk t).view.emb j) 0 = (⟨t.val * 5000 + (j 0).val, h⟩ : Fin 50000) := by
  obtain ⟨_, _, _, _, e50, e51, _⟩ := idx_facts t
  refine Fin.ext ?_
  show win2_5.index t (0 : Fin 2) * 5000 + 1 * (j 0).val = t.val * 5000 + (j 0).val
  omega

variable (fL : (Fin 128 → EReal) → (Fin 128 → EReal) → Vec Ideal S128x128 .f32 → Vec Ideal S128x128 .f32 → Vec Ideal S1x128 .f32 → Fin 128 → EReal)
variable (hL : ∀ (x0 x1 : Vec Ideal S5000x128 .f32) (x2 x3 : Vec Ideal S128x128 .f32) (x4 : Vec Ideal S1x128 .f32) (j : S5000x128.Idx),
    k2_pay4 x0 x1 x2 x3 x4 j = fL (fun k => x0 (ix2 (j 0) k)) (fun k => x1 (ix2 (j 0) k)) x2 x3 x4 (j 1))

include hL in
/-- ENTRY `(p, q)` OF POINT `t`'s AFFINE BLOCK is entry `(5000·t + p, q)` of the affine array. -/
theorem blk_entry (c : Dev nD) (t : Fin cfg2.N) (r : Fin 5000) (q : Fin 128) (h : t.val * 5000 + r.val < 50000) :
    k2_pay4 (iblk2 V c 0 t : Vec Ideal S5000x128 .f32) (iblk2 V c 1 t : Vec Ideal S5000x128 .f32) (iblk2 V c 2 t : Vec Ideal S128x128 .f32) (iblk2 V c 3 t : Vec Ideal S128x128 .f32) (iblk2 V c 4 t : Vec Ideal S1x128 .f32) (ix2 r q)
      = affArr fL (V c main_arg0) (V c main_v36) (V c main_v38) (V c main_v39) (V c main_v40) (ix2 ⟨t.val * 5000 + r.val, h⟩ q) := by
  refine (hL _ _ _ _ _ (ix2 r q)).trans ?_
  rw [iblk2_eq, iblk3_eq, iblk4_eq]
  have e0 : (fun k => (iblk2 V c 0 t : Vec Ideal S5000x128 .f32) (ix2 ((ix2 r q : S5000x128.Idx) 0) k))
      = fun k => V c main_arg0 (ix2 (⟨t.val * 5000 + r.val, h⟩ : Fin 50000) k) :=
    funext fun k => (iblk0_row V c t (ix2 r q) k).trans (by rw [emb_row t (ix2 r q) h])
  have e1 : (fun k => (iblk2 V c 1 t : Vec Ideal S5000x128 .f32) (ix2 ((ix2 r q : S5000x128.Idx) 0) k))
      = fun k => V c main_v36 (ix2 (⟨t.val * 5000 + r.val, h⟩ : Fin 50000) k) :=
    funext fun k => (iblk1_row V c t (ix2 r q) k).trans (by rw [emb_row t (ix2 r q) h])
  rw [e0, e1]
  rfl

include hL in
/-- THE SUMS' ROW when it is written back: column `q` is the sum of column `q` of the affine array. -/
theorem row6_eq (c : Dev nD) (q : Fin 128) :
    row6 V c (ix2 (0 : Fin 1) q) = Cert.Spec.colSum (affArr fL (V c main_arg0) (V c main_v36) (V c main_v38) (V c main_v39) (V c main_v40)) q := by
  have key := acc_blocks (T := 10) (B := 5000) (M := EReal) (by norm_num)
    (fun n h => acc6 V c n (lt_N h) (ix2 (0 : Fin 1) q))
    (fun t => ∑ p : Fin 5000, k2_pay4 (iblk2 V c 0 ⟨t.val, lt_N t.isLt⟩ : Vec Ideal S5000x128 .f32) (iblk2 V c 1 ⟨t.val, lt_N t.isLt⟩ : Vec Ideal S5000x128 .f32) (iblk2 V c 2 ⟨t.val, lt_N t.isLt⟩ : Vec Ideal S128x128 .f32) (iblk2 V c 3 ⟨t.val, lt_N t.isLt⟩ : Vec Ideal S128x128 .f32) (iblk2 V c 4 ⟨t.val, lt_N t.isLt⟩ : Vec Ideal S1x128 .f32) (ix2 p q))
    (fun e => affArr fL (V c main_arg0) (V c main_v36) (V c main_v38) (V c main_v39) (V c main_v40) (ix2 e q)) ?_ ?_ ?_
  · exact key
  · show k2_pay5 (iblk2 V c 0 ⟨0, _⟩ : Vec Ideal S5000x128 .f32) (iblk2 V c 1 ⟨0, _⟩ : Vec Ideal S5000x128 .f32) (iblk2 V c 2 ⟨0, _⟩ : Vec Ideal S128x128 .f32) (iblk2 V c 3 ⟨0, _⟩ : Vec Ideal S128x128 .f32) (iblk2 V c 4 ⟨0, _⟩ : Vec Ideal S1x128 .f32) (k2_pay2 (F := Ideal)) (ix2 (0 : Fin 1) q) = _
    rw [k2_pay5_apply, k2_pay2_apply, Ideal.ofBits_zero_f32, zero_add]
  · intro n h
    show k2_pay5 (iblk2 V c 0 ⟨n + 1, _⟩ : Vec Ideal S5000x128 .f32) (iblk2 V c 1 ⟨n + 1, _⟩ : Vec Ideal S5000x128 .f32) (iblk2 V c 2 ⟨n + 1, _⟩ : Vec Ideal S128x128 .f32) (iblk2 V c 3 ⟨n + 1, _⟩ : Vec Ideal S128x128 .f32) (iblk2 V c 4 ⟨n + 1, _⟩ : Vec Ideal S1x128 .f32) (acc6 V c n _) (ix2 (0 : Fin 1) q) = _
    exact k2_pay5_apply _ _ _ _ _ _ _ _
  · intro t
    exact Finset.sum_congr rfl fun r _ => blk_entry V fL hL c ⟨t.val, lt_N t.isLt⟩ r q (block_lt t r)

include hL in
/-- THE SUMS OF SQUARES' ROW when it is written back: column `q` is the sum of the squares of column `q` of the affine
    array. -/
theorem row7_eq (c : Dev nD) (q : Fin 128) :
    row7 V c (ix2 (0 : Fin 1) q) = Cert.Spec.colSumSq (affArr fL (V c main_arg0) (V c main_v36) (V c main_v38) (V c main_v39) (V c main_v40)) q := by
  have key := acc_blocks (T := 10) (B := 5000) (M := EReal) (by norm_num)
    (fun n h => acc7 V c n (lt_N h) (ix2 (0 : Fin 1) q))
    (fun t => ∑ p : Fin 5000, k2_pay4 (iblk2 V c 0 ⟨t.val, lt_N t.isLt⟩ : Vec Ideal S5000x128 .f32) (iblk2 V c 1 ⟨t.val, lt_N t.isLt⟩ : Vec Ideal S5000x128 .f32) (iblk2 V c 2 ⟨t.val, lt_N t.isLt⟩ : Vec Ideal S128x128 .f32) (iblk2 V c 3 ⟨t.val, lt_N t.isLt⟩ : Vec Ideal S128x128 .f32) (iblk2 V c 4 ⟨t.val, lt_N t.isLt⟩ : Vec Ideal S1x128 .f32) (ix2 p q)
      * k2_pay4 (iblk2 V c 0 ⟨t.val, lt_N t.isLt⟩ : Vec Ideal S5000x128 .f32) (iblk2 V c 1 ⟨t.val, lt_N t.isLt⟩ : Vec Ideal S5000x128 .f32) (iblk2 V c 2 ⟨t.val, lt_N t.isLt⟩ : Vec Ideal S128x128 .f32) (iblk2 V c 3 ⟨t.val, lt_N t.isLt⟩ : Vec Ideal S128x128 .f32) (iblk2 V c 4 ⟨t.val, lt_N t.isLt⟩ : Vec Ideal S1x128 .f32) (ix2 p q))
    (fun e => affArr fL (V c main_arg0) (V c main_v36) (V c main_v38) (V c main_v39) (V c main_v40) (ix2 e q) * affArr fL (V c main_arg0) (V c main_v36) (V c main_v38) (V c main_v39) (V c main_v40) (ix2 e q)) ?_ ?_ ?_
  · exact key
  · show (k2_pay1 (k2_pay6 (k2_pay3 (F := Ideal))) (k2_pay7 (iblk2 V c 0 ⟨0, _⟩ : Vec Ideal S5000x128 .f32) (iblk2 V c 1 ⟨0, _⟩ : Vec Ideal S5000x128 .f32) (iblk2 V c 2 ⟨0, _⟩ : Vec Ideal S128x128 .f32) (iblk2 V c 3 ⟨0, _⟩ : Vec Ideal S128x128 .f32) (iblk2 V c 4 ⟨0, _⟩ : Vec Ideal S1x128 .f32)) : Vec Ideal S1x128 .f32) (ix2 (0 : Fin 1) q) = _
    rw [k2_pay1_apply, k2_pay6_eq, k2_pay3_apply, Ideal.ofBits_zero_f32, zero_add, k2_pay7_apply]
  · intro n h
    show (k2_pay1 (k2_pay6 (acc7 V c n _)) (k2_pay7 (iblk2 V c 0 ⟨n + 1, _⟩ : Vec Ideal S5000x128 .f32) (iblk2 V c 1 ⟨n + 1, _⟩ : Vec Ideal S5000x128 .f32) (iblk2 V c 2 ⟨n + 1, _⟩ : Vec Ideal S128x128 .f32) (iblk2 V c 3 ⟨n + 1, _⟩ : Vec Ideal S128x128 .f32) (iblk2 V c 4 ⟨n + 1, _⟩ : Vec Ideal S1x128 .f32)) : Vec Ideal S1x128 .f32) (ix2 (0 : Fin 1) q) = _
    rw [k2_pay1_apply, k2_pay6_eq, k2_pay7_apply]
  · intro t
    exact Finset.sum_congr rfl fun r _ => by
      rw [blk_entry V fL hL c ⟨t.val, lt_N t.isLt⟩ r q (block_lt t r)]

end Cert.KernelIdeal.Hand.R2

end
-- ==== Proof.LibIsReal.lean ====
/-
  A small calculus for "this extended real is a real number".

  At the exact instance a float is an extended real, and laws that cancel or distribute hold only away from the
  infinities.  A program whose inputs are real numbers keeps real numbers through sums, products, finite sums of
  products (a matrix product's entry), maxima (a ReLU, a row maximum) and differences; this file states each closure
  once, so that "every entry is real" can be carried layer by layer instead of being re-derived:

  * `IsReal x`: `x` is the coercion of a real number; `IsReal.ne_top`, `IsReal.ne_bot`;
  * closure: `coe`, `zero`, `add`, `sub`, `neg`, `mul`, `max`, `sum` (any finite sum), `sum_mul` (a finite sum of
    products), `sup` (a nonempty finite supremum);
  * `isReal_of_abs_lt_top`: an extended real whose absolute value `max x (-x)` is below `⊤` is a real number (the
    form in which a "finite input" precondition reads).
-/
import Idealize.ShloMosaic.PureOps.Ideal

namespace Idealize.ShloMosaic

/-- `x` is (the coercion of) a real number. -/
def IsReal (x : EReal) : Prop := ∃ r : ℝ, x = (r : EReal)

namespace IsReal

theorem coe (r : ℝ) : IsReal (r : EReal) := ⟨r, rfl⟩

theorem zero : IsReal (0 : EReal) := ⟨0, rfl⟩

theorem ne_top {x : EReal} (h : IsReal x) : x ≠ ⊤ := by
  obtain ⟨r, rfl⟩ := h; exact EReal.coe_ne_top r

theorem ne_bot {x : EReal} (h : IsReal x) : x ≠ ⊥ := by
  obtain ⟨r, rfl⟩ := h; exact EReal.coe_ne_bot r

theorem of_ne {x : EReal} (ht : x ≠ ⊤) (hb : x ≠ ⊥) : IsReal x := by
  induction x using EReal.rec with
  | bot => exact absurd rfl hb
  | coe r => exact ⟨r, rfl⟩
  | top => exact absurd rfl ht

theorem add {x y : EReal} (hx : IsReal x) (hy : IsReal y) : IsReal (x + y) := by
  obtain ⟨a, rfl⟩ := hx; obtain ⟨b, rfl⟩ := hy; exact ⟨a + b, (EReal.coe_add a b).symm⟩

theorem neg {x : EReal} (hx : IsReal x) : IsReal (-x) := by
  obtain ⟨a, rfl⟩ := hx; exact ⟨-a, (EReal.coe_neg a).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (Max.max x y) := by
  obtain ⟨a, rfl⟩ := hx; obtain ⟨b, rfl⟩ := hy
  exact ⟨Max.max a b, (EReal.coe_strictMono.monotone.map_max (a := a) (b := b)).symm⟩

/-- A finite sum of real numbers is a real number. -/
theorem sum {ι : Type} (s : Finset ι) {f : ι → EReal} (h : ∀ i ∈ s, IsReal (f i)) : IsReal (∑ i ∈ s, f i) := by
  classical
  induction s using Finset.induction_on with
  | empty => rw [Finset.sum_empty]; exact zero
  | insert a s ha ih =>
    rw [Finset.sum_insert ha]
    exact add (h a (Finset.mem_insert_self a s)) (ih fun i hi => h i (Finset.mem_insert_of_mem hi))

/-- A finite sum of products of real numbers (an entry of a matrix product) is a real number. -/
theorem sum_mul {ι : Type} [Fintype ι] {f g : ι → EReal} (hf : ∀ i, IsReal (f i)) (hg : ∀ i, IsReal (g i)) :
    IsReal (∑ i, f i * g i) :=
  sum Finset.univ fun i _ => mul (hf i) (hg i)

/-- A nonempty finite supremum of real numbers is a real number. -/
theorem sup {ι : Type} {s : Finset ι} (hs : s.Nonempty) {f : ι → EReal} (h : ∀ i ∈ s, IsReal (f i)) : IsReal (s.sup f) := by
  classical
  induction hs using Finset.Nonempty.cons_induction with
  | singleton a => rw [Finset.sup_singleton]; exact h a (Finset.mem_singleton_self a)
  | cons a s ha hs ih =>
    rw [Finset.sup_cons]
    exact max (h a (Finset.mem_cons_self a s)) (ih fun i hi => h i (Finset.mem_cons.mpr (Or.inr hi)))

end IsReal

/-- An extended real whose absolute value is below `⊤` is a real number. -/
theorem isReal_of_abs_lt_top {x : EReal} (h : Max.max x (-x) < ⊤) : IsReal x := by
  induction x using EReal.rec with
  | bot => rw [EReal.neg_bot, max_eq_right bot_le] at h; exact absurd h (lt_irrefl _)
  | coe r => exact ⟨r, rfl⟩
  | top => rw [max_eq_left le_top] at h; exact absurd h (lt_irrefl _)

end Idealize.ShloMosaic
-- ==== Proof.LibBatchStats.lean ====
/-
  A batch's statistics on the extended reals: the two forms of a column's variance, and the facts that carry "every
  entry is a real number" through a normalised layer.

  * `coe_sum`: the coercion of a finite sum of real numbers;
  * `real_var_forms`, `var_forms_agree`, `layerM_eq_layerC`: with `n` the number of rows and every entry a real
    number, the mean of the squares less the square of the mean IS the mean of the squared deviations — expand
    `(x − μ)²`, sum, and use `n · (1/n) = 1`. At an infinite entry the two differ (one is `⊤ − ⊤`), which is why
    the entries are asked to be real;
  * realness: `lin_isReal`, `div_isReal`, `max_one_div`, `colSum_isReal`, `colSumSq_isReal`, `mean_isReal`,
    `varMoments_isReal`, `varCentered_real` (a real number that is not negative; `varCentered_isReal`,
    `varCentered_nonneg`), `rsqrt_isReal` (the argument is positive, so neither corner of the reciprocal square
    root is met), `exp_isReal`, `elu_isReal`, `normAct_isReal`, `layerC_isReal`, `layerM_isReal`;
  * `sum_256_split`: a sum over 256 columns as the sums over its two groups of 128.
-/
import proofs.«127109_j5042291605552_1_alg».proof.Proof.Spec
import proofs.«127109_j5042291605552_1_alg».proof.Proof.LibIsReal

namespace Cert.LibBatchStats

open Idealize.ShloMosaic Idealize.ShloMosaic.ValueIdx Cert.Spec
open scoped BigOperators

/-! ### Coercions of sums -/

/-- The coercion of a finite sum of real numbers is the sum of the coercions. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-! ### The two forms of the variance -/

/-- Over the reals, with as many terms as the divisor: the mean of the squares less the square of the mean is the mean
    of the squared deviations from the mean. -/
theorem real_var_forms {R : ℕ} (hR : 0 < R) (x : Fin R → ℝ) :
    (∑ p, x p * x p) * (1 / (R : ℝ)) - (∑ p, x p) * (1 / (R : ℝ)) * ((∑ p, x p) * (1 / (R : ℝ)))
      = (∑ p, (x p - (∑ p, x p) * (1 / (R : ℝ))) * (x p - (∑ p, x p) * (1 / (R : ℝ)))) * (1 / (R : ℝ)) := by
  have hR' : (R : ℝ) ≠ 0 := by exact_mod_cast hR.ne'
  generalize hS : ∑ p, x p = S
  have hexp : ∀ μ : ℝ, ∑ p, (x p - μ) * (x p - μ) = ∑ p, x p * x p - 2 * μ * S + (R : ℝ) * (μ * μ) := by
    intro μ
    have hsq : ∀ p, (x p - μ) * (x p - μ) = x p * x p - 2 * μ * x p + μ * μ := fun p => by ring
    simp only [hsq, Finset.sum_add_distrib, Finset.sum_sub_distrib, ← Finset.mul_sum, hS, Finset.sum_const,
      Finset.card_univ, Fintype.card_fin, nsmul_eq_mul]
    ring
  rw [hexp]
  field_simp
  ring

/-- On a matrix of real numbers with `n` rows the two forms of a column's variance agree. -/
theorem var_forms_agree {R C : ℕ} (n : ℝ) (hn : n = (R : ℝ)) (hR : 0 < R) (h : Mat R C) (hh : ∀ i, IsReal (h i)) :
    varMoments (n : EReal) h = varCentered (n : EReal) h := by
  funext q
  subst hn
  have hn0 : (R : ℝ) ≠ 0 := by exact_mod_cast hR.ne'
  choose x hx using fun p : Fin R => hh (ix2 p q)
  simp only [varMoments, varCentered, mean, colSum, colSumSq, hx, Ideal.div_coe hn0]
  simp only [← EReal.coe_mul, ← EReal.coe_sub, ← coe_sum]
  rw [EReal.coe_eq_coe_iff]
  exact real_var_forms hR x

/-- Hence the two layers agree on a matrix of real numbers with `n` rows. -/
theorem layerM_eq_layerC {R C : ℕ} (eps z o : EReal) (n : ℝ) (hn : n = (R : ℝ)) (hR : 0 < R) (h : Mat R C)
    (hh : ∀ i, IsReal (h i)) (g be : Fin C → EReal) :
    layerM eps z o (n : EReal) h g be = layerC eps z o (n : EReal) h g be := by
  rw [layerM, layerC, var_forms_agree n hn hR h hh]

/-! ### Real numbers stay real numbers through a layer -/

/-- An affine layer of real numbers has real entries. -/
theorem lin_isReal {R : ℕ} {a b : Mat R 128} {w : Mat 128 256} {bias : Fin 128 → EReal} (ha : ∀ i, IsReal (a i))
    (hb : ∀ i, IsReal (b i)) (hw : ∀ i, IsReal (w i)) (hbias : ∀ q, IsReal (bias q)) (i : (⟨2, ![R, 128]⟩ : Shape).Idx) :
    IsReal (lin a b w bias i) :=
  ((IsReal.sum_mul (fun _ => ha _) (fun _ => hw _)).add (IsReal.sum_mul (fun _ => hb _) (fun _ => hw _))).add (hbias _)

/-- A real number divided by a nonzero real number is a real number. -/
theorem div_isReal {x : EReal} {y : ℝ} (hx : IsReal x) (hy : y ≠ 0) : IsReal (Ideal.div x (y : EReal)) := by
  rw [Ideal.div_coe hy]; exact hx.mul (IsReal.coe _)

/-- A real number divided by the larger of a real number and `1` is a real number. -/
theorem max_one_div {s c : EReal} (hs : IsReal s) (hc : IsReal c) : IsReal (Ideal.div s (max c 1)) := by
  obtain ⟨r, rfl⟩ := hc
  have hmax : max (r : EReal) 1 = ((max r 1 : ℝ) : EReal) := by
    rw [← EReal.coe_one]; exact (EReal.coe_strictMono.monotone.map_max (a := r) (b := 1)).symm
  rw [hmax]
  exact div_isReal hs (lt_of_lt_of_le one_pos (le_max_right r 1)).ne'

/-- A column's sum of real numbers is a real number. -/
theorem colSum_isReal {R C : ℕ} {h : Mat R C} (hh : ∀ i, IsReal (h i)) (q : Fin C) : IsReal (colSum h q) :=
  IsReal.sum _ fun _ _ => hh _

/-- A column's sum of squares of real numbers is a real number. -/
theorem colSumSq_isReal {R C : ℕ} {h : Mat R C} (hh : ∀ i, IsReal (h i)) (q : Fin C) : IsReal (colSumSq h q) :=
  IsReal.sum _ fun _ _ => (hh _).mul (hh _)

/-- The mean of a column of real numbers, over a nonzero real divisor, is a real number. -/
theorem mean_isReal {R C : ℕ} {n : ℝ} (hn : n ≠ 0) {h : Mat R C} (hh : ∀ i, IsReal (h i)) (q : Fin C) :
    IsReal (mean (n : EReal) h q) :=
  div_isReal (colSum_isReal hh q) hn

/-- The difference of moments of a column of real numbers is a real number. -/
theorem varMoments_isReal {R C : ℕ} {n : ℝ} (hn : n ≠ 0) {h : Mat R C} (hh : ∀ i, IsReal (h i)) (q : Fin C) :
    IsReal (varMoments (n : EReal) h q) :=
  (div_isReal (colSumSq_isReal hh q) hn).sub ((mean_isReal hn hh q).mul (mean_isReal hn hh q))

/-- The mean squared deviation of a column of real numbers, over a positive real divisor, is a real number that is
    not negative. -/
theorem varCentered_real {R C : ℕ} {n : ℝ} (hn : 0 < n) {h : Mat R C} (hh : ∀ i, IsReal (h i)) (q : Fin C) :
    ∃ v : ℝ, 0 ≤ v ∧ varCentered (n : EReal) h q = (v : EReal) := by
  obtain ⟨m, hm⟩ := mean_isReal hn.ne' hh q
  choose x hx using fun p : Fin R => hh (ix2 p q)
  refine ⟨(∑ p, (x p - m) * (x p - m)) * (1 / n),
    mul_nonneg (Finset.sum_nonneg fun p _ => mul_self_nonneg _) (one_div_pos.mpr hn).le, ?_⟩
  simp only [varCentered, hm, hx, Ideal.div_coe hn.ne', ← EReal.coe_sub, ← EReal.coe_mul, ← coe_sum]

theorem varCentered_isReal {R C : ℕ} {n : ℝ} (hn : 0 < n) {h : Mat R C} (hh : ∀ i, IsReal (h i)) (q : Fin C) :
    IsReal (varCentered (n : EReal) h q) := by
  obtain ⟨v, _, hv⟩ := varCentered_real hn hh q; exact ⟨v, hv⟩

theorem varCentered_nonneg {R C : ℕ} {n : ℝ} (hn : 0 < n) {h : Mat R C} (hh : ∀ i, IsReal (h i)) (q : Fin C) :
    0 ≤ varCentered (n : EReal) h q := by
  obtain ⟨v, hv0, hv⟩ := varCentered_real hn hh q; rw [hv]; exact_mod_cast hv0

/-- The reciprocal square root of a real number that is not negative plus a positive real number is a real number. -/
theorem rsqrt_isReal {v e : ℝ} (hv : 0 ≤ v) (he : 0 < e) : IsReal (Ideal.rsqrt ((v : EReal) + (e : EReal))) := by
  have hpos : 0 < v + e := add_pos_of_nonneg_of_pos hv he
  rw [← EReal.coe_add, Ideal.rsqrt_coe, if_neg (not_lt.mpr hpos.le), if_neg hpos.ne']
  exact IsReal.coe _

/-- The exponential of a real number is a real number. -/
theorem exp_isReal {y : EReal} (hy : IsReal y) : IsReal (Ideal.exp y) := by
  obtain ⟨r, rfl⟩ := hy; exact ⟨Real.exp r, rfl⟩

/-- `elu` of a real number, with a real offset, is a real number (whatever the threshold). -/
theorem elu_isReal {z o y : EReal} (ho : IsReal o) (hy : IsReal y) : IsReal (elu z o y) := by
  unfold elu
  split_ifs
  · exact hy
  · exact (exp_isReal hy).sub ho

/-- Normalisation and activation of real numbers, at a real mean and a real reciprocal deviation, has real entries. -/
theorem normAct_isReal {R C : ℕ} {eps z o : EReal} {h : Mat R C} {mu var g be : Fin C → EReal} (ho : IsReal o)
    (hh : ∀ i, IsReal (h i)) (hmu : ∀ q, IsReal (mu q)) (hrs : ∀ q, IsReal (Ideal.rsqrt (var q + eps)))
    (hg : ∀ q, IsReal (g q)) (hbe : ∀ q, IsReal (be q)) (i : (⟨2, ![R, C]⟩ : Shape).Idx) :
    IsReal (normAct eps z o h mu var g be i) :=
  elu_isReal ho (((((hh i).sub (hmu _)).mul (hrs _)).mul (hg _)).add (hbe _))

/-- A layer (variance as the mean squared deviation) of real numbers, with a positive real `eps`, a real offset and a
    positive real divisor, has real entries. -/
theorem layerC_isReal {R C : ℕ} {eps n : ℝ} {z o : EReal} (heps : 0 < eps) (hn : 0 < n) (ho : IsReal o) {h : Mat R C}
    (hh : ∀ i, IsReal (h i)) {g be : Fin C → EReal} (hg : ∀ q, IsReal (g q)) (hbe : ∀ q, IsReal (be q))
    (i : (⟨2, ![R, C]⟩ : Shape).Idx) : IsReal (layerC (eps : EReal) z o (n : EReal) h g be i) := by
  refine normAct_isReal ho hh (mean_isReal hn.ne' hh) (fun q => ?_) hg hbe i
  obtain ⟨v, hv0, hv⟩ := varCentered_real hn hh q
  rw [hv]; exact rsqrt_isReal hv0 heps

/-- The same for the layer with the variance as the difference of moments, when `n` is the number of rows. -/
theorem layerM_isReal {R C : ℕ} {eps : ℝ} {z o : EReal} (n : ℝ) (hn : n = (R : ℝ)) (hR : 0 < R) (heps : 0 < eps)
    (ho : IsReal o) {h : Mat R C} (hh : ∀ i, IsReal (h i)) {g be : Fin C → EReal} (hg : ∀ q, IsReal (g q))
    (hbe : ∀ q, IsReal (be q)) (i : (⟨2, ![R, C]⟩ : Shape).Idx) :
    IsReal (layerM (eps : EReal) z o (n : EReal) h g be i) := by
  rw [layerM_eq_layerC _ z o n hn hR h hh g be]
  exact layerC_isReal heps (by rw [hn]; exact_mod_cast hR) ho hh hg hbe i

/-! ### 256 columns as two groups of 128 -/

/-- A sum over 256 columns is the sum over the first 128 plus the sum over the last 128. -/
theorem sum_256_split {M : Type} [AddCommMonoid M] (f : Fin 256 → M) :
    ∑ k : Fin 256, f k = ∑ k : Fin 128, f (colL k) + ∑ k : Fin 128, f (colR k) :=
  Fin.sum_univ_add (a := 128) (b := 128) f

end Cert.LibBatchStats
-- ==== Proof.SpecNet.lean ====
/-
  The two-layer network both programs are compared through, as a composite of the layers of the specification.

  A layer is an affine map of two row-aligned inputs followed by normalisation at the batch's own statistics and the
  activation; the network is a first layer over the 800000 edge rows, an aggregation `A` of its output onto the 50000
  node rows (kept abstract here: any map that sends matrices of real numbers to matrices of real numbers), and a
  second layer over the node rows.

  * `layerK` / `layerR`: a layer with the variance as the difference of moments / as the mean squared deviation;
  * `netK` / `netR`: the network built from the one or the other;
  * `layerK_eq_layerR`, `layerR_isReal`: on real inputs, with `n` the number of rows, the two layers agree and have
    real entries;
  * `netK_eq_netR`: on real inputs the two networks agree — the first layers agree, their common output is a matrix
    of real numbers, so is its aggregation, hence the second layers agree too.
-/
import proofs.«127109_j5042291605552_1_alg».proof.Proof.Spec
import proofs.«127109_j5042291605552_1_alg».proof.Proof.LibIsReal
import proofs.«127109_j5042291605552_1_alg».proof.Proof.LibBatchStats

noncomputable section

namespace Cert.Spec

open Idealize.ShloMosaic Idealize.ShloMosaic.ValueIdx Cert.LibBatchStats
open scoped BigOperators

/-- A layer with the variance as the difference of moments. -/
def layerK {R : ℕ} (eps z o n : EReal) (a b : Mat R 128) (w : Mat 128 256) (bias g be : Fin 128 → EReal) : Mat R 128 :=
  layerM eps z o n (lin a b w bias) g be

/-- A layer with the variance as the mean squared deviation. -/
def layerR {R : ℕ} (eps z o n : EReal) (a b : Mat R 128) (w : Mat 128 256) (bias g be : Fin 128 → EReal) : Mat R 128 :=
  layerC eps z o n (lin a b w bias) g be

/-- The network with the variance as the difference of moments in both layers. -/
def netK (A : Mat 800000 128 → Mat 50000 128) (eps z o n1 n2 : EReal) (x : Mat 50000 128) (xr ea : Mat 800000 128)
    (w1 : Mat 128 256) (b1 g1 be1 : Fin 128 → EReal) (w2 : Mat 128 256) (b2 g2 be2 : Fin 128 → EReal) : Mat 50000 128 :=
  layerK eps z o n2 x (A (layerK eps z o n1 xr ea w1 b1 g1 be1)) w2 b2 g2 be2

/-- The network with the variance as the mean squared deviation in both layers. -/
def netR (A : Mat 800000 128 → Mat 50000 128) (eps z o n1 n2 : EReal) (x : Mat 50000 128) (xr ea : Mat 800000 128)
    (w1 : Mat 128 256) (b1 g1 be1 : Fin 128 → EReal) (w2 : Mat 128 256) (b2 g2 be2 : Fin 128 → EReal) : Mat 50000 128 :=
  layerR eps z o n2 x (A (layerR eps z o n1 xr ea w1 b1 g1 be1)) w2 b2 g2 be2

/-- On real inputs, with `n` the number of rows, the two layers agree. -/
theorem layerK_eq_layerR {R : ℕ} (eps z o : EReal) (n : ℝ) (hn : n = (R : ℝ)) (hR : 0 < R) {a b : Mat R 128}
    {w : Mat 128 256} {bias : Fin 128 → EReal} (ha : ∀ i, IsReal (a i)) (hb : ∀ i, IsReal (b i)) (hw : ∀ i, IsReal (w i))
    (hbias : ∀ q, IsReal (bias q)) (g be : Fin 128 → EReal) :
    layerK eps z o (n : EReal) a b w bias g be = layerR eps z o (n : EReal) a b w bias g be :=
  layerM_eq_layerC eps z o n hn hR _ (lin_isReal ha hb hw hbias) g be

/-- On real inputs, with a positive real `eps`, a real offset and a positive real divisor, a layer has real entries. -/
theorem layerR_isReal {R : ℕ} {eps n : ℝ} {z o : EReal} (heps : 0 < eps) (hn : 0 < n) (ho : IsReal o) {a b : Mat R 128}
    {w : Mat 128 256} {bias g be : Fin 128 → EReal} (ha : ∀ i, IsReal (a i)) (hb : ∀ i, IsReal (b i))
    (hw : ∀ i, IsReal (w i)) (hbias : ∀ q, IsReal (bias q)) (hg : ∀ q, IsReal (g q)) (hbe : ∀ q, IsReal (be q))
    (i : (⟨2, ![R, 128]⟩ : Shape).Idx) : IsReal (layerR (eps : EReal) z o (n : EReal) a b w bias g be i) :=
  layerC_isReal heps hn ho (lin_isReal ha hb hw hbias) hg hbe i

/-- On real inputs, and an aggregation that keeps real numbers real, the two networks agree. -/
theorem netK_eq_netR (A : Mat 800000 128 → Mat 50000 128) (hA : ∀ M, (∀ i, IsReal (M i)) → ∀ i, IsReal (A M i))
    {e : ℝ} (he : 0 < e) (z : EReal) {o : EReal} (ho : IsReal o) {x : Mat 50000 128} {xr ea : Mat 800000 128}
    {w1 : Mat 128 256} {b1 g1 be1 : Fin 128 → EReal} {w2 : Mat 128 256} {b2 g2 be2 : Fin 128 → EReal}
    (hx : ∀ i, IsReal (x i)) (hxr : ∀ i, IsReal (xr i)) (hea : ∀ i, IsReal (ea i)) (hw1 : ∀ i, IsReal (w1 i))
    (hb1 : ∀ q, IsReal (b1 q)) (hg1 : ∀ q, IsReal (g1 q)) (hbe1 : ∀ q, IsReal (be1 q)) (hw2 : ∀ i, IsReal (w2 i))
    (hb2 : ∀ q, IsReal (b2 q)) (hg2 : ∀ q, IsReal (g2 q)) (hbe2 : ∀ q, IsReal (be2 q)) :
    netK A (e : EReal) z o ((800000 : ℝ) : EReal) ((50000 : ℝ) : EReal) x xr ea w1 b1 g1 be1 w2 b2 g2 be2
      = netR A (e : EReal) z o ((800000 : ℝ) : EReal) ((50000 : ℝ) : EReal) x xr ea w1 b1 g1 be1 w2 b2 g2 be2 := by
  have h1 : layerK (e : EReal) z o ((800000 : ℝ) : EReal) xr ea w1 b1 g1 be1
      = layerR (e : EReal) z o ((800000 : ℝ) : EReal) xr ea w1 b1 g1 be1 :=
    layerK_eq_layerR _ z o 800000 (by norm_num) (by norm_num) hxr hea hw1 hb1 g1 be1
  have hL1 : ∀ i, IsReal (layerR (e : EReal) z o ((800000 : ℝ) : EReal) xr ea w1 b1 g1 be1 i) :=
    layerR_isReal he (by norm_num) ho hxr hea hw1 hb1 hg1 hbe1
  rw [netK, netR, h1]
  exact layerK_eq_layerR _ z o 50000 (by norm_num) (by norm_num) hx (hA _ hL1) hw2 hb2 g2 be2

end Cert.Spec

end
-- ==== Proof.KValue.lean ====
/-
  THE KERNEL'S RESULT IN THE SPECIFICATION'S TERMS. Read back through the four regions and the stretches of host operations
  between them, the result array of the idealized kernel is the two-layer network of the specification with each column's
  variance taken as the difference of moments:
    region 0 computes the first affine layer of the gathered rows and the edge attributes, and the column sums and sums of
    squares of its output; the host divides them into a mean row and a variance row; region 1 normalises, scales, shifts
    and activates; the host aggregates the edges into the nodes; regions 2 and 3 do the same for the node layer.
  Each step is one of the region modules' values at the contents the boundary chain gives its operands.
-/
import proofs.«127109_j5042291605552_1_alg».proof.Proof.KChain
import proofs.«127109_j5042291605552_1_alg».proof.Proof.KVal0
import proofs.«127109_j5042291605552_1_alg».proof.Proof.KVal1
import proofs.«127109_j5042291605552_1_alg».proof.Proof.KVal2
import proofs.«127109_j5042291605552_1_alg».proof.Proof.KVal3
import proofs.«127109_j5042291605552_1_alg».proof.Proof.Region0Sum
import proofs.«127109_j5042291605552_1_alg».proof.Proof.Region2Sum
import proofs.«127109_j5042291605552_1_alg».proof.Proof.SpecNet

set_option maxRecDepth 16384

noncomputable section

namespace Cert.KernelIdeal.Hand

open Cert.KernelIdeal.Gen Cert.KernelIdeal.GenP

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The two row counts, as the programs write them. -/
abbrev N1W : EReal := Ideal.ofBits .f32 0x49435000#32
abbrev N2W : EReal := Ideal.ofBits .f32 0x47435000#32

/-- A vector's entries, column by column. -/
abbrev vec (b : FVec Ideal S128 .f32) : Fin 128 → EReal := fun q => b (ix1 q)

/-! ## The column statistics the two affine regions leave -/

theorem region0_rows (V : (c : Dev nD) → (b : Ref sig .tc) → Buf (Elt Ideal) ((c : Thread nD τ).loc b)) (c : Dev nD)
    (XA XB : S800000x128.Idx → EReal) (W : FVec Ideal S128x256 .f32) (Bv : FVec Ideal S128 .f32)
    (hA : (V c main_v10 : S800000x128.Idx → EReal) = XA) (hB : (V c main_arg2 : S800000x128.Idx → EReal) = XB)
    (hWA : (V c main_v12 : S128x128.Idx → EReal) = wA (F := Ideal) W) (hWB : (V c main_v13 : S128x128.Idx → EReal) = wB (F := Ideal) W)
    (hBI : (V c main_v14 : S1x128.Idx → EReal) = rowOf (F := Ideal) Bv) (q : Fin 128) :
    ((dat0 V c).arrAt 6 cfg0.N : S1x128.Idx → EReal) (ix2 (0 : Fin 1) q) = Cert.Spec.colSum (Cert.Spec.lin XA XB W (vec Bv)) q
    ∧ ((dat0 V c).arrAt 7 cfg0.N : S1x128.Idx → EReal) (ix2 (0 : Fin 1) q) = Cert.Spec.colSumSq (Cert.Spec.lin XA XB W (vec Bv)) q := by
  have hL : R0.affArr (fun ra rb wa wb bi q => Cert.ReadVec.affRow ra rb wa wb bi q) (V c main_v10) (V c main_arg2) (V c main_v12) (V c main_v13) (V c main_v14)
      = Cert.Spec.lin XA XB W (vec Bv) :=
    (R0.final5 V (fun ra rb wa wb bi q => Cert.ReadVec.affRow ra rb wa wb bi q)
      (fun x0 x1 x2 x3 x4 j => Cert.ReadVec.k0_pay5_apply x0 x1 x2 x3 x4 j) c).symm.trans (region0_out V c XA XB W Bv hA hB hWA hWB hBI)
  rw [R0.final6, R0.final7,
    R0.row6_eq V (fun ra rb wa wb bi q => Cert.ReadVec.affRow ra rb wa wb bi q) (fun x0 x1 x2 x3 x4 j => Cert.ReadVec.k0_pay4_apply x0 x1 x2 x3 x4 j) c q,
    R0.row7_eq V (fun ra rb wa wb bi q => Cert.ReadVec.affRow ra rb wa wb bi q) (fun x0 x1 x2 x3 x4 j => Cert.ReadVec.k0_pay4_apply x0 x1 x2 x3 x4 j) c q, hL]
  exact ⟨rfl, rfl⟩

theorem region2_rows (V : (c : Dev nD) → (b : Ref sig .tc) → Buf (Elt Ideal) ((c : Thread nD τ).loc b)) (c : Dev nD)
    (XA XB : S50000x128.Idx → EReal) (W : FVec Ideal S128x256 .f32) (Bv : FVec Ideal S128 .f32)
    (hA : (V c main_arg0 : S50000x128.Idx → EReal) = XA) (hB : (V c main_v36 : S50000x128.Idx → EReal) = XB)
    (hWA : (V c main_v38 : S128x128.Idx → EReal) = wA (F := Ideal) W) (hWB : (V c main_v39 : S128x128.Idx → EReal) = wB (F := Ideal) W)
    (hBI : (V c main_v40 : S1x128.Idx → EReal) = rowOf (F := Ideal) Bv) (q : Fin 128) :
    ((dat2 V c).arrAt 6 cfg2.N : S1x128.Idx → EReal) (ix2 (0 : Fin 1) q) = Cert.Spec.colSum (Cert.Spec.lin XA XB W (vec Bv)) q
    ∧ ((dat2 V c).arrAt 7 cfg2.N : S1x128.Idx → EReal) (ix2 (0 : Fin 1) q) = Cert.Spec.colSumSq (Cert.Spec.lin XA XB W (vec Bv)) q := by
  have hL : R2.affArr (fun ra rb wa wb bi q => Cert.ReadVec.affRow ra rb wa wb bi q) (V c main_arg0) (V c main_v36) (V c main_v38) (V c main_v39) (V c main_v40)
      = Cert.Spec.lin XA XB W (vec Bv) :=
    (R2.final5 V (fun ra rb wa wb bi q => Cert.ReadVec.affRow ra rb wa wb bi q)
      (fun x0 x1 x2 x3 x4 j => Cert.ReadVec.k2_pay4_apply x0 x1 x2 x3 x4 j) c).symm.trans (region2_out V c XA XB W Bv hA hB hWA hWB hBI)
  rw [R2.final6, R2.final7,
    R2.row6_eq V (fun ra rb wa wb bi q => Cert.ReadVec.affRow ra rb wa wb bi q) (fun x0 x1 x2 x3 x4 j => Cert.ReadVec.k2_pay4_apply x0 x1 x2 x3 x4 j) c q,
    R2.row7_eq V (fun ra rb wa wb bi q => Cert.ReadVec.affRow ra rb wa wb bi q) (fun x0 x1 x2 x3 x4 j => Cert.ReadVec.k2_pay4_apply x0 x1 x2 x3 x4 j) c q, hL]
  exact ⟨rfl, rfl⟩

/-! ## The network, layer by layer -/

/-- The edge layer's affine output. -/
def lin1K (x : FVec Ideal S50000x128 .f32) (ei : IVec S2x800000 32) (ea : FVec Ideal S800000x128 .f32) (w1 : FVec Ideal S128x256 .f32)
    (b1 : FVec Ideal S128 .f32) : Cert.Spec.Mat 800000 128 := Cert.Spec.lin (xrK (F := Ideal) x ei) ea w1 (vec b1)
/-- The edge layer's activations. -/
def act1K (x : FVec Ideal S50000x128 .f32) (ei : IVec S2x800000 32) (ea : FVec Ideal S800000x128 .f32) (w1 : FVec Ideal S128x256 .f32)
    (b1 g1 be1 : FVec Ideal S128 .f32) : Cert.Spec.Mat 800000 128 :=
  Cert.Spec.layerM EPS ZW OW N1W (lin1K x ei ea w1 b1) (vec g1) (vec be1)
/-- The node layer's affine output, over the nodes' own features and the edges' activations averaged into them. -/
def lin2K (x : FVec Ideal S50000x128 .f32) (ei : IVec S2x800000 32) (ea : FVec Ideal S800000x128 .f32) (w1 : FVec Ideal S128x256 .f32)
    (b1 g1 be1 : FVec Ideal S128 .f32) (w2 : FVec Ideal S128x256 .f32) (b2 : FVec Ideal S128 .f32) : Cert.Spec.Mat 50000 128 :=
  Cert.Spec.lin x (aggK (F := Ideal) (act1K x ei ea w1 b1 g1 be1) (colVecK (F := Ideal) ei)) w2 (vec b2)
/-- The network's output. -/
def outK (x : FVec Ideal S50000x128 .f32) (ei : IVec S2x800000 32) (ea : FVec Ideal S800000x128 .f32) (w1 : FVec Ideal S128x256 .f32)
    (b1 g1 be1 : FVec Ideal S128 .f32) (w2 : FVec Ideal S128x256 .f32) (b2 g2 be2 : FVec Ideal S128 .f32) : Cert.Spec.Mat 50000 128 :=
  Cert.Spec.layerM EPS ZW OW N2W (lin2K x ei ea w1 b1 g1 be1 w2 b2) (vec g2) (vec be2)

/-- It is the specification's two-layer network at the difference-of-moments variance. -/
theorem outK_eq_netK (x : FVec Ideal S50000x128 .f32) (ei : IVec S2x800000 32) (ea : FVec Ideal S800000x128 .f32) (w1 : FVec Ideal S128x256 .f32)
    (b1 g1 be1 : FVec Ideal S128 .f32) (w2 : FVec Ideal S128x256 .f32) (b2 g2 be2 : FVec Ideal S128 .f32) :
    outK x ei ea w1 b1 g1 be1 w2 b2 g2 be2
      = Cert.Spec.netK (fun M => aggK (F := Ideal) M (colVecK (F := Ideal) ei)) EPS ZW OW N1W N2W x (xrK (F := Ideal) x ei) ea w1
          (vec b1) (vec g1) (vec be1) w2 (vec b2) (vec g2) (vec be2) := rfl

variable (m : (ℓ : Loc nD τ sig) → Buf (Elt Ideal) ℓ) (ρ : Dev nD → PrngReg)

/-- THE RESULT ARRAY after the kernel's run, as a function of the argument arrays. -/
theorem kernel_value (c : Dev nD) :
    (W8 m ρ c (Proc.devRef .tc main_v50) : S50000x128.Idx → EReal)
      = outK (m ((c : Thread nD τ).loc main_arg0)) (m ((c : Thread nD τ).loc main_arg1)) (m ((c : Thread nD τ).loc main_arg2))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) := by
  -- region 0: the edge layer's affine output and its column statistics
  have h0 := region0_out (V1 m ρ) c _ _ _ _ (r0_v10 m ρ c) (r0_arg2 m ρ c) (r0_v12 m ρ c) (r0_v13 m ρ c) (r0_v14 m ρ c)
  have s0 := region0_rows (V1 m ρ) c _ _ _ _ (r0_v10 m ρ c) (r0_arg2 m ρ c) (r0_v12 m ρ c) (r0_v13 m ρ c) (r0_v14 m ρ c)
  -- region 1: the edge layer's activations
  have h1 := region1_value (V3 m ρ) c _ _ _ _ _ ((r1_v15_0 m ρ c).trans h0)
    (fun q => (congrFun (r1_v17 m ρ c) (ix2 (0 : Fin 1) q)).trans
      (Cert.ReadHost.stats_mean_apply 0x49435000#32 _ _ bcast_S_S1x128 0 q (s0 q).1))
    (fun q => (congrFun (r1_v21 m ρ c) (ix2 (0 : Fin 1) q)).trans
      (Cert.ReadHost.stats_var_apply 0x49435000#32 _ _ _ bcast_S_S1x128 0 q (s0 q).1 (s0 q).2))
    (r1_v22 m ρ c) (r1_v23 m ρ c)
  -- the host's aggregation of the edges into the nodes
  have hagg : (V5 m ρ c main_v36 : S50000x128.Idx → EReal) = aggK (F := Ideal) _ (colVecK (F := Ideal) (m ((c : Thread nD τ).loc main_arg1))) :=
    (r2_v36 m ρ c).trans (congrArg (fun M => aggK (F := Ideal) M (colVecK (F := Ideal) (m ((c : Thread nD τ).loc main_arg1)))) h1)
  -- region 2: the node layer's affine output and its column statistics
  have h2 := region2_out (V5 m ρ) c _ _ _ _ (r2_arg0 m ρ c) hagg (r2_v38 m ρ c) (r2_v39 m ρ c) (r2_v40 m ρ c)
  have s2 := region2_rows (V5 m ρ) c _ _ _ _ (r2_arg0 m ρ c) hagg (r2_v38 m ρ c) (r2_v39 m ρ c) (r2_v40 m ρ c)
  -- region 3: the node layer's activations, which are the result
  have h3 := region3_value (V7 m ρ) c _ _ _ _ _ ((r3_v41_0 m ρ c).trans h2)
    (fun q => (congrFun (r3_v43 m ρ c) (ix2 (0 : Fin 1) q)).trans
      (Cert.ReadHost.stats_mean_apply 0x47435000#32 _ _ bcast_S_S1x128 0 q (s2 q).1))
    (fun q => (congrFun (r3_v47 m ρ c) (ix2 (0 : Fin 1) q)).trans
      (Cert.ReadHost.stats_var_apply 0x47435000#32 _ _ _ bcast_S_S1x128 0 q (s2 q).1 (s2 q).2))
    (r3_v48 m ρ c) (r3_v49 m ρ c)
  exact (res_v50 m ρ c).trans h3

end Cert.KernelIdeal.Hand

end
-- ==== Proof.RefStages.lean ====
/-
  The reference program's value, stage by stage, at the ideal instance: each stage is the composition of the
  pure operations the printed program applies between two of its named values, in the printed order and with
  the printed shape evidence, so that the program's run reads back as the composition of the stages.

    rowIx, colIx   the two rows of the edge index as column index tables (negative entries wrapped once)
    lin1           gather of the source rows, concatenation with the edge attributes, the first linear layer
    bn1            batch normalisation over the 800000 edges (mean, biased variance, rsqrt, scale, shift)
    elu1           x if x > 0, else exp x - 1
    agg            per-destination sum divided by max(count, 1)
    lin2           concatenation of the node features with the aggregate, the second linear layer
    bn2, elu2      the same normalisation and activation over the 50000 nodes
-/
import proofs.«127109_j5042291605552_1_alg».proof.Proof.Gen.ReferenceIdeal
import Idealize.ShloMosaic.PureOps.Ideal

noncomputable section

namespace Cert.ReferenceIdeal.Hand

open Cert.ReferenceIdeal Cert.ReferenceIdeal.Gen Idealize.ShloMosaic

/-! ## The index tables -/

/-- Row 0 of the edge index as a vector: the source node of each edge. -/
def rowVec (ei : (⟨S2x800000, .i32⟩ : BufTy).Contents (Elt Ideal)) : (⟨S800000, .i32⟩ : BufTy).Contents (Elt Ideal) :=
  shapeCast S800000 (extractStridedSlice S1x800000 ![0, 0] ei slices_S2x800000_S1x800000_0_0) shapeCasts_S1x800000_S800000

/-- Row 1 of the edge index as a vector: the destination node of each edge. -/
def colVec (ei : (⟨S2x800000, .i32⟩ : BufTy).Contents (Elt Ideal)) : (⟨S800000, .i32⟩ : BufTy).Contents (Elt Ideal) :=
  shapeCast S800000 (extractStridedSlice S1x800000 ![1, 0] ei slices_S2x800000_S1x800000_1_0) shapeCasts_S1x800000_S800000

/-- The gather's index table: the source nodes, a negative one moved up by the node count, as a column. -/
def rowIx (ei : (⟨S2x800000, .i32⟩ : BufTy).Contents (Elt Ideal)) : (⟨S800000x1, .i32⟩ : BufTy).Contents (Elt Ideal) :=
  broadcastInDim S800000x1 ![0] bcast_S800000_S800000x1_0
    (select
      (cmpi .slt (rowVec ei) (broadcastInDim S800000 ![] bcast_S_S800000 (constantI S_ 32 0#32)))
      (addi (rowVec ei) (broadcastInDim S800000 ![] bcast_S_S800000 (constantI S_ 32 50000#32)))
      (rowVec ei))

/-- The scatter's index table: the destination nodes as a column. -/
def colIx (ei : (⟨S2x800000, .i32⟩ : BufTy).Contents (Elt Ideal)) : (⟨S800000x1, .i32⟩ : BufTy).Contents (Elt Ideal) :=
  broadcastInDim S800000x1 ![0] bcast_S800000_S800000x1_0 (colVec ei)

/-! ## The edge layer -/

/-- cat([x[row], edge_attr]) · w1ᵀ + b1. -/
def lin1 (x : (⟨S50000x128, .f32⟩ : BufTy).Contents (Elt Ideal)) (ei : (⟨S2x800000, .i32⟩ : BufTy).Contents (Elt Ideal)) (ea : (⟨S800000x128, .f32⟩ : BufTy).Contents (Elt Ideal))
    (w1 : (⟨S128x256, .f32⟩ : BufTy).Contents (Elt Ideal)) (b1 : (⟨S128, .f32⟩ : BufTy).Contents (Elt Ideal)) : (⟨S800000x128, .f32⟩ : BufTy).Contents (Elt Ideal) :=
  addf
    (Host.dotGeneral (F := Ideal) (φ₁ := .f32) (φ₂ := .f32) dot_S800000x256_S256x128_S800000x128_1_0_0_1_n_n none
      (concatenate S800000x256 1
        [⟨S800000x128, Host.gather gather_S50000x128_S800000x1_S800000x128_1_0_n_n_0_1_1128 x (rowIx ei)⟩, ⟨S800000x128, ea⟩]
        concatenates_S800000x128_S800000x128_S800000x256_d1)
      (transpose S256x128 [1, 0] w1 transposes_S128x256_S256x128_1_0))
    (broadcastInDim S800000x128 ![0, 1] bcast_S1x128_S800000x128_0_1 (broadcastInDim S1x128 ![1] bcast_S128_S1x128_1 b1))

/-- The column means over the edges. -/
def mean1 (h : (⟨S800000x128, .f32⟩ : BufTy).Contents (Elt Ideal)) : (⟨S128, .f32⟩ : BufTy).Contents (Elt Ideal) :=
  Host.divf (F := Ideal) (φ := .f32) (Host.reduceAdd (F := Ideal) (φ := .f32) h (constant (F := Ideal) S_ .f32 0x00000000#32) reducesTo_S800000x128_S128_d0 h_S_)
    (broadcastInDim S128 ![] bcast_S_S128 (constant (F := Ideal) S_ .f32 0x49435000#32))

/-- The values less their column mean. -/
def cen1 (h : (⟨S800000x128, .f32⟩ : BufTy).Contents (Elt Ideal)) : (⟨S800000x128, .f32⟩ : BufTy).Contents (Elt Ideal) :=
  subf (F := Ideal) (φ := .f32) h (broadcastInDim S800000x128 ![0, 1] bcast_S1x128_S800000x128_0_1 (broadcastInDim S1x128 ![1] bcast_S128_S1x128_1 (mean1 h)))

/-- The biased column variances over the edges. -/
def var1 (h : (⟨S800000x128, .f32⟩ : BufTy).Contents (Elt Ideal)) : (⟨S128, .f32⟩ : BufTy).Contents (Elt Ideal) :=
  Host.divf (F := Ideal) (φ := .f32) (Host.reduceAdd (F := Ideal) (φ := .f32) (mulf (F := Ideal) (φ := .f32) (cen1 h) (cen1 h)) (constant (F := Ideal) S_ .f32 0x00000000#32) reducesTo_S800000x128_S128_d0 h_S_)
    (broadcastInDim S128 ![] bcast_S_S128 (constant (F := Ideal) S_ .f32 0x49435000#32))

/-- 1 / sqrt (variance + eps). -/
def inv1 (h : (⟨S800000x128, .f32⟩ : BufTy).Contents (Elt Ideal)) : (⟨S128, .f32⟩ : BufTy).Contents (Elt Ideal) :=
  Host.rsqrt (F := Ideal) (φ := .f32) (addf (F := Ideal) (φ := .f32) (var1 h) (broadcastInDim S128 ![] bcast_S_S128 (constant (F := Ideal) S_ .f32 0x3727C5AC#32)))

/-- Batch normalisation over the edges with training statistics. -/
def bn1 (h : (⟨S800000x128, .f32⟩ : BufTy).Contents (Elt Ideal)) (g be : (⟨S128, .f32⟩ : BufTy).Contents (Elt Ideal)) : (⟨S800000x128, .f32⟩ : BufTy).Contents (Elt Ideal) :=
  addf
    (mulf
      (mulf (F := Ideal) (φ := .f32) (cen1 h)
        (broadcastInDim S800000x128 ![0, 1] bcast_S1x128_S800000x128_0_1 (broadcastInDim S1x128 ![1] bcast_S128_S1x128_1 (inv1 h))))
      (broadcastInDim S800000x128 ![0, 1] bcast_S1x128_S800000x128_0_1 (broadcastInDim S1x128 ![1] bcast_S128_S1x128_1 g)))
    (broadcastInDim S800000x128 ![0, 1] bcast_S1x128_S800000x128_0_1 (broadcastInDim S1x128 ![1] bcast_S128_S1x128_1 be))

/-- ELU over the edges: y where y > 0, else 1 · expm1 (y where not y > 0, 0 elsewhere). -/
def elu1 (y : (⟨S800000x128, .f32⟩ : BufTy).Contents (Elt Ideal)) : (⟨S800000x128, .f32⟩ : BufTy).Contents (Elt Ideal) :=
  select
    (cmpf (F := Ideal) (φ := .f32) .ogt y (broadcastInDim S800000x128 ![] bcast_S_S800000x128 (constant (F := Ideal) S_ .f32 0x00000000#32)))
    y
    (mulf (F := Ideal) (φ := .f32) (broadcastInDim S800000x128 ![] bcast_S_S800000x128 (constant (F := Ideal) S_ .f32 0x3F800000#32))
      (Host.expm1
        (select
          (cmpf (F := Ideal) (φ := .f32) .ogt y (broadcastInDim S800000x128 ![] bcast_S_S800000x128 (constant (F := Ideal) S_ .f32 0x00000000#32)))
          (broadcastInDim S800000x128 ![] bcast_S_S800000x128 (constant (F := Ideal) S_ .f32 0x00000000#32))
          y)))

/-! ## The aggregation -/

/-- The per-destination sums of the edge features. -/
def segSum (hf : (⟨S800000x128, .f32⟩ : BufTy).Contents (Elt Ideal)) (ei : (⟨S2x800000, .i32⟩ : BufTy).Contents (Elt Ideal)) : (⟨S50000x128, .f32⟩ : BufTy).Contents (Elt Ideal) :=
  Host.scatterAdd (F := Ideal) (φ := .f32) scatter_S50000x128_S800000x1_S800000x128_1_0_0_1
    (broadcastInDim S50000x128 ![] bcast_S_S50000x128 (constant (F := Ideal) S_ .f32 0x00000000#32)) (colIx ei) hf

/-- The per-destination edge counts. -/
def segCnt (ei : (⟨S2x800000, .i32⟩ : BufTy).Contents (Elt Ideal)) : (⟨S50000, .f32⟩ : BufTy).Contents (Elt Ideal) :=
  Host.scatterAdd (F := Ideal) (φ := .f32) scatter_S50000_S800000x1_S800000_n_0_0_1
    (broadcastInDim S50000 ![] bcast_S_S50000 (constant (F := Ideal) S_ .f32 0x00000000#32)) (colIx ei)
    (broadcastInDim S800000 ![] bcast_S_S800000 (constant (F := Ideal) S_ .f32 0x3F800000#32))

/-- Scatter-mean: the sums over max(count, 1). -/
def agg (hf : (⟨S800000x128, .f32⟩ : BufTy).Contents (Elt Ideal)) (ei : (⟨S2x800000, .i32⟩ : BufTy).Contents (Elt Ideal)) : (⟨S50000x128, .f32⟩ : BufTy).Contents (Elt Ideal) :=
  Host.divf (F := Ideal) (φ := .f32) (segSum hf ei)
    (broadcastInDim S50000x128 ![0, 1] bcast_S50000x1_S50000x128_0_1
      (broadcastInDim S50000x1 ![0] bcast_S50000_S50000x1_0
        (maximumf (F := Ideal) (φ := .f32) (segCnt ei) (broadcastInDim S50000 ![] bcast_S_S50000 (constant (F := Ideal) S_ .f32 0x3F800000#32)))))

/-! ## The node layer -/

/-- cat([x, agg]) · w2ᵀ + b2. -/
def lin2 (x ag : (⟨S50000x128, .f32⟩ : BufTy).Contents (Elt Ideal)) (w2 : (⟨S128x256, .f32⟩ : BufTy).Contents (Elt Ideal)) (b2 : (⟨S128, .f32⟩ : BufTy).Contents (Elt Ideal)) : (⟨S50000x128, .f32⟩ : BufTy).Contents (Elt Ideal) :=
  addf
    (Host.dotGeneral (F := Ideal) (φ₁ := .f32) (φ₂ := .f32) dot_S50000x256_S256x128_S50000x128_1_0_0_1_n_n none
      (concatenate S50000x256 1 [⟨S50000x128, x⟩, ⟨S50000x128, ag⟩] concatenates_S50000x128_S50000x128_S50000x256_d1)
      (transpose S256x128 [1, 0] w2 transposes_S128x256_S256x128_1_0))
    (broadcastInDim S50000x128 ![0, 1] bcast_S1x128_S50000x128_0_1 (broadcastInDim S1x128 ![1] bcast_S128_S1x128_1 b2))

/-- The column means over the nodes. -/
def mean2 (h : (⟨S50000x128, .f32⟩ : BufTy).Contents (Elt Ideal)) : (⟨S128, .f32⟩ : BufTy).Contents (Elt Ideal) :=
  Host.divf (F := Ideal) (φ := .f32) (Host.reduceAdd (F := Ideal) (φ := .f32) h (constant (F := Ideal) S_ .f32 0x00000000#32) reducesTo_S50000x128_S128_d0 h_S_)
    (broadcastInDim S128 ![] bcast_S_S128 (constant (F := Ideal) S_ .f32 0x47435000#32))

/-- The values less their column mean. -/
def cen2 (h : (⟨S50000x128, .f32⟩ : BufTy).Contents (Elt Ideal)) : (⟨S50000x128, .f32⟩ : BufTy).Contents (Elt Ideal) :=
  subf (F := Ideal) (φ := .f32) h (broadcastInDim S50000x128 ![0, 1] bcast_S1x128_S50000x128_0_1 (broadcastInDim S1x128 ![1] bcast_S128_S1x128_1 (mean2 h)))

/-- The biased column variances over the nodes. -/
def var2 (h : (⟨S50000x128, .f32⟩ : BufTy).Contents (Elt Ideal)) : (⟨S128, .f32⟩ : BufTy).Contents (Elt Ideal) :=
  Host.divf (F := Ideal) (φ := .f32) (Host.reduceAdd (F := Ideal) (φ := .f32) (mulf (F := Ideal) (φ := .f32) (cen2 h) (cen2 h)) (constant (F := Ideal) S_ .f32 0x00000000#32) reducesTo_S50000x128_S128_d0 h_S_)
    (broadcastInDim S128 ![] bcast_S_S128 (constant (F := Ideal) S_ .f32 0x47435000#32))

/-- 1 / sqrt (variance + eps). -/
def inv2 (h : (⟨S50000x128, .f32⟩ : BufTy).Contents (Elt Ideal)) : (⟨S128, .f32⟩ : BufTy).Contents (Elt Ideal) :=
  Host.rsqrt (F := Ideal) (φ := .f32) (addf (F := Ideal) (φ := .f32) (var2 h) (broadcastInDim S128 ![] bcast_S_S128 (constant (F := Ideal) S_ .f32 0x3727C5AC#32)))

/-- Batch normalisation over the nodes with training statistics. -/
def bn2 (h : (⟨S50000x128, .f32⟩ : BufTy).Contents (Elt Ideal)) (g be : (⟨S128, .f32⟩ : BufTy).Contents (Elt Ideal)) : (⟨S50000x128, .f32⟩ : BufTy).Contents (Elt Ideal) :=
  addf
    (mulf
      (mulf (F := Ideal) (φ := .f32) (cen2 h)
        (broadcastInDim S50000x128 ![0, 1] bcast_S1x128_S50000x128_0_1 (broadcastInDim S1x128 ![1] bcast_S128_S1x128_1 (inv2 h))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 be))

/-- ELU over the nodes. -/
def elu2 (y : (⟨S50000x128, .f32⟩ : BufTy).Contents (Elt Ideal)) : (⟨S50000x128, .f32⟩ : BufTy).Contents (Elt Ideal) :=
  select
    (cmpf (F := Ideal) (φ := .f32) .ogt y (broadcastInDim S50000x128 ![] bcast_S_S50000x128 (constant (F := Ideal) S_ .f32 0x00000000#32)))
    y
    (mulf (F := Ideal) (φ := .f32) (broadcastInDim S50000x128 ![] bcast_S_S50000x128 (constant (F := Ideal) S_ .f32 0x3F800000#32))
      (Host.expm1
        (select
          (cmpf (F := Ideal) (φ := .f32) .ogt y (broadcastInDim S50000x128 ![] bcast_S_S50000x128 (constant (F := Ideal) S_ .f32 0x00000000#32)))
          (broadcastInDim S50000x128 ![] bcast_S_S50000x128 (constant (F := Ideal) S_ .f32 0x00000000#32))
          y)))

/-! ## The whole reference -/

/-- The reference's result as a function of its arguments (the two it never reads left out). -/
def refOut (x : (⟨S50000x128, .f32⟩ : BufTy).Contents (Elt Ideal)) (ei : (⟨S2x800000, .i32⟩ : BufTy).Contents (Elt Ideal)) (ea : (⟨S800000x128, .f32⟩ : BufTy).Contents (Elt Ideal))
    (w1 : (⟨S128x256, .f32⟩ : BufTy).Contents (Elt Ideal)) (b1 g1 be1 : (⟨S128, .f32⟩ : BufTy).Contents (Elt Ideal))
    (w2 : (⟨S128x256, .f32⟩ : BufTy).Contents (Elt Ideal)) (b2 g2 be2 : (⟨S128, .f32⟩ : BufTy).Contents (Elt Ideal)) : (⟨S50000x128, .f32⟩ : BufTy).Contents (Elt Ideal) :=
  elu2 (bn2 (lin2 x (agg (elu1 (bn1 (lin1 x ei ea w1 b1) g1 be1)) ei) w2 b2) g2 be2)

end Cert.ReferenceIdeal.Hand

end
-- ==== Proof.RefOps.lean ====
/-
  The reference program's @main as a list of its 131 host operations, the two outlined ELU functions (and the
  selects they call) unfolded at their call sites over the calls' own buffers, cut at the stage boundaries:
    A  the index tables and the first linear layer          (19 operations, up to %16)
    B  the first batch normalisation                        (30, up to %41)
    C  the first ELU                                        (15, up to %42)
    D  the scatter-mean (D0 the two scatter-adds, D1 the division)   (10 + 6, up to %54)
    E  the second linear layer                              (6, up to %60)
    F  the second batch normalisation                       (30, up to %85)
    G  the second ELU                                       (15, up to %86)
  @main is the straight line of these lists in order, so its run ends with every buffer at their fold.
-/
import proofs.«127109_j5042291605552_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Segment A. -/
abbrev opsA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v10 main_arg2 main_v11 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    StableHlo.unary main_arg5 main_v12 ((transpose S256x128 [1, 0] · transposes_S128x256_S256x128_1_0) : (⟨S128x256, .f32⟩ : BufTy).Contents (Elt F) → (⟨S256x128, .f32⟩ : BufTy).Contents (Elt F)),
    StableHlo.binary main_v11 main_v12 main_v13 ((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)),
    StableHlo.unary main_arg6 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S800000x128 ![0, 1] bcast_S1x128_S800000x128_0_1 : (⟨S1x128, .f32⟩ : BufTy).Contents (Elt F) → (⟨S800000x128, .f32⟩ : BufTy).Contents (Elt F)),
    StableHlo.binary main_v13 main_v15 main_v16 (addf : (⟨S800000x128, .f32⟩ : BufTy).Contents (Elt F) → (⟨S800000x128, .f32⟩ : BufTy).Contents (Elt F) → (⟨S800000x128, .f32⟩ : BufTy).Contents (Elt F)) ]

/-- Segment B. -/
abbrev opsB : List (HloOp τ sig (Elt F)) :=
  [ StableHlo.nullary main_cst (constant S_ .f32 0x00000000#32),
    StableHlo.binary main_v16 main_cst main_v17 ((fun x v => Host.reduceAdd x v reducesTo_S800000x128_S128_d0 h_S_) : (⟨S800000x128, .f32⟩ : BufTy).Contents (Elt F) → (⟨S_, .f32⟩ : BufTy).Contents (Elt F) → (⟨S128, .f32⟩ : BufTy).Contents (Elt F)),
    StableHlo.nullary main_cst_1 (constant S_ .f32 0x49435000#32),
    StableHlo.unary main_cst_1 main_v18 (broadcastInDim S128 ![] bcast_S_S128 : (⟨S_, .f32⟩ : BufTy).Contents (Elt F) → (⟨S128, .f32⟩ : BufTy).Contents (Elt F)),
    StableHlo.binary main_v17 main_v18 main_v19 (Host.divf : (⟨S128, .f32⟩ : BufTy).Contents (Elt F) → (⟨S128, .f32⟩ : BufTy).Contents (Elt F) → (⟨S128, .f32⟩ : BufTy).Contents (Elt F)),
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S800000x128 ![0, 1] bcast_S1x128_S800000x128_0_1 : (⟨S1x128, .f32⟩ : BufTy).Contents (Elt F) → (⟨S800000x128, .f32⟩ : BufTy).Contents (Elt F)),
    StableHlo.binary main_v16 main_v21 main_v22 (subf : (⟨S800000x128, .f32⟩ : BufTy).Contents (Elt F) → (⟨S800000x128, .f32⟩ : BufTy).Contents (Elt F) → (⟨S800000x128, .f32⟩ : BufTy).Contents (Elt F)),
    StableHlo.binary main_v22 main_v22 main_v23 (mulf : (⟨S800000x128, .f32⟩ : BufTy).Contents (Elt F) → (⟨S800000x128, .f32⟩ : BufTy).Contents (Elt F) → (⟨S800000x128, .f32⟩ : BufTy).Contents (Elt F)),
    StableHlo.nullary main_cst_2 (constant S_ .f32 0x00000000#32),
    StableHlo.binary main_v23 main_cst_2 main_v24 ((fun x v => Host.reduceAdd x v reducesTo_S800000x128_S128_d0 h_S_) : (⟨S800000x128, .f32⟩ : BufTy).Contents (Elt F) → (⟨S_, .f32⟩ : BufTy).Contents (Elt F) → (⟨S128, .f32⟩ : BufTy).Contents (Elt F)),
    StableHlo.nullary main_cst_3 (constant S_ .f32 0x49435000#32),
    StableHlo.unary main_cst_3 main_v25 (broadcastInDim S128 ![] bcast_S_S128 : (⟨S_, .f32⟩ : BufTy).Contents (Elt F) → (⟨S128, .f32⟩ : BufTy).Contents (Elt F)),
    StableHlo.binary main_v24 main_v25 main_v26 (Host.divf : (⟨S128, .f32⟩ : BufTy).Contents (Elt F) → (⟨S128, .f32⟩ : BufTy).Contents (Elt F) → (⟨S128, .f32⟩ : BufTy).Contents (Elt F)),
    StableHlo.unary main_v19 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S800000x128 ![0, 1] bcast_S1x128_S800000x128_0_1 : (⟨S1x128, .f32⟩ : BufTy).Contents (Elt F) → (⟨S800000x128, .f32⟩ : BufTy).Contents (Elt F)),
    StableHlo.binary main_v16 main_v28 main_v29 (subf : (⟨S800000x128, .f32⟩ : BufTy).Contents (Elt F) → (⟨S800000x128, .f32⟩ : BufTy).Contents (Elt F) → (⟨S800000x128, .f32⟩ : BufTy).Contents (Elt F)),
    StableHlo.nullary main_cst_4 (constant S_ .f32 0x3727C5AC#32),
    StableHlo.unary main_cst_4 main_v30 (broadcastInDim S128 ![] bcast_S_S128 : (⟨S_, .f32⟩ : BufTy).Contents (Elt F) → (⟨S128, .f32⟩ : BufTy).Contents (Elt F)),
    StableHlo.binary main_v26 main_v30 main_v31 (addf : (⟨S128, .f32⟩ : BufTy).Contents (Elt F) → (⟨S128, .f32⟩ : BufTy).Contents (Elt F) → (⟨S128, .f32⟩ : BufTy).Contents (Elt F)),
    StableHlo.unary main_v31 main_v32 (Host.rsqrt : (⟨S128, .f32⟩ : BufTy).Contents (Elt F) → (⟨S128, .f32⟩ : BufTy).Contents (Elt F)),
    StableHlo.unary main_v32 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S800000x128 ![0, 1] bcast_S1x128_S800000x128_0_1 : (⟨S1x128, .f32⟩ : BufTy).Contents (Elt F) → (⟨S800000x128, .f32⟩ : BufTy).Contents (Elt F)),
    StableHlo.binary main_v29 main_v34 main_v35 (mulf : (⟨S800000x128, .f32⟩ : BufTy).Contents (Elt F) → (⟨S800000x128, .f32⟩ : BufTy).Contents (Elt F) → (⟨S800000x128, .f32⟩ : BufTy).Contents (Elt F)),
    StableHlo.unary main_arg7 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S800000x128 ![0, 1] bcast_S1x128_S800000x128_0_1 : (⟨S1x128, .f32⟩ : BufTy).Contents (Elt F) → (⟨S800000x128, .f32⟩ : BufTy).Contents (Elt F)),
    StableHlo.binary main_v35 main_v37 main_v38 (mulf : (⟨S800000x128, .f32⟩ : BufTy).Contents (Elt F) → (⟨S800000x128, .f32⟩ : BufTy).Contents (Elt F) → (⟨S800000x128, .f32⟩ : BufTy).Contents (Elt F)),
    StableHlo.unary main_arg8 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S800000x128 ![0, 1] bcast_S1x128_S800000x128_0_1 : (⟨S1x128, .f32⟩ : BufTy).Contents (Elt F) → (⟨S800000x128, .f32⟩ : BufTy).Contents (Elt F)),
    StableHlo.binary main_v38 main_v40 main_v41 (addf : (⟨S800000x128, .f32⟩ : BufTy).Contents (Elt F) → (⟨S800000x128, .f32⟩ : BufTy).Contents (Elt F) → (⟨S800000x128, .f32⟩ : BufTy).Contents (Elt F)) ]

/-- Segment C. -/
abbrev opsC : List (HloOp τ sig (Elt F)) :=
  [ StableHlo.TRef.nullary main_call0.cst (constant S_ .f32 0x00000000#32),
    StableHlo.TRef.unary main_call0.cst main_call0.v0 (broadcastInDim S800000x128 ![] bcast_S_S800000x128),
    StableHlo.TRef.binary (.of main_v41) main_call0.v0 main_call0.v1 (cmpf .ogt),
    StableHlo.TRef.nullary main_call0.cst_0 (constant S_ .f32 0x00000000#32),
    StableHlo.TRef.unary main_call0.cst_0 main_call0.v2 (broadcastInDim S800000x128 ![] bcast_S_S800000x128),
    StableHlo.TRef.binary (.of main_v41) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S800000x128 ![] bcast_S_S800000x128),
    StableHlo.TRef.ternary main_call0.v3 main_call0.call0.v1 (.of main_v41) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S800000x128 ![] bcast_S_S800000x128),
    StableHlo.TRef.binary main_call0.v6 main_call0.v5 main_call0.v7 mulf,
    StableHlo.TRef.ternary main_call0.v1 (.of main_v41) main_call0.v7 main_call0.call1.v0 select ]

/-- Segment D0. -/
abbrev opsD0 : List (HloOp τ sig (Elt F)) :=
  [ StableHlo.nullary main_cst_5 (constant S_ .f32 0x00000000#32),
    StableHlo.unary main_cst_5 main_v43 (broadcastInDim S50000x128 ![] bcast_S_S50000x128 : (⟨S_, .f32⟩ : BufTy).Contents (Elt F) → (⟨S50000x128, .f32⟩ : BufTy).Contents (Elt F)),
    StableHlo.unary main_v3 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_6 (constant S_ .f32 0x3F800000#32),
    StableHlo.unary main_cst_6 main_v46 (broadcastInDim S800000 ![] bcast_S_S800000 : (⟨S_, .f32⟩ : BufTy).Contents (Elt F) → (⟨S800000, .f32⟩ : BufTy).Contents (Elt F)),
    StableHlo.nullary main_cst_7 (constant S_ .f32 0x00000000#32),
    StableHlo.unary main_cst_7 main_v47 (broadcastInDim S50000 ![] bcast_S_S50000 : (⟨S_, .f32⟩ : BufTy).Contents (Elt F) → (⟨S50000, .f32⟩ : BufTy).Contents (Elt F)),
    StableHlo.unary main_v3 main_v48 (broadcastInDim S800000x1 ![0] bcast_S800000_S800000x1_0 : (⟨S800000, .i32⟩ : BufTy).Contents (Elt F) → (⟨S800000x1, .i32⟩ : BufTy).Contents (Elt F)),
    StableHlo.ternary main_v47 main_v48 main_v46 main_v49 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ]

/-- Segment D1. -/
abbrev opsD1 : List (HloOp τ sig (Elt F)) :=
  [ StableHlo.nullary main_cst_8 (constant S_ .f32 0x3F800000#32),
    StableHlo.unary main_cst_8 main_v50 (broadcastInDim S50000 ![] bcast_S_S50000 : (⟨S_, .f32⟩ : BufTy).Contents (Elt F) → (⟨S50000, .f32⟩ : BufTy).Contents (Elt F)),
    StableHlo.binary main_v49 main_v50 main_v51 (maximumf : (⟨S50000, .f32⟩ : BufTy).Contents (Elt F) → (⟨S50000, .f32⟩ : BufTy).Contents (Elt F) → (⟨S50000, .f32⟩ : BufTy).Contents (Elt F)),
    StableHlo.unary main_v51 main_v52 (broadcastInDim S50000x1 ![0] bcast_S50000_S50000x1_0 : (⟨S50000, .f32⟩ : BufTy).Contents (Elt F) → (⟨S50000x1, .f32⟩ : BufTy).Contents (Elt F)),
    StableHlo.unary main_v52 main_v53 (broadcastInDim S50000x128 ![0, 1] bcast_S50000x1_S50000x128_0_1 : (⟨S50000x1, .f32⟩ : BufTy).Contents (Elt F) → (⟨S50000x128, .f32⟩ : BufTy).Contents (Elt F)),
    StableHlo.binary main_v45 main_v53 main_v54 (Host.divf : (⟨S50000x128, .f32⟩ : BufTy).Contents (Elt F) → (⟨S50000x128, .f32⟩ : BufTy).Contents (Elt F) → (⟨S50000x128, .f32⟩ : BufTy).Contents (Elt F)) ]

/-- Segment E. -/
abbrev opsE : List (HloOp τ sig (Elt F)) :=
  [ StableHlo.binary main_arg0 main_v54 main_v55 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_arg9 main_v56 ((transpose S256x128 [1, 0] · transposes_S128x256_S256x128_1_0) : (⟨S128x256, .f32⟩ : BufTy).Contents (Elt F) → (⟨S256x128, .f32⟩ : BufTy).Contents (Elt F)),
    StableHlo.binary main_v55 main_v56 main_v57 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg10 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S50000x128 ![0, 1] bcast_S1x128_S50000x128_0_1 : (⟨S1x128, .f32⟩ : BufTy).Contents (Elt F) → (⟨S50000x128, .f32⟩ : BufTy).Contents (Elt F)),
    StableHlo.binary main_v57 main_v59 main_v60 (addf : (⟨S50000x128, .f32⟩ : BufTy).Contents (Elt F) → (⟨S50000x128, .f32⟩ : BufTy).Contents (Elt F) → (⟨S50000x128, .f32⟩ : BufTy).Contents (Elt F)) ]

/-- Segment F. -/
abbrev opsF : List (HloOp τ sig (Elt F)) :=
  [ StableHlo.nullary main_cst_9 (constant S_ .f32 0x00000000#32),
    StableHlo.binary main_v60 main_cst_9 main_v61 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v62 (broadcastInDim S128 ![] bcast_S_S128 : (⟨S_, .f32⟩ : BufTy).Contents (Elt F) → (⟨S128, .f32⟩ : BufTy).Contents (Elt F)),
    StableHlo.binary main_v61 main_v62 main_v63 (Host.divf : (⟨S128, .f32⟩ : BufTy).Contents (Elt F) → (⟨S128, .f32⟩ : BufTy).Contents (Elt F) → (⟨S128, .f32⟩ : BufTy).Contents (Elt F)),
    StableHlo.unary main_v63 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v65 main_v66 (subf : (⟨S50000x128, .f32⟩ : BufTy).Contents (Elt F) → (⟨S50000x128, .f32⟩ : BufTy).Contents (Elt F) → (⟨S50000x128, .f32⟩ : BufTy).Contents (Elt F)),
    StableHlo.binary main_v66 main_v66 main_v67 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x00000000#32),
    StableHlo.binary main_v67 main_cst_11 main_v68 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_12 (constant S_ .f32 0x47435000#32),
    StableHlo.unary main_cst_12 main_v69 (broadcastInDim S128 ![] bcast_S_S128 : (⟨S_, .f32⟩ : BufTy).Contents (Elt F) → (⟨S128, .f32⟩ : BufTy).Contents (Elt F)),
    StableHlo.binary main_v68 main_v69 main_v70 (Host.divf : (⟨S128, .f32⟩ : BufTy).Contents (Elt F) → (⟨S128, .f32⟩ : BufTy).Contents (Elt F) → (⟨S128, .f32⟩ : BufTy).Contents (Elt F)),
    StableHlo.unary main_v63 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v72 main_v73 (subf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v74 (broadcastInDim S128 ![] bcast_S_S128 : (⟨S_, .f32⟩ : BufTy).Contents (Elt F) → (⟨S128, .f32⟩ : BufTy).Contents (Elt F)),
    StableHlo.binary main_v70 main_v74 main_v75 (addf : (⟨S128, .f32⟩ : BufTy).Contents (Elt F) → (⟨S128, .f32⟩ : BufTy).Contents (Elt F) → (⟨S128, .f32⟩ : BufTy).Contents (Elt F)),
    StableHlo.unary main_v75 main_v76 (Host.rsqrt : (⟨S128, .f32⟩ : BufTy).Contents (Elt F) → (⟨S128, .f32⟩ : BufTy).Contents (Elt F)),
    StableHlo.unary main_v76 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v73 main_v78 main_v79 (mulf : (⟨S50000x128, .f32⟩ : BufTy).Contents (Elt F) → (⟨S50000x128, .f32⟩ : BufTy).Contents (Elt F) → (⟨S50000x128, .f32⟩ : BufTy).Contents (Elt F)),
    StableHlo.unary main_arg11 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v79 main_v81 main_v82 (mulf : (⟨S50000x128, .f32⟩ : BufTy).Contents (Elt F) → (⟨S50000x128, .f32⟩ : BufTy).Contents (Elt F) → (⟨S50000x128, .f32⟩ : BufTy).Contents (Elt F)),
    StableHlo.unary main_arg12 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v84 main_v85 (addf : (⟨S50000x128, .f32⟩ : BufTy).Contents (Elt F) → (⟨S50000x128, .f32⟩ : BufTy).Contents (Elt F) → (⟨S50000x128, .f32⟩ : BufTy).Contents (Elt F)) ]

/-- Segment G. -/
abbrev opsG : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary (.of main_v85) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (.of main_v85) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (.of main_v85) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (.of main_v85) main_call1.v7 main_call1.call1.v0 select ]

/-- The first window's operations. -/
abbrev ops0 : List (HloOp τ sig (Elt F)) := opsA ++ (opsB ++ (opsC ++ opsD0))
/-- The second window's operations. -/
abbrev ops1 : List (HloOp τ sig (Elt F)) := opsD1 ++ (opsE ++ (opsF ++ opsG))
/-- @main's operations, in order. -/
abbrev ops : List (HloOp τ sig (Elt F)) := ops0 ++ ops1

/-- The fold over two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 1600000 in
/-- The first window is the straight line of its operations: the ELU's body and the selects it calls unfolded at
    the call, the sequencing reassociated. -/
theorem part0_eq (c : Dev nD) : main_part0 (F := F) c = seq ops0 := by
  simp only [main_part0, fn_elu.body, fn_where.body, fn_where_0.body, ops0, opsA, opsB, opsC, opsD0,
    List.cons_append, List.nil_append, seq, bind_assoc, pure_bind]
  rfl

set_option maxRecDepth 8192 in
set_option maxHeartbeats 1600000 in
/-- The second window likewise. -/
theorem part1_eq (c : Dev nD) : main_part1 (F := F) c = seq ops1 := by
  simp only [main_part1, fn_elu_1.body, fn_where_2.body, fn_where_3.body, ops1, opsD1, opsE, opsF, opsG,
    List.cons_append, List.nil_append, seq, bind_assoc, pure_bind]

/-- @main is the straight line of all its operations. -/
theorem main_eq (c : Dev nD) : main (F := F) c = seq ops := by
  rw [show (ops : List (HloOp τ sig (Elt F))) = ops0 ++ ops1 from rfl, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub ..⟩
theorem opsA_fresh : ∀ op ∈ (opsA : List (HloOp τ sig (Elt F))), op.fresh = ∅ := by
  intro _ h; (repeat (cases h with | head => rfl | tail _ h => ?_)); exact nomatch h

theorem opsB_sub : (opsB : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsB_fresh : ∀ op ∈ (opsB : List (HloOp τ sig (Elt F))), op.fresh = ∅ := by
  intro _ h; (repeat (cases h with | head => rfl | tail _ h => ?_)); exact nomatch h

theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem opsC_fresh : ∀ op ∈ (opsC : List (HloOp τ sig (Elt F))), op.fresh = ∅ := by
  intro _ h; (repeat (cases h with | head => rfl | tail _ h => ?_)); exact nomatch h

theorem opsD0_sub : (opsD0 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub ..⟩
theorem opsD0_fresh : ∀ op ∈ (opsD0 : List (HloOp τ sig (Elt F))), op.fresh = ∅ := by
  intro _ h; (repeat (cases h with | head => rfl | tail _ h => ?_)); exact nomatch h

theorem opsD1_sub : (opsD1 : List (HloOp τ sig (Elt F))).Forall fun op => op.bufs ⊆ tcRefs τ sig :=
  ⟨nullary_bufs_sub .., unary_bufs_sub .., binary_bufs_sub .., unary_bufs_sub .., unary_bufs_sub .., binary_bufs_sub ..⟩
theorem opsD1_fresh : ∀ op ∈ (opsD1 : List (HloOp τ sig (Elt F))), op.fresh = ∅ := by
  intro _ h; (repeat (cases h with | head => rfl | tail _ h => ?_)); exact nomatch h

theorem opsE_sub : (opsE : List (HloOp τ sig (Elt F))).Forall fun op => op.bufs ⊆ tcRefs τ sig :=
  ⟨binary_bufs_sub .., unary_bufs_sub .., binary_bufs_sub .., unary_bufs_sub .., unary_bufs_sub .., binary_bufs_sub ..⟩
theorem opsE_fresh : ∀ op ∈ (opsE : List (HloOp τ sig (Elt F))), op.fresh = ∅ := by
  intro _ h; (repeat (cases h with | head => rfl | tail _ h => ?_)); exact nomatch h

theorem opsF_sub : (opsF : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsF_fresh : ∀ op ∈ (opsF : List (HloOp τ sig (Elt F))), op.fresh = ∅ := by
  intro _ h; (repeat (cases h with | head => rfl | tail _ h => ?_)); exact nomatch h

theorem opsG_sub : (opsG : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem opsG_fresh : ∀ op ∈ (opsG : List (HloOp τ sig (Elt F))), op.fresh = ∅ := by
  intro _ h; (repeat (cases h with | head => rfl | tail _ h => ?_)); exact nomatch h

/-- Every operation touches TensorCore references only. -/
theorem ops_sub : (ops : List (HloOp τ sig (Elt F))).Forall fun op => op.bufs ⊆ tcRefs τ sig := by
  have h := fun (l : List (HloOp τ sig (Elt F))) (hl : l.Forall fun op => op.bufs ⊆ tcRefs τ sig) => List.forall_iff_forall_mem.mp hl
  refine List.forall_iff_forall_mem.mpr fun op hop => ?_
  simp only [ops, ops0, ops1, List.mem_append] at hop
  rcases hop with (hop | hop | hop | hop) | (hop | hop | hop | hop)
  · exact h _ opsA_sub op hop
  · exact h _ opsB_sub op hop
  · exact h _ opsC_sub op hop
  · exact h _ opsD0_sub op hop
  · exact h _ opsD1_sub op hop
  · exact h _ opsE_sub op hop
  · exact h _ opsF_sub op hop
  · exact h _ opsG_sub op hop

/-- Every operation determines its results. -/
theorem ops_fresh : ∀ op ∈ (ops : List (HloOp τ sig (Elt F))), op.fresh = ∅ := by
  intro op hop
  simp only [ops, ops0, ops1, List.mem_append] at hop
  rcases hop with (hop | hop | hop | hop) | (hop | hop | hop | hop)
  · exact opsA_fresh op hop
  · exact opsB_fresh op hop
  · exact opsC_fresh op hop
  · exact opsD0_fresh op hop
  · exact opsD1_fresh op hop
  · exact opsE_fresh op hop
  · exact opsF_fresh op hop
  · exact opsG_fresh op hop

/-- On every device, for any float values, from any memory with zero counters: every weakly fair execution of
    @main terminates, each TensorCore buffer ending at the operations' fold over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after (ops (F := F)) (launchContents m c) (Proc.devRef .tc b) :=
  run_seq scopedRefs_eq scopedSems_eq defs main (fun _ => ops) main_eq (fun _ => ops_sub) m ρ (fun _ => ops_fresh)

end Cert.ReferenceIdeal.Hand

end
-- ==== Proof.RefRun.lean ====
/-
  The reference program's run read back: from any memory with zero counters every weakly fair execution of @main
  terminates with the result buffer at refOut of the arguments' launch contents and the arguments unchanged.

  The fold of the 131 operations is taken segment by segment. For each segment: the references it writes (every
  other reference keeps its contents across it), and the value it leaves at its last result as the stage function
  of the values it found at its inputs. Composing the segments gives the result as the composition of the stages.
-/
import proofs.«127109_j5042291605552_1_alg».proof.Proof.RefStages
import proofs.«127109_j5042291605552_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

/-- An operation writing the one reference y writes inside any list of references holding y. -/
theorem writes_sub_of_mem {op : HloOp τ sig (Elt Ideal)} {y : Ref sig .tc} {Wl : List (Ref sig .tc)}
    (hw : op.writes = {Proc.devRef .tc y}) (hy : y ∈ Wl) :
    op.writes ⊆ (Wl.map (Proc.devRef (τ := τ) .tc)).toFinset := by
  rw [hw, Finset.singleton_subset_iff, List.mem_toFinset]
  exact List.mem_map.mpr ⟨y, hy, rfl⟩

/-! ## What each segment writes -/

/-- The references segment A writes. -/
abbrev wA : List (Ref sig .tc) :=
  [main_v0, main_v1, main_v2, main_v3, main_c, main_v4, main_v5, main_c_0, main_v6, main_v7, main_v8, main_v9, main_v10, main_v11, main_v12, main_v13, main_v14, main_v15, main_v16]

theorem opsA_writes : (opsA (F := Ideal)).Forall fun op => op.writes ⊆ ((wA).map (Proc.devRef (τ := τ) .tc)).toFinset :=
  ⟨writes_sub_of_mem (y := main_v0) rfl (by decide),
   writes_sub_of_mem (y := main_v1) rfl (by decide),
   writes_sub_of_mem (y := main_v2) rfl (by decide),
   writes_sub_of_mem (y := main_v3) rfl (by decide),
   writes_sub_of_mem (y := main_c) rfl (by decide),
   writes_sub_of_mem (y := main_v4) rfl (by decide),
   writes_sub_of_mem (y := main_v5) rfl (by decide),
   writes_sub_of_mem (y := main_c_0) rfl (by decide),
   writes_sub_of_mem (y := main_v6) rfl (by decide),
   writes_sub_of_mem (y := main_v7) rfl (by decide),
   writes_sub_of_mem (y := main_v8) rfl (by decide),
   writes_sub_of_mem (y := main_v9) rfl (by decide),
   writes_sub_of_mem (y := main_v10) rfl (by decide),
   writes_sub_of_mem (y := main_v11) rfl (by decide),
   writes_sub_of_mem (y := main_v12) rfl (by decide),
   writes_sub_of_mem (y := main_v13) rfl (by decide),
   writes_sub_of_mem (y := main_v14) rfl (by decide),
   writes_sub_of_mem (y := main_v15) rfl (by decide),
   writes_sub_of_mem (y := main_v16) rfl (by decide)⟩

/-- A reference segment A does not write keeps its contents across it. -/
theorem keepA (W : Valuation τ sig (Elt Ideal)) {r : Ref sig .tc} (hr : r ∉ wA) :
    after (opsA (F := Ideal)) W (Proc.devRef .tc r) = W (Proc.devRef .tc r) :=
  after_of_writes_sub _ W opsA_writes hr

/-- The references segment B writes. -/
abbrev wB : List (Ref sig .tc) :=
  [main_cst, main_v17, main_cst_1, main_v18, main_v19, main_v20, main_v21, main_v22, main_v23, main_cst_2, main_v24, main_cst_3, main_v25, main_v26, main_v27, main_v28, main_v29, main_cst_4, main_v30, main_v31, main_v32, main_v33, main_v34, main_v35, main_v36, main_v37, main_v38, main_v39, main_v40, main_v41]

theorem opsB_writes : (opsB (F := Ideal)).Forall fun op => op.writes ⊆ ((wB).map (Proc.devRef (τ := τ) .tc)).toFinset :=
  ⟨writes_sub_of_mem (y := main_cst) rfl (by decide),
   writes_sub_of_mem (y := main_v17) rfl (by decide),
   writes_sub_of_mem (y := main_cst_1) rfl (by decide),
   writes_sub_of_mem (y := main_v18) rfl (by decide),
   writes_sub_of_mem (y := main_v19) rfl (by decide),
   writes_sub_of_mem (y := main_v20) rfl (by decide),
   writes_sub_of_mem (y := main_v21) rfl (by decide),
   writes_sub_of_mem (y := main_v22) rfl (by decide),
   writes_sub_of_mem (y := main_v23) rfl (by decide),
   writes_sub_of_mem (y := main_cst_2) rfl (by decide),
   writes_sub_of_mem (y := main_v24) rfl (by decide),
   writes_sub_of_mem (y := main_cst_3) rfl (by decide),
   writes_sub_of_mem (y := main_v25) rfl (by decide),
   writes_sub_of_mem (y := main_v26) rfl (by decide),
   writes_sub_of_mem (y := main_v27) rfl (by decide),
   writes_sub_of_mem (y := main_v28) rfl (by decide),
   writes_sub_of_mem (y := main_v29) rfl (by decide),
   writes_sub_of_mem (y := main_cst_4) rfl (by decide),
   writes_sub_of_mem (y := main_v30) rfl (by decide),
   writes_sub_of_mem (y := main_v31) rfl (by decide),
   writes_sub_of_mem (y := main_v32) rfl (by decide),
   writes_sub_of_mem (y := main_v33) rfl (by decide),
   writes_sub_of_mem (y := main_v34) rfl (by decide),
   writes_sub_of_mem (y := main_v35) rfl (by decide),
   writes_sub_of_mem (y := main_v36) rfl (by decide),
   writes_sub_of_mem (y := main_v37) rfl (by decide),
   writes_sub_of_mem (y := main_v38) rfl (by decide),
   writes_sub_of_mem (y := main_v39) rfl (by decide),
   writes_sub_of_mem (y := main_v40) rfl (by decide),
   writes_sub_of_mem (y := main_v41) rfl (by decide)⟩

/-- A reference segment B does not write keeps its contents across it. -/
theorem keepB (W : Valuation τ sig (Elt Ideal)) {r : Ref sig .tc} (hr : r ∉ wB) :
    after (opsB (F := Ideal)) W (Proc.devRef .tc r) = W (Proc.devRef .tc r) :=
  after_of_writes_sub _ W opsB_writes hr

/-- The references segment C writes. -/
abbrev wC : List (Ref sig .tc) :=
  [main_call0.cst.ref, main_call0.v0.ref, main_call0.v1.ref, main_call0.cst_0.ref, main_call0.v2.ref, main_call0.v3.ref, main_call0.cst_1.ref, main_call0.call0.v0.ref, main_call0.call0.v1.ref, main_call0.call0.v2.ref, main_call0.v5.ref, main_call0.cst_2.ref, main_call0.v6.ref, main_call0.v7.ref, main_call0.call1.v0.ref]

theorem opsC_writes : (opsC (F := Ideal)).Forall fun op => op.writes ⊆ ((wC).map (Proc.devRef (τ := τ) .tc)).toFinset :=
  ⟨writes_sub_of_mem (y := main_call0.cst.ref) rfl (by decide),
   writes_sub_of_mem (y := main_call0.v0.ref) rfl (by decide),
   writes_sub_of_mem (y := main_call0.v1.ref) rfl (by decide),
   writes_sub_of_mem (y := main_call0.cst_0.ref) rfl (by decide),
   writes_sub_of_mem (y := main_call0.v2.ref) rfl (by decide),
   writes_sub_of_mem (y := main_call0.v3.ref) rfl (by decide),
   writes_sub_of_mem (y := main_call0.cst_1.ref) rfl (by decide),
   writes_sub_of_mem (y := main_call0.call0.v0.ref) rfl (by decide),
   writes_sub_of_mem (y := main_call0.call0.v1.ref) rfl (by decide),
   writes_sub_of_mem (y := main_call0.call0.v2.ref) rfl (by decide),
   writes_sub_of_mem (y := main_call0.v5.ref) rfl (by decide),
   writes_sub_of_mem (y := main_call0.cst_2.ref) rfl (by decide),
   writes_sub_of_mem (y := main_call0.v6.ref) rfl (by decide),
   writes_sub_of_mem (y := main_call0.v7.ref) rfl (by decide),
   writes_sub_of_mem (y := main_call0.call1.v0.ref) rfl (by decide)⟩

/-- A reference segment C does not write keeps its contents across it. -/
theorem keepC (W : Valuation τ sig (Elt Ideal)) {r : Ref sig .tc} (hr : r ∉ wC) :
    after (opsC (F := Ideal)) W (Proc.devRef .tc r) = W (Proc.devRef .tc r) :=
  after_of_writes_sub _ W opsC_writes hr

/-- The references segment D0 writes. -/
abbrev wD0 : List (Ref sig .tc) :=
  [main_cst_5, main_v43, main_v44, main_v45, main_cst_6, main_v46, main_cst_7, main_v47, main_v48, main_v49]

theorem opsD0_writes : (opsD0 (F := Ideal)).Forall fun op => op.writes ⊆ ((wD0).map (Proc.devRef (τ := τ) .tc)).toFinset :=
  ⟨writes_sub_of_mem (y := main_cst_5) rfl (by decide),
   writes_sub_of_mem (y := main_v43) rfl (by decide),
   writes_sub_of_mem (y := main_v44) rfl (by decide),
   writes_sub_of_mem (y := main_v45) rfl (by decide),
   writes_sub_of_mem (y := main_cst_6) rfl (by decide),
   writes_sub_of_mem (y := main_v46) rfl (by decide),
   writes_sub_of_mem (y := main_cst_7) rfl (by decide),
   writes_sub_of_mem (y := main_v47) rfl (by decide),
   writes_sub_of_mem (y := main_v48) rfl (by decide),
   writes_sub_of_mem (y := main_v49) rfl (by decide)⟩

/-- A reference segment D0 does not write keeps its contents across it. -/
theorem keepD0 (W : Valuation τ sig (Elt Ideal)) {r : Ref sig .tc} (hr : r ∉ wD0) :
    after (opsD0 (F := Ideal)) W (Proc.devRef .tc r) = W (Proc.devRef .tc r) :=
  after_of_writes_sub _ W opsD0_writes hr

/-- The references segment D1 writes. -/
abbrev wD1 : List (Ref sig .tc) :=
  [main_cst_8, main_v50, main_v51, main_v52, main_v53, main_v54]

theorem opsD1_writes : (opsD1 (F := Ideal)).Forall fun op => op.writes ⊆ ((wD1).map (Proc.devRef (τ := τ) .tc)).toFinset :=
  ⟨writes_sub_of_mem (y := main_cst_8) rfl (by decide),
   writes_sub_of_mem (y := main_v50) rfl (by decide),
   writes_sub_of_mem (y := main_v51) rfl (by decide),
   writes_sub_of_mem (y := main_v52) rfl (by decide),
   writes_sub_of_mem (y := main_v53) rfl (by decide),
   writes_sub_of_mem (y := main_v54) rfl (by decide)⟩

/-- A reference segment D1 does not write keeps its contents across it. -/
theorem keepD1 (W : Valuation τ sig (Elt Ideal)) {r : Ref sig .tc} (hr : r ∉ wD1) :
    after (opsD1 (F := Ideal)) W (Proc.devRef .tc r) = W (Proc.devRef .tc r) :=
  after_of_writes_sub _ W opsD1_writes hr

/-- The references segment E writes. -/
abbrev wE : List (Ref sig .tc) :=
  [main_v55, main_v56, main_v57, main_v58, main_v59, main_v60]

theorem opsE_writes : (opsE (F := Ideal)).Forall fun op => op.writes ⊆ ((wE).map (Proc.devRef (τ := τ) .tc)).toFinset :=
  ⟨writes_sub_of_mem (y := main_v55) rfl (by decide),
   writes_sub_of_mem (y := main_v56) rfl (by decide),
   writes_sub_of_mem (y := main_v57) rfl (by decide),
   writes_sub_of_mem (y := main_v58) rfl (by decide),
   writes_sub_of_mem (y := main_v59) rfl (by decide),
   writes_sub_of_mem (y := main_v60) rfl (by decide)⟩

/-- A reference segment E does not write keeps its contents across it. -/
theorem keepE (W : Valuation τ sig (Elt Ideal)) {r : Ref sig .tc} (hr : r ∉ wE) :
    after (opsE (F := Ideal)) W (Proc.devRef .tc r) = W (Proc.devRef .tc r) :=
  after_of_writes_sub _ W opsE_writes hr

/-- The references segment F writes. -/
abbrev wF : List (Ref sig .tc) :=
  [main_cst_9, main_v61, main_cst_10, main_v62, main_v63, main_v64, main_v65, main_v66, main_v67, main_cst_11, main_v68, main_cst_12, main_v69, main_v70, main_v71, main_v72, main_v73, main_cst_13, main_v74, main_v75, main_v76, main_v77, main_v78, main_v79, main_v80, main_v81, main_v82, main_v83, main_v84, main_v85]

theorem opsF_writes : (opsF (F := Ideal)).Forall fun op => op.writes ⊆ ((wF).map (Proc.devRef (τ := τ) .tc)).toFinset :=
  ⟨writes_sub_of_mem (y := main_cst_9) rfl (by decide),
   writes_sub_of_mem (y := main_v61) rfl (by decide),
   writes_sub_of_mem (y := main_cst_10) rfl (by decide),
   writes_sub_of_mem (y := main_v62) rfl (by decide),
   writes_sub_of_mem (y := main_v63) rfl (by decide),
   writes_sub_of_mem (y := main_v64) rfl (by decide),
   writes_sub_of_mem (y := main_v65) rfl (by decide),
   writes_sub_of_mem (y := main_v66) rfl (by decide),
   writes_sub_of_mem (y := main_v67) rfl (by decide),
   writes_sub_of_mem (y := main_cst_11) rfl (by decide),
   writes_sub_of_mem (y := main_v68) rfl (by decide),
   writes_sub_of_mem (y := main_cst_12) rfl (by decide),
   writes_sub_of_mem (y := main_v69) rfl (by decide),
   writes_sub_of_mem (y := main_v70) rfl (by decide),
   writes_sub_of_mem (y := main_v71) rfl (by decide),
   writes_sub_of_mem (y := main_v72) rfl (by decide),
   writes_sub_of_mem (y := main_v73) rfl (by decide),
   writes_sub_of_mem (y := main_cst_13) rfl (by decide),
   writes_sub_of_mem (y := main_v74) rfl (by decide),
   writes_sub_of_mem (y := main_v75) rfl (by decide),
   writes_sub_of_mem (y := main_v76) rfl (by decide),
   writes_sub_of_mem (y := main_v77) rfl (by decide),
   writes_sub_of_mem (y := main_v78) rfl (by decide),
   writes_sub_of_mem (y := main_v79) rfl (by decide),
   writes_sub_of_mem (y := main_v80) rfl (by decide),
   writes_sub_of_mem (y := main_v81) rfl (by decide),
   writes_sub_of_mem (y := main_v82) rfl (by decide),
   writes_sub_of_mem (y := main_v83) rfl (by decide),
   writes_sub_of_mem (y := main_v84) rfl (by decide),
   writes_sub_of_mem (y := main_v85) rfl (by decide)⟩

/-- A reference segment F does not write keeps its contents across it. -/
theorem keepF (W : Valuation τ sig (Elt Ideal)) {r : Ref sig .tc} (hr : r ∉ wF) :
    after (opsF (F := Ideal)) W (Proc.devRef .tc r) = W (Proc.devRef .tc r) :=
  after_of_writes_sub _ W opsF_writes hr

/-- The references segment G writes. -/
abbrev wG : List (Ref sig .tc) :=
  [main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref]

theorem opsG_writes : (opsG (F := Ideal)).Forall fun op => op.writes ⊆ ((wG).map (Proc.devRef (τ := τ) .tc)).toFinset :=
  ⟨writes_sub_of_mem (y := main_call1.cst.ref) rfl (by decide),
   writes_sub_of_mem (y := main_call1.v0.ref) rfl (by decide),
   writes_sub_of_mem (y := main_call1.v1.ref) rfl (by decide),
   writes_sub_of_mem (y := main_call1.cst_0.ref) rfl (by decide),
   writes_sub_of_mem (y := main_call1.v2.ref) rfl (by decide),
   writes_sub_of_mem (y := main_call1.v3.ref) rfl (by decide),
   writes_sub_of_mem (y := main_call1.cst_1.ref) rfl (by decide),
   writes_sub_of_mem (y := main_call1.call0.v0.ref) rfl (by decide),
   writes_sub_of_mem (y := main_call1.call0.v1.ref) rfl (by decide),
   writes_sub_of_mem (y := main_call1.call0.v2.ref) rfl (by decide),
   writes_sub_of_mem (y := main_call1.v5.ref) rfl (by decide),
   writes_sub_of_mem (y := main_call1.cst_2.ref) rfl (by decide),
   writes_sub_of_mem (y := main_call1.v6.ref) rfl (by decide),
   writes_sub_of_mem (y := main_call1.v7.ref) rfl (by decide),
   writes_sub_of_mem (y := main_call1.call1.v0.ref) rfl (by decide)⟩

/-- A reference segment G does not write keeps its contents across it. -/
theorem keepG (W : Valuation τ sig (Elt Ideal)) {r : Ref sig .tc} (hr : r ∉ wG) :
    after (opsG (F := Ideal)) W (Proc.devRef .tc r) = W (Proc.devRef .tc r) :=
  after_of_writes_sub _ W opsG_writes hr

/-! ## What each segment computes -/

/-- Segment A leaves the first linear layer's output at %16. -/
theorem outA16 (W : Valuation τ sig (Elt Ideal)) :
    after (opsA (F := Ideal)) W (Proc.devRef .tc main_v16)
      = lin1 (W (Proc.devRef .tc main_arg0)) (W (Proc.devRef .tc main_arg1)) (W (Proc.devRef .tc main_arg2)) (W (Proc.devRef .tc main_arg5)) (W (Proc.devRef .tc main_arg6)) := by
  after_results_simp
  rfl

/-- Segment A leaves the destination vector at %3. -/
theorem outA3 (W : Valuation τ sig (Elt Ideal)) :
    after (opsA (F := Ideal)) W (Proc.devRef .tc main_v3) = colVec (W (Proc.devRef .tc main_arg1)) := by
  after_results_simp
  rfl

/-- Segment B leaves the first normalisation's output at %41. -/
theorem outB (W : Valuation τ sig (Elt Ideal)) :
    after (opsB (F := Ideal)) W (Proc.devRef .tc main_v41) = bn1 (W (Proc.devRef .tc main_v16)) (W (Proc.devRef .tc main_arg7)) (W (Proc.devRef .tc main_arg8)) := by
  after_results_simp
  rfl

/-- Segment C leaves the first activation's output at %42. -/
theorem outC (W : Valuation τ sig (Elt Ideal)) :
    after (opsC (F := Ideal)) W (Proc.devRef .tc main_v42) = elu1 (W (Proc.devRef .tc main_v41)) := by
  after_results_simp
  rfl

/-- Segment D leaves the scatter-mean at %54, from the activations at %42 and the destination vector at %3. -/
theorem outD (W : Valuation τ sig (Elt Ideal)) (ei : (⟨S2x800000, .i32⟩ : BufTy).Contents (Elt Ideal))
    (h3 : W (Proc.devRef .tc main_v3) = colVec ei) :
    after (opsD1 (F := Ideal)) (after (opsD0 (F := Ideal)) W) (Proc.devRef .tc main_v54) = agg (W (Proc.devRef .tc main_v42)) ei := by
  after_results_simp
  rw [h3]
  rfl

/-- Segment E leaves the second linear layer's output at %60. -/
theorem outE (W : Valuation τ sig (Elt Ideal)) :
    after (opsE (F := Ideal)) W (Proc.devRef .tc main_v60)
      = lin2 (W (Proc.devRef .tc main_arg0)) (W (Proc.devRef .tc main_v54)) (W (Proc.devRef .tc main_arg9)) (W (Proc.devRef .tc main_arg10)) := by
  after_results_simp
  rfl

/-- Segment F leaves the second normalisation's output at %85. -/
theorem outF (W : Valuation τ sig (Elt Ideal)) :
    after (opsF (F := Ideal)) W (Proc.devRef .tc main_v85) = bn2 (W (Proc.devRef .tc main_v60)) (W (Proc.devRef .tc main_arg11)) (W (Proc.devRef .tc main_arg12)) := by
  after_results_simp
  rfl

/-- Segment G leaves the result at %86. -/
theorem outG (W : Valuation τ sig (Elt Ideal)) :
    after (opsG (F := Ideal)) W (Proc.devRef .tc main_v86) = elu2 (W (Proc.devRef .tc main_v85)) := by
  after_results_simp
  rfl

/-! ## The segments composed -/

/-- The fold of the whole line is the segments' folds in order. -/
theorem after_ops (V : Valuation τ sig (Elt Ideal)) :
    after (ops (F := Ideal)) V
      = after opsG (after opsF (after opsE (after opsD1 (after opsD0 (after opsC (after opsB (after opsA V))))))) := by
  show after ((opsA ++ (opsB ++ (opsC ++ opsD0))) ++ (opsD1 ++ (opsE ++ (opsF ++ opsG)))) V = _
  simp only [after_append]

/-- A reference none of the first five segments writes holds its launch contents after them. -/
theorem keepAD (V : Valuation τ sig (Elt Ideal)) {r : Ref sig .tc} (hA : r ∉ wA) (hB : r ∉ wB) (hC : r ∉ wC)
    (hD0 : r ∉ wD0) (hD1 : r ∉ wD1) :
    after (opsD1 (F := Ideal)) (after opsD0 (after opsC (after opsB (after opsA V)))) (Proc.devRef .tc r) = V (Proc.devRef .tc r) := by
  rw [keepD1 _ hD1, keepD0 _ hD0, keepC _ hC, keepB _ hB, keepA _ hA]

/-- A reference no segment writes holds its launch contents at the end. -/
theorem keep_ops (V : Valuation τ sig (Elt Ideal)) {r : Ref sig .tc} (hA : r ∉ wA) (hB : r ∉ wB) (hC : r ∉ wC)
    (hD0 : r ∉ wD0) (hD1 : r ∉ wD1) (hE : r ∉ wE) (hF : r ∉ wF) (hG : r ∉ wG) :
    after (ops (F := Ideal)) V (Proc.devRef .tc r) = V (Proc.devRef .tc r) := by
  rw [after_ops, keepG _ hG, keepF _ hF, keepE _ hE, keepAD V hA hB hC hD0 hD1]

/-- The result buffer ends at the composition of the stages over the arguments' launch contents. -/
theorem out_eq (V : Valuation τ sig (Elt Ideal)) :
    after (ops (F := Ideal)) V (Proc.devRef .tc main_v86)
      = refOut (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  have e3 : after (opsC (F := Ideal)) (after opsB (after opsA V)) (Proc.devRef .tc main_v3) = colVec (V (Proc.devRef .tc main_arg1)) := by
    rw [keepC _ (by decide), keepB _ (by decide), outA3]
  rw [after_ops, outG, outF, outE,
    keepE _ (r := main_arg11) (by decide), keepE _ (r := main_arg12) (by decide),
    keepAD V (r := main_arg0) (by decide) (by decide) (by decide) (by decide) (by decide),
    keepAD V (r := main_arg9) (by decide) (by decide) (by decide) (by decide) (by decide),
    keepAD V (r := main_arg10) (by decide) (by decide) (by decide) (by decide) (by decide),
    keepAD V (r := main_arg11) (by decide) (by decide) (by decide) (by decide) (by decide),
    keepAD V (r := main_arg12) (by decide) (by decide) (by decide) (by decide) (by decide),
    outD _ (V (Proc.devRef .tc main_arg1)) e3, outC, outB, outA16,
    keepA V (r := main_arg7) (by decide), keepA V (r := main_arg8) (by decide)]
  rfl

/-! ## The run -/

/-- On every device, from any memory with zero counters: every weakly fair execution of @main terminates with the
    result at refOut of the arguments' launch contents and every argument unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v86)
          = refOut (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) :=
  (θ_run _ _ _).mono (fun _ h c =>
    ⟨(h c main_v86).trans (out_eq (launchContents m c)),
     (h c main_arg0).trans (keep_ops (launchContents m c) (by decide) (by decide) (by decide) (by decide) (by decide) (by decide) (by decide) (by decide)),
     (h c main_arg1).trans (keep_ops (launchContents m c) (by decide) (by decide) (by decide) (by decide) (by decide) (by decide) (by decide) (by decide)),
     (h c main_arg2).trans (keep_ops (launchContents m c) (by decide) (by decide) (by decide) (by decide) (by decide) (by decide) (by decide) (by decide)),
     (h c main_arg3).trans (keep_ops (launchContents m c) (by decide) (by decide) (by decide) (by decide) (by decide) (by decide) (by decide) (by decide)),
     (h c main_arg4).trans (keep_ops (launchContents m c) (by decide) (by decide) (by decide) (by decide) (by decide) (by decide) (by decide) (by decide)),
     (h c main_arg5).trans (keep_ops (launchContents m c) (by decide) (by decide) (by decide) (by decide) (by decide) (by decide) (by decide) (by decide)),
     (h c main_arg6).trans (keep_ops (launchContents m c) (by decide) (by decide) (by decide) (by decide) (by decide) (by decide) (by decide) (by decide)),
     (h c main_arg7).trans (keep_ops (launchContents m c) (by decide) (by decide) (by decide) (by decide) (by decide) (by decide) (by decide) (by decide)),
     (h c main_arg8).trans (keep_ops (launchContents m c) (by decide) (by decide) (by decide) (by decide) (by decide) (by decide) (by decide) (by decide)),
     (h c main_arg9).trans (keep_ops (launchContents m c) (by decide) (by decide) (by decide) (by decide) (by decide) (by decide) (by decide) (by decide)),
     (h c main_arg10).trans (keep_ops (launchContents m c) (by decide) (by decide) (by decide) (by decide) (by decide) (by decide) (by decide) (by decide)),
     (h c main_arg11).trans (keep_ops (launchContents m c) (by decide) (by decide) (by decide) (by decide) (by decide) (by decide) (by decide) (by decide)),
     (h c main_arg12).trans (keep_ops (launchContents m c) (by decide) (by decide) (by decide) (by decide) (by decide) (by decide) (by decide) (by decide))⟩)
    (run_after m ρ)

end Cert.ReferenceIdeal.Hand

end
-- ==== Proof.RefValue.lean ====
/-
  The reference program's value is the two-layer network of the specification.

  Each stage of the reference is one of the specification's whole-array functions: its affine layers (the two inputs
  joined along the columns, times the transposed weight, plus the bias repeated down the rows) are `lin`; its
  normalisation (column mean, mean squared deviation, reciprocal square root, scale, shift) followed by its
  activation (the value above zero, the exponential less one otherwise) is `layerC`.  The gather of the source rows
  and the aggregation onto the nodes are carried as they stand, on both sides.  Composing the stages gives `netR`.
-/
import proofs.«127109_j5042291605552_1_alg».proof.Proof.RefStages
import proofs.«127109_j5042291605552_1_alg».proof.Proof.SpecNet
import proofs.«127109_j5042291605552_1_alg».proof.Proof.ReadHost
import proofs.«127109_j5042291605552_1_alg».proof.Proof.LibBatchSums

noncomputable section

namespace Cert.ReferenceIdeal.Hand

open Cert.ReferenceIdeal Cert.ReferenceIdeal.Gen Idealize.ShloMosaic Idealize.ShloMosaic.ValueIdx

section RefValue

/-- The first affine layer is `lin` of the gathered source rows and the edge attributes. -/
theorem lin1_eq (x : (⟨S50000x128, .f32⟩ : BufTy).Contents (Elt Ideal)) (ei : (⟨S2x800000, .i32⟩ : BufTy).Contents (Elt Ideal))
    (ea : (⟨S800000x128, .f32⟩ : BufTy).Contents (Elt Ideal)) (w1 : (⟨S128x256, .f32⟩ : BufTy).Contents (Elt Ideal))
    (b1 : (⟨S128, .f32⟩ : BufTy).Contents (Elt Ideal)) :
    lin1 x ei ea w1 b1
      = Cert.Spec.lin (R := 800000) (Host.gather gather_S50000x128_S800000x1_S800000x128_1_0_n_n_0_1_1128 x (rowIx ei)) ea w1
          (fun q => b1 (ix1 q)) :=
  Cert.ReadHost.host_lin (R := 800000) _ rfl _ ea w1 b1 _ _ _ _

/-- The second affine layer is `lin` of the node features and the aggregate. -/
theorem lin2_eq (x ag : (⟨S50000x128, .f32⟩ : BufTy).Contents (Elt Ideal)) (w2 : (⟨S128x256, .f32⟩ : BufTy).Contents (Elt Ideal))
    (b2 : (⟨S128, .f32⟩ : BufTy).Contents (Elt Ideal)) :
    lin2 x ag w2 b2 = Cert.Spec.lin (R := 50000) x ag w2 (fun q => b2 (ix1 q)) :=
  Cert.ReadHost.host_lin (R := 50000) _ rfl x ag w2 b2 _ _ _ _

/-- Normalisation then activation over the edges is `layerC` with the 800000 divisor. -/
theorem act1_eq (h : (⟨S800000x128, .f32⟩ : BufTy).Contents (Elt Ideal)) (g be : (⟨S128, .f32⟩ : BufTy).Contents (Elt Ideal)) :
    elu1 (bn1 h g be)
      = Cert.Spec.layerC (R := 800000) (C := 128) (Ideal.ofBits .f32 0x3727C5AC#32) (Ideal.ofBits .f32 0x00000000#32)
          (Ideal.ofBits .f32 0x3F800000#32) (Ideal.ofBits .f32 0x49435000#32) h (fun q => g (ix1 q)) (fun q => be (ix1 q)) := by
  refine (Cert.ReadHost.host_elu (R := 800000) (N := 128) (bn1 h g be) bcast_S_S800000x128 Cert.LibBatchStats.ofBits_one).trans ?_
  funext i
  show Cert.Spec.elu (Ideal.ofBits .f32 0x00000000#32) 1 (bn1 h g be i)
    = Cert.Spec.elu (Ideal.ofBits .f32 0x00000000#32) (Ideal.ofBits .f32 0x3F800000#32) _
  rw [Cert.LibBatchStats.ofBits_one]
  exact congrArg (Cert.Spec.elu (Ideal.ofBits .f32 0x00000000#32) 1)
    (congrFun (Cert.ReadHost.host_norm (R := 800000) (N := 128) 0x49435000#32 0x3727C5AC#32 h g be _ _ _ _ _) i)

/-- Normalisation then activation over the nodes is `layerC` with the 50000 divisor. -/
theorem act2_eq (h : (⟨S50000x128, .f32⟩ : BufTy).Contents (Elt Ideal)) (g be : (⟨S128, .f32⟩ : BufTy).Contents (Elt Ideal)) :
    elu2 (bn2 h g be)
      = Cert.Spec.layerC (R := 50000) (C := 128) (Ideal.ofBits .f32 0x3727C5AC#32) (Ideal.ofBits .f32 0x00000000#32)
          (Ideal.ofBits .f32 0x3F800000#32) (Ideal.ofBits .f32 0x47435000#32) h (fun q => g (ix1 q)) (fun q => be (ix1 q)) := by
  refine (Cert.ReadHost.host_elu (R := 50000) (N := 128) (bn2 h g be) bcast_S_S50000x128 Cert.LibBatchStats.ofBits_one).trans ?_
  funext i
  show Cert.Spec.elu (Ideal.ofBits .f32 0x00000000#32) 1 (bn2 h g be i)
    = Cert.Spec.elu (Ideal.ofBits .f32 0x00000000#32) (Ideal.ofBits .f32 0x3F800000#32) _
  rw [Cert.LibBatchStats.ofBits_one]
  exact congrArg (Cert.Spec.elu (Ideal.ofBits .f32 0x00000000#32) 1)
    (congrFun (Cert.ReadHost.host_norm (R := 50000) (N := 128) 0x47435000#32 0x3727C5AC#32 h g be _ _ _ _ _) i)

/-- THE REFERENCE'S VALUE: the network of the specification, with the reference's own gather and aggregation. -/
theorem refOut_eq (x : (⟨S50000x128, .f32⟩ : BufTy).Contents (Elt Ideal)) (ei : (⟨S2x800000, .i32⟩ : BufTy).Contents (Elt Ideal))
    (ea : (⟨S800000x128, .f32⟩ : BufTy).Contents (Elt Ideal))
    (w1 : (⟨S128x256, .f32⟩ : BufTy).Contents (Elt Ideal)) (b1 g1 be1 : (⟨S128, .f32⟩ : BufTy).Contents (Elt Ideal))
    (w2 : (⟨S128x256, .f32⟩ : BufTy).Contents (Elt Ideal)) (b2 g2 be2 : (⟨S128, .f32⟩ : BufTy).Contents (Elt Ideal)) :
    refOut x ei ea w1 b1 g1 be1 w2 b2 g2 be2
      = Cert.Spec.netR (fun M => agg M ei) (Ideal.ofBits .f32 0x3727C5AC#32) (Ideal.ofBits .f32 0x00000000#32)
          (Ideal.ofBits .f32 0x3F800000#32) (Ideal.ofBits .f32 0x49435000#32) (Ideal.ofBits .f32 0x47435000#32) x
          (Host.gather gather_S50000x128_S800000x1_S800000x128_1_0_n_n_0_1_1128 x (rowIx ei)) ea
          w1 (fun q => b1 (ix1 q)) (fun q => g1 (ix1 q)) (fun q => be1 (ix1 q))
          w2 (fun q => b2 (ix1 q)) (fun q => g2 (ix1 q)) (fun q => be2 (ix1 q)) := by
  unfold refOut
  rw [lin1_eq, act1_eq, lin2_eq, act2_eq]
  rfl

end RefValue

end Cert.ReferenceIdeal.Hand

end
-- ==== Proof.AggReal.lean ====
/-
  The reference's aggregation keeps real numbers real.

  The aggregation is a scatter-mean: the per-destination sum of the edge features, divided element by element by the
  larger of the per-destination edge count and `1`. On the extended reals a scatter-add is the operand's element plus
  a finite sum of updates, so, whatever the indices are, real updates into a real operand give real elements: the sums
  are real, the counts (sums of ones) are real, the divisor is a real number that is at least `1`, and a real number
  over a nonzero real number is a real number.

  * `bcast_forall`: a property of every element of a vector is a property of every element of its broadcast;
  * `scatterAdd_isReal`: a scatter-add of real updates into a real operand;
  * `ones_eq`, `zeros_isReal`, `ones_isReal`: the splats of the literals `0` and `1`;
  * `divf_max_one_isReal`: a real vector over the (twice broadcast) larger of a real vector and `1`;
  * `segSum_isReal`, `segCnt_isReal`, `agg_isReal`: the reference's three stages.
-/
import proofs.«127109_j5042291605552_1_alg».proof.Proof.RefStages
import proofs.«127109_j5042291605552_1_alg».proof.Proof.LibIsReal
import proofs.«127109_j5042291605552_1_alg».proof.Proof.LibBatchStats
import proofs.«127109_j5042291605552_1_alg».proof.Proof.LibBatchSums

namespace Cert.AggReal

open Cert.ReferenceIdeal Cert.ReferenceIdeal.Gen Cert.ReferenceIdeal.Hand Cert.LibBatchStats Idealize.ShloMosaic

/-- A property that every element of a vector has, every element of its broadcast has: a broadcast only re-reads the
    elements. -/
theorem bcast_forall {α : Type} {s t : Shape} {dims : Fin s.rank → Fin t.rank} {h : s.BroadcastsInDim t dims}
    {x : s.Idx → α} {P : α → Prop} (hx : ∀ k, P (x k)) (j : t.Idx) : P (broadcastInDim t dims h x j) :=
  hx _

/-- A scatter-add, on the extended reals, of real updates into a real operand has real elements: each is the
    operand's element plus a finite sum of updates, whatever the indices. -/
theorem scatterAdd_isReal {s si u : Shape} {w : Nat} {φ : FTy} (d : ScatterDims s si u) {x : s.Idx → EReal}
    {idx : IVec si w} {upd : u.Idx → EReal} (hx : ∀ i, IsReal (x i)) (hupd : ∀ j, IsReal (upd j)) (i : s.Idx) :
    IsReal (Host.scatterAdd (F := Ideal) (φ := φ) d x idx upd i) := by
  show IsReal (Ideal.hostScatterAdd d x idx upd i)
  unfold Ideal.hostScatterAdd
  exact (hx i).add (IsReal.sum _ fun j _ => hupd j)

/-- A splat reads the literal's value everywhere. -/
theorem ones_eq {t : Shape} (h : S_.BroadcastsInDim t (![] : Fin 0 → Fin t.rank)) (b : BitVec 32) (j : t.Idx) :
    broadcastInDim t ![] h (constant (F := Ideal) S_ .f32 b) j = Ideal.ofBits .f32 b := rfl

/-- The splat of `+0.0` has real elements. -/
theorem zeros_isReal {t : Shape} (h : S_.BroadcastsInDim t (![] : Fin 0 → Fin t.rank)) (j : t.Idx) :
    IsReal (broadcastInDim t ![] h (constant (F := Ideal) S_ .f32 0x00000000#32) j) :=
  bcast_forall (P := IsReal) (fun _ => by show IsReal (Ideal.ofBits .f32 0x00000000#32); rw [ofBits_zero]; exact IsReal.zero) j

/-- The splat of `1.0` has real elements. -/
theorem ones_isReal {t : Shape} (h : S_.BroadcastsInDim t (![] : Fin 0 → Fin t.rank)) (j : t.Idx) :
    IsReal (broadcastInDim t ![] h (constant (F := Ideal) S_ .f32 0x3F800000#32) j) :=
  bcast_forall (P := IsReal) (fun _ => by show IsReal (Ideal.ofBits .f32 0x3F800000#32); rw [ofBits_one, ← EReal.coe_one]; exact IsReal.coe 1) j

/-- The per-destination sums of real edge features are real. -/
theorem segSum_isReal (hf : (⟨S800000x128, .f32⟩ : BufTy).Contents (Elt Ideal)) (ei : (⟨S2x800000, .i32⟩ : BufTy).Contents (Elt Ideal))
    (hhf : ∀ i, IsReal (hf i)) (i : S50000x128.Idx) : IsReal (segSum hf ei i) :=
  scatterAdd_isReal _ (zeros_isReal _) hhf i

/-- The per-destination edge counts are real. -/
theorem segCnt_isReal (ei : (⟨S2x800000, .i32⟩ : BufTy).Contents (Elt Ideal)) (k : S50000.Idx) : IsReal (segCnt ei k) :=
  scatterAdd_isReal _ (zeros_isReal _) (ones_isReal _) k

/-- A real sum divided, element by element, by the larger of a real count and `1` (the count broadcast twice on the
    way) is real. -/
theorem divf_max_one_isReal {s s1 s2 : Shape} {dims2 : Fin s2.rank → Fin s.rank} {dims1 : Fin s1.rank → Fin s2.rank}
    (h2 : s2.BroadcastsInDim s dims2) (h1 : s1.BroadcastsInDim s2 dims1)
    (h0 : S_.BroadcastsInDim s1 (![] : Fin 0 → Fin s1.rank)) {sum : s.Idx → EReal} {cnt : s1.Idx → EReal}
    (hsum : ∀ i, IsReal (sum i)) (hcnt : ∀ k, IsReal (cnt k)) (i : s.Idx) :
    IsReal (Host.divf (F := Ideal) (φ := .f32) sum
      (broadcastInDim s dims2 h2 (broadcastInDim s2 dims1 h1
        (maximumf (F := Ideal) (φ := .f32) cnt (broadcastInDim s1 ![] h0 (constant (F := Ideal) S_ .f32 0x3F800000#32))))) i) := by
  unfold Host.divf
  rw [Ideal.hostDivf_def]
  refine bcast_forall (P := fun y => IsReal (Ideal.div (sum i) y))
    (fun k => bcast_forall (P := fun y => IsReal (Ideal.div (sum i) y)) (fun k' => ?_) k) i
  unfold maximumf
  rw [Ideal.maximumf_def, ones_eq, ofBits_one]
  exact max_one_div (hsum i) (hcnt k')

/-- The scatter-mean of real edge features is real: a real sum over the larger of a real count and `1`. -/
theorem agg_isReal (hf : (⟨S800000x128, .f32⟩ : BufTy).Contents (Elt Ideal)) (ei : (⟨S2x800000, .i32⟩ : BufTy).Contents (Elt Ideal))
    (hhf : ∀ i, IsReal (hf i)) (i : S50000x128.Idx) : IsReal (agg hf ei i) := by
  unfold agg
  exact divf_max_one_isReal _ _ _ (segSum_isReal hf ei hhf) (segCnt_isReal ei) i

end Cert.AggReal
-- ==== Proof.LibRowGather.lean ====
/-
  A ROW GATHER READ AT AN ENTRY. `x[idx]` of a matrix `x : [N, C]` at a column of start indices `idx : [R, 1]`
  (offset axis 1 of the result, operand axis 0 collapsed, no batching axes, the start index naming operand axis 0, the
  index vector on axis 1 of the indices, slices of one whole row `[1, C]`) has the result `[R, C]` whose entry
  `(e, j)` is the operand's entry at row `clamp(idx[e, 0])` and column `j`: the start index is read as a signed
  integer and clamped into `[0, N − 1]` on axis 0 (the extent less the slice size 1), and on axis 1 the start is 0
  (the extent less the slice size is `C − C`, and the start index map does not name that axis), so the column is the
  result's own offset coordinate `j`.
  * `rowDims`: those dimension numbers, for any `N`, `R`, `C`;
  * `rowOf`: the row read, a function of the indices, the result's row and `N` alone;
  * `gather_rows_apply`: the gather at `(e, j)` is the operand at `(rowOf …, j)`; hence two operands of one shape are
    read at the same row (`gather_rows_same_row`).
-/
import Idealize.ShloMosaic.Lib.ValueIdx

noncomputable section

namespace Cert.LibRowGather

open Idealize.ShloMosaic Idealize.ShloMosaic.ValueIdx
open scoped BigOperators

/-- The dimension numbers of a row gather, for an operand `[N, C]`, start indices `[R, 1]` and result `[R, C]`; their
    conditions `wf` are decided on a program's literal shapes. -/
abbrev rowDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a row gather reads for result row `e`: the start index `idx[e, 0]`, read signed, clamped into
    `[0, N − 1]`. It does not mention the operand. -/
def rowOf {N R w : ℕ} (hN : 0 < N) (idx : IVec ⟨2, ![R, 1]⟩ w) (e : Fin R) : Fin N :=
  ⟨min (idx (ix2 e (0 : Fin 1))).toInt.toNat (N - 1), by omega⟩

/-- THE ROW GATHER READ AT `(e, j)`: the operand at row `clamp(idx[e, 0])`, column `j`. -/
theorem gather_rows_apply {α : Type} {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    -- axis 0: the clamped start index; no batching coordinate; collapsed, so no offset coordinate
    show (rowDims N R C wf).start (ix2 e j) idx 0 + (rowDims N R C wf).batchCoord (ix2 e j) 0
        + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not named by the start index map, so the start is 0; no batching coordinate; the offset coordinate is j
    show (rowDims N R C wf).start (ix2 e j) idx 1 + (rowDims N R C wf).batchCoord (ix2 e j) 1
        + (rowDims N R C wf).offCoord (ix2 e j) 1 = _
    rw [GatherDims.batchCoord_eq_zero _ _ _ List.not_mem_nil]
    unfold GatherDims.start
    rw [dif_neg (show ¬ (1 : Fin 2) ∈ (rowDims N R C wf).startIndexMap from
      fun h => absurd (List.mem_singleton.mp h) (show ¬ (1 : Fin 2) = 0 by decide))]
    simp only [Nat.add_zero, Nat.zero_add]
    rfl

/-- The same, with the row named: the row read depends on the indices, the result's row and `N` alone. -/
theorem gather_rows_apply' {α : Type} {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) :=
  gather_rows_apply hN wf x idx e j

/-- Two operands of one shape gathered at the same indices are read at the same row: if they agree on that row's
    entry they agree at the result's entry. -/
theorem gather_rows_same_row {α β : Type} {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (x' : (⟨2, ![N, C]⟩ : Shape).Idx → β) (idx : IVec ⟨2, ![R, 1]⟩ w)
    (e : Fin R) (j : Fin C) :
    ∃ n : Fin N, Host.gather (rowDims N R C wf) x idx (ix2 e j) = x (ix2 n j)
      ∧ Host.gather (rowDims N R C wf) x' idx (ix2 e j) = x' (ix2 n j) :=
  ⟨rowOf hN idx e, gather_rows_apply' hN wf x idx e j, gather_rows_apply' hN wf x' idx e j⟩

-- the statement at literal shapes, as a program writes them
example (wf : GatherDims.WF ⟨2, ![100000, 64]⟩ ⟨2, ![1600000, 1]⟩ ⟨2, ![1600000, 64]⟩ [1] [0] [] [0] [] 1 ![1, 64])
    (x : (⟨2, ![100000, 64]⟩ : Shape).Idx → EReal) (idx : IVec ⟨2, ![1600000, 1]⟩ 32) (e : Fin 1600000) (j : Fin 64) :
    Host.gather (rowDims 100000 1600000 64 wf) x idx (ix2 e j)
      = x (ix2 ⟨min (idx (ix2 e (0 : Fin 1))).toInt.toNat (100000 - 1), by omega⟩ j) :=
  gather_rows_apply (by omega) wf x idx e j

end Cert.LibRowGather

end
-- ==== Proof.XrReal.lean ====
/-
  Every entry of the gathered source rows is an entry of the node features: the gather reads, for edge e and column
  j, the operand at the row the edge's start index names (clamped into range) and the same column. So real node
  features give real gathered rows.
-/
import proofs.«127109_j5042291605552_1_alg».proof.Proof.KHost
import proofs.«127109_j5042291605552_1_alg».proof.Proof.LibRowGather
import proofs.«127109_j5042291605552_1_alg».proof.Proof.LibIsReal

noncomputable section

namespace Cert.KernelIdeal.Hand

open Cert.KernelIdeal Cert.KernelIdeal.Gen
open Idealize.ShloMosaic Idealize.ShloMosaic.ValueIdx

/-- The gathered array at edge e, column j is the node features at the clamped source row of e, column j. -/
theorem xrK_apply (x : (⟨S50000x128, .f32⟩ : BufTy).Contents (Elt Ideal)) (ei : (⟨S2x800000, .i32⟩ : BufTy).Contents (Elt Ideal))
    (e : Fin 800000) (j : Fin 128) :
    xrK (F := Ideal) x ei (ix2 e j)
      = x (ix2 (Cert.LibRowGather.rowOf (N := 50000) (by omega) (rowIxK (F := Ideal) ei) e) j) :=
  Cert.LibRowGather.gather_rows_apply' (N := 50000) (R := 800000) (C := 128) (by omega)
    gather_S50000x128_S800000x1_S800000x128_1_0_n_n_0_1_1128_wf x (rowIxK (F := Ideal) ei) e j

/-- Real node features give real gathered rows. -/
theorem xr_isReal (x : (⟨S50000x128, .f32⟩ : BufTy).Contents (Elt Ideal)) (ei : (⟨S2x800000, .i32⟩ : BufTy).Contents (Elt Ideal))
    (hx : ∀ i, IsReal (x i)) : ∀ i, IsReal (xrK (F := Ideal) x ei i) := by
  intro i
  have h : xrK (F := Ideal) x ei i
      = x (ix2 (Cert.LibRowGather.rowOf (N := 50000) (by omega) (rowIxK (F := Ideal) ei) (i 0)) (i 1)) :=
    (congrArg (xrK (F := Ideal) x ei) (eq_ix2 (n0 := 800000) (n1 := 128) i)).trans (xrK_apply x ei (i 0) (i 1))
  rw [h]
  exact hx _

end Cert.KernelIdeal.Hand

end
-- ==== Proof.RefBridge.lean ====
/-
  On real inputs the reference's value is also the network with the variance as the difference of moments.

  The reference computes the variance as the mean squared deviation; on matrices of real numbers, with the divisor the
  number of rows, that equals the mean of the squares less the square of the mean.  The inputs are real by hypothesis;
  the gathered source rows are entries of the node features, hence real; the aggregation keeps real matrices real; the
  three constants involved denote a positive real number, 800000 and 50000, and the activation's offset denotes 1.
-/
import proofs.«127109_j5042291605552_1_alg».proof.Proof.RefValue
import proofs.«127109_j5042291605552_1_alg».proof.Proof.SpecNet
import proofs.«127109_j5042291605552_1_alg».proof.Proof.AggReal
import proofs.«127109_j5042291605552_1_alg».proof.Proof.LibBatchSums
import proofs.«127109_j5042291605552_1_alg».proof.Proof.XrReal

noncomputable section

namespace Cert.ReferenceIdeal.Hand

open Cert.ReferenceIdeal Cert.ReferenceIdeal.Gen Idealize.ShloMosaic Idealize.ShloMosaic.ValueIdx Cert.LibBatchStats

section RefBridge

/-- The gathered source rows of real node features are real: each is an entry of the node features. -/
theorem gather_isReal (x : (⟨S50000x128, .f32⟩ : BufTy).Contents (Elt Ideal)) (ei : (⟨S2x800000, .i32⟩ : BufTy).Contents (Elt Ideal))
    (hx : ∀ i, IsReal (x i)) :
    ∀ i, IsReal (Host.gather gather_S50000x128_S800000x1_S800000x128_1_0_n_n_0_1_1128 x (rowIx ei) i) :=
  Cert.KernelIdeal.Hand.xr_isReal x ei hx

/-- The pattern of 1.0 denotes a real number. -/
theorem one_word_isReal : IsReal (Ideal.ofBits .f32 0x3F800000#32) := by
  rw [ofBits_one, ← EReal.coe_one]; exact IsReal.coe 1

/-- THE REFERENCE'S VALUE ON REAL INPUTS: the network with the variance as the difference of moments. -/
theorem refOut_eq_netK (x : (⟨S50000x128, .f32⟩ : BufTy).Contents (Elt Ideal)) (ei : (⟨S2x800000, .i32⟩ : BufTy).Contents (Elt Ideal))
    (ea : (⟨S800000x128, .f32⟩ : BufTy).Contents (Elt Ideal))
    (w1 : (⟨S128x256, .f32⟩ : BufTy).Contents (Elt Ideal)) (b1 g1 be1 : (⟨S128, .f32⟩ : BufTy).Contents (Elt Ideal))
    (w2 : (⟨S128x256, .f32⟩ : BufTy).Contents (Elt Ideal)) (b2 g2 be2 : (⟨S128, .f32⟩ : BufTy).Contents (Elt Ideal))
    (hx : ∀ i, IsReal (x i)) (hea : ∀ i, IsReal (ea i)) (hw1 : ∀ i, IsReal (w1 i)) (hb1 : ∀ i, IsReal (b1 i))
    (hg1 : ∀ i, IsReal (g1 i)) (hbe1 : ∀ i, IsReal (be1 i)) (hw2 : ∀ i, IsReal (w2 i)) (hb2 : ∀ i, IsReal (b2 i))
    (hg2 : ∀ i, IsReal (g2 i)) (hbe2 : ∀ i, IsReal (be2 i)) :
    refOut x ei ea w1 b1 g1 be1 w2 b2 g2 be2
      = Cert.Spec.netK (fun M => agg M ei) (Ideal.ofBits .f32 0x3727C5AC#32) (Ideal.ofBits .f32 0x00000000#32)
          (Ideal.ofBits .f32 0x3F800000#32) (Ideal.ofBits .f32 0x49435000#32) (Ideal.ofBits .f32 0x47435000#32) x
          (Host.gather gather_S50000x128_S800000x1_S800000x128_1_0_n_n_0_1_1128 x (rowIx ei)) ea
          w1 (fun q => b1 (ix1 q)) (fun q => g1 (ix1 q)) (fun q => be1 (ix1 q))
          w2 (fun q => b2 (ix1 q)) (fun q => g2 (ix1 q)) (fun q => be2 (ix1 q)) := by
  rw [refOut_eq]
  obtain ⟨e, he, hE⟩ := ofBits_eps
  rw [hE, ofBits_800000, ofBits_50000]
  exact (Cert.Spec.netK_eq_netR (fun M => agg M ei) (fun M hM => Cert.AggReal.agg_isReal M ei hM) he
    (Ideal.ofBits .f32 0x00000000#32) one_word_isReal hx (gather_isReal x ei hx) hea hw1 (fun q => hb1 (ix1 q))
    (fun q => hg1 (ix1 q)) (fun q => hbe1 (ix1 q)) hw2 (fun q => hb2 (ix1 q)) (fun q => hg2 (ix1 q))
    (fun q => hbe2 (ix1 q))).symm

end RefBridge

end Cert.ReferenceIdeal.Hand

end
-- ==== Proof.PreReal.lean ====
/-
  The precondition, read back: every entry of every float argument is a real number.

  The precondition is the conjunction, over the float arguments, of "every entry has absolute value below +∞":
  each conjunct is a comparison of |x| against the pattern of +∞, reduced by "and" over all axes to one bit, and
  the bits are joined by "and".  An "and" that is 1 has both operands 1; a reduction by "and" that is 1 met a 1 at
  every entry; the pattern 0x7F800000 denotes ⊤; and an extended real whose absolute value max x (-x) is below ⊤
  is neither ⊤ nor ⊥, hence a real number.
-/
import proofs.«127109_j5042291605552_1_alg».proof.Pre_finite_inputs
import proofs.«127109_j5042291605552_1_alg».proof.Proof.Gen.Pre_finite_inputs
import proofs.«127109_j5042291605552_1_alg».proof.Proof.LibIsReal
import Idealize.ShloMosaic.Lib.ReduceAll
import Idealize.ShloMosaic.Lib.ValueIdx

noncomputable section

namespace Cert.PreReal

open Idealize.ShloMosaic Cert.Pre_finite_inputs

/-- The rank-0 shape has one index. -/
instance : Subsingleton S_.Idx := ⟨fun a b => funext fun d => d.elim0⟩

/-- The single-precision pattern of +∞ denotes ⊤. -/
theorem ofBits_inf : Ideal.ofBits .f32 0x7F800000#32 = (⊤ : EReal) := by
  simp [Ideal.ofBits, Ideal.ieee]

/-- A strict comparison against ⊤ that answers 1 says the left side is below ⊤. -/
theorem lt_top_of_cmp {x : EReal} (h : Ideal.cmp .olt x ⊤ = 1#1) : x < ⊤ := by
  by_contra hn
  have : Ideal.cmp .olt x ⊤ = 0#1 := by
    show BitVec.ofBool (decide (x < ⊤)) = 0#1
    rw [decide_eq_false hn]; rfl
  rw [this] at h
  exact absurd h (by decide)

/-- One conjunct: if "every entry of |a| is below +∞", reduced over all axes, is 1, every entry of a is real. -/
theorem isReal_of_all_lt_inf {S : Shape} (hb : S_.BroadcastsInDim S (![] : Fin 0 → Fin S.rank))
    {axes : List (Fin S.rank)} (hr : S.ReducesTo axes S_) (h0 : 0 < S_.numel)
    (a : FVec Ideal S .f32) (j : S_.Idx)
    (e : Host.reduce IntOp.andi
          (cmpf .olt (Host.absf a) (broadcastInDim S ![] hb (constant (F := Ideal) S_ .f32 0x7F800000#32)))
          (constantI S_ 1 1#1) hr h0 j = 1#1) :
    ∀ i, IsReal (a i) := by
  intro i
  have hi := Host.reduce_andi_all _ _ hr h0 j e i
  have hc : Ideal.cmp .olt (max (a i) (-(a i))) (Ideal.ofBits .f32 0x7F800000#32) = 1#1 := hi
  rw [ofBits_inf] at hc
  exact isReal_of_abs_lt_top (lt_top_of_cmp hc)

variable [Cert.Pre_finite_inputs.Facts]

/-- An elementwise "and" of two one-bit arrays is 1 at an index exactly when both are. -/
theorem andi_apply_eq_one {s : Shape} (x y : IVec s 1) (j : s.Idx) :
    andi x y j = 1#1 ↔ x j = 1#1 ∧ y j = 1#1 :=
  IntOp.andi_eq_one

/-- The precondition read back, every float argument: all eleven arrays hold real numbers only. -/
theorem real_of_finite_all (a0 : FVec Ideal S50000x128 .f32) (a1 : IVec S2x800000 32) (a2 : FVec Ideal S800000x128 .f32)
    (a3 : FVec Ideal S256x128 .f32) (a4 : IVec S50000 32) (a5 : FVec Ideal S128x256 .f32) (a6 a7 a8 : FVec Ideal S128 .f32)
    (a9 : FVec Ideal S128x256 .f32) (a10 a11 a12 : FVec Ideal S128 .f32)
    (h : Cert.Pre_finite_inputs.fn (F := Ideal) a0 a1 a2 a3 a4 a5 a6 a7 a8 a9 a10 a11 a12 = (fun _ => 1#1)) :
    (∀ i, IsReal (a0 i)) ∧ (∀ i, IsReal (a2 i)) ∧ (∀ i, IsReal (a3 i)) ∧ (∀ i, IsReal (a5 i)) ∧ (∀ i, IsReal (a6 i)) ∧
      (∀ i, IsReal (a7 i)) ∧ (∀ i, IsReal (a8 i)) ∧ (∀ i, IsReal (a9 i)) ∧ (∀ i, IsReal (a10 i)) ∧ (∀ i, IsReal (a11 i)) ∧
      (∀ i, IsReal (a12 i)) := by
  have e := congrFun h ValueIdx.ix0
  simp only [fn, fn_part1, fn_part2, fn_part3, andi_apply_eq_one] at e
  obtain ⟨⟨⟨⟨⟨⟨⟨⟨⟨⟨e0, e2⟩, e3⟩, e5⟩, e6⟩, e7⟩, e8⟩, e9⟩, e10⟩, e11⟩, e12⟩ := e
  exact ⟨isReal_of_all_lt_inf _ _ _ a0 _ e0, isReal_of_all_lt_inf _ _ _ a2 _ e2, isReal_of_all_lt_inf _ _ _ a3 _ e3,
    isReal_of_all_lt_inf _ _ _ a5 _ e5, isReal_of_all_lt_inf _ _ _ a6 _ e6, isReal_of_all_lt_inf _ _ _ a7 _ e7,
    isReal_of_all_lt_inf _ _ _ a8 _ e8, isReal_of_all_lt_inf _ _ _ a9 _ e9, isReal_of_all_lt_inf _ _ _ a10 _ e10,
    isReal_of_all_lt_inf _ _ _ a11 _ e11, isReal_of_all_lt_inf _ _ _ a12 _ e12⟩

/-- The precondition read back, the arrays the computation's value depends on. -/
theorem real_of_finite (a0 : FVec Ideal S50000x128 .f32) (a1 : IVec S2x800000 32) (a2 : FVec Ideal S800000x128 .f32)
    (a3 : FVec Ideal S256x128 .f32) (a4 : IVec S50000 32) (a5 : FVec Ideal S128x256 .f32) (a6 a7 a8 : FVec Ideal S128 .f32)
    (a9 : FVec Ideal S128x256 .f32) (a10 a11 a12 : FVec Ideal S128 .f32)
    (h : Cert.Pre_finite_inputs.fn (F := Ideal) a0 a1 a2 a3 a4 a5 a6 a7 a8 a9 a10 a11 a12 = (fun _ => 1#1)) :
    (∀ i, IsReal (a0 i)) ∧ (∀ i, IsReal (a2 i)) ∧ (∀ i, IsReal (a5 i)) ∧ (∀ i, IsReal (a6 i)) ∧ (∀ i, IsReal (a7 i)) ∧
      (∀ i, IsReal (a8 i)) ∧ (∀ i, IsReal (a9 i)) ∧ (∀ i, IsReal (a10 i)) ∧ (∀ i, IsReal (a11 i)) ∧ (∀ i, IsReal (a12 i)) := by
  obtain ⟨h0, h2, -, h5, h6, h7, h8, h9, h10, h11, h12⟩ := real_of_finite_all a0 a1 a2 a3 a4 a5 a6 a7 a8 a9 a10 a11 a12 h
  exact ⟨h0, h2, h5, h6, h7, h8, h9, h10, h11, h12⟩

end Cert.PreReal

end
-- ==== Proof.lean ====
/-
  THE CERTIFICATE of a two-layer graph network's kernel against its reference: for every node, its own features and the mean of
  its incoming edges' activations pass through an affine layer, a batch normalisation with the batch's own statistics
  and an exponential linear unit; the edges' activations come from the same three steps applied to the gathered source
  features joined with the edge attributes.

  The kernel computes each affine layer in blocks of rows, as two 128-column products added (the reference multiplies the
  joined 256 columns at once: the same sum, split in two), accumulates each column's sum and sum of squares across the
  blocks (the same sums, grouped), and takes a column's variance as the mean of the squares less the square of the mean;
  the reference takes it as the mean of the squared deviations. Those two agree on real numbers and not at infinities, so
  this is where the precondition — every float input is finite — is used: finite inputs keep every intermediate entry a real
  number through both layers (a gathered row is a row of the input; a scattered sum is a finite sum; the edge count is floored
  at one before dividing). Everything else — the conversions to and from bfloat16, the reshapes, the broadcast literals — reads
  the same on both sides on the extended reals.

  The three frames are the launch certificates of the printed programs (the reference's is its run with the result dropped);
  the idealization rewrote nothing, so it is preserved trivially.
-/
import proofs.«127109_j5042291605552_1_alg».proof.Defs
import proofs.«127109_j5042291605552_1_alg».proof.Proof.Gen.Kernel
import proofs.«127109_j5042291605552_1_alg».proof.Proof.Gen.Kernel.Skeleton
import proofs.«127109_j5042291605552_1_alg».proof.Proof.Gen.Kernel.Points
import proofs.«127109_j5042291605552_1_alg».proof.Proof.KernelLaunchP
import proofs.«127109_j5042291605552_1_alg».proof.Proof.KernelFrameP
import proofs.«127109_j5042291605552_1_alg».proof.Proof.Gen.KernelIdeal
import proofs.«127109_j5042291605552_1_alg».proof.Proof.Gen.KernelIdeal.Skeleton
import proofs.«127109_j5042291605552_1_alg».proof.Proof.Gen.KernelIdeal.Points
import proofs.«127109_j5042291605552_1_alg».proof.Proof.KernelIdealLaunchP
import proofs.«127109_j5042291605552_1_alg».proof.Proof.KernelIdealFrameP
import proofs.«127109_j5042291605552_1_alg».proof.Proof.Gen.ReferenceIdeal
import proofs.«127109_j5042291605552_1_alg».proof.Proof.Gen.Pre_finite_inputs
import proofs.«127109_j5042291605552_1_alg».proof.Proof.KRun
import proofs.«127109_j5042291605552_1_alg».proof.Proof.KValue
import proofs.«127109_j5042291605552_1_alg».proof.Proof.RefRun
import proofs.«127109_j5042291605552_1_alg».proof.Proof.RefBridge
import proofs.«127109_j5042291605552_1_alg».proof.Proof.PreReal
import Idealize.ShloMosaic.Adequacy
import Idealize.ShloMosaic.Init

noncomputable section

namespace Cert.Proof

open Idealize.ShloMosaic Idealize.SL.Sem

theorem frame_p : Cert.frame_Kernel := fun m ρ _ => Cert.Kernel.GenP.frame m ρ
theorem frame_pi : Cert.frame_KernelIdeal := fun m ρ _ => Cert.KernelIdeal.GenP.frame m ρ
/-- The reference's frame: its run, with the result dropped. -/
theorem frame_ri : Cert.frame_ReferenceIdeal := fun m ρ _ =>
  (θ_run Cert.ReferenceIdeal.defs _ _).mono (fun _ h c => (h c).2) (Cert.ReferenceIdeal.Hand.run m ρ)
theorem preserves : Cert.preserves_Kernel_KernelIdeal := trivial

/-- On finite inputs both idealized programs end with the same result: the kernel's is the two-layer network with each
    variance as a difference of moments, the reference's the same network with each variance as a mean squared deviation,
    and on real numbers the two variances are one. -/
theorem algebraic : Cert.algebraic_KernelIdeal_ReferenceIdeal := by
  intro m g m' g' hpre hagree
  refine ⟨fun c => Cert.KernelIdeal.Hand.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Hand.kernel_value m g c), (h c).2⟩)
      (Cert.KernelIdeal.Hand.run_result (F := Ideal) m g)
  · refine (θ_run Cert.ReferenceIdeal.defs _ _).mono (fun r h c => ⟨(h c).1.trans ?_, (h c).2⟩)
      (Cert.ReferenceIdeal.Hand.run m' g')
    obtain ⟨e0, e1, e2, e3, e4, e5, e6, e7, e8, e9, e10, e11, e12⟩ := hagree c
    rw [e0, e1, e2, e5, e6, e7, e8, e9, e10, e11, e12]
    obtain ⟨r0, r2, r5, r6, r7, r8, r9, r10, r11, r12⟩ := Cert.PreReal.real_of_finite _ _ _ _ _ _ _ _ _ _ _ _ _ (hpre c)
    rw [Cert.ReferenceIdeal.Hand.refOut_eq_netK _ _ _ _ _ _ _ _ _ _ _ r0 r2 r5 r6 r7 r8 r9 r10 r11 r12]
    show _ = Cert.KernelIdeal.Hand.outK _ _ _ _ _ _ _ _ _ _ _
    rw [Cert.KernelIdeal.Hand.outK_eq_netK]
    -- the two sides now differ only in how the shared gather and scatter-mean are spelled: the same operations
    rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
